-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v86) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S1600000 : Shape := ⟨1, ![1600000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  main_v18

def fn {F : FTy → Type} [FloatOps F] (main_arg0 : FVec F S100000x128 .f32) (main_arg1 : FVec F S1600000 .f32) (main_arg2 : FVec F S3x128x128 .f32) (main_arg3 : FVec F S3x128 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg1
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S3x128x128 .f32 := Host.absf main_arg2
  let main_cst_2 : FVec F S_ .f32 := constant S_ .f32 0x7F800000#32
  let main_v10 : FVec F S3x128x128 .f32 := broadcastInDim S3x128x128 ![] bcast_S_S3x128x128 main_cst_2
  let main_v11 : IVec S3x128x128 1 := cmpf .olt main_v9 main_v10
  let main_c_3 : IVec S_ 1 := constantI S_ 1 1#1
  let main_v12 : IVec S_ 1 := (fun x v => Host.reduce IntOp.andi x v reducesTo_S3x128x128_S_d0_1_2 h_S_) main_v11 main_c_3
  let main_v13 : IVec S_ 1 := andi main_v8 main_v12
  let main_v14 : FVec F S3x128 .f32 := Host.absf main_arg3
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_v13 main_v16
-- ==== Kernel.lean ====
abbrev S100000x128 : Shape := ⟨2, ![100000, 128]⟩
abbrev S1600000 : Shape := ⟨1, ![1600000]⟩
abbrev S3x128x128 : Shape := ⟨3, ![3, 128, 128]⟩
abbrev S3x128 : Shape := ⟨2, ![3, 128]⟩
abbrev S_ : Shape := ⟨0, ![]⟩
abbrev S100000 : Shape := ⟨1, ![100000]⟩
abbrev S1600000x1 : Shape := ⟨2, ![1600000, 1]⟩
abbrev S1x128x128 : Shape := ⟨3, ![1, 128, 128]⟩
abbrev S128x128 : Shape := ⟨2, ![128, 128]⟩
abbrev S106496x128 : Shape := ⟨2, ![106496, 128]⟩
abbrev S8192x128 : Shape := ⟨2, ![8192, 128]⟩
abbrev S1600000x128 : Shape := ⟨2, ![1600000, 128]⟩
abbrev S1x128 : Shape := ⟨2, ![1, 128]⟩
abbrev S128 : Shape := ⟨1, ![128]⟩

abbrev nBuf : Space → Nat
  | .hbm => 116
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S1600000, .f32⟩
  | .hbm, ⟨2, _⟩ => ⟨S3x128x128, .f32⟩
  | .hbm, ⟨3, _⟩ => ⟨S3x128, .f32⟩
  | .hbm, ⟨4, _⟩ => ⟨S1600000, .i32⟩
  | .hbm, ⟨5, _⟩ => ⟨S1600000, .i32⟩
  | .hbm, ⟨6, _⟩ => ⟨S_, .f32⟩
  | .hbm, ⟨7, _⟩ => ⟨S100000, .f32⟩
  | .hbm, ⟨8, _⟩ => ⟨S1600000x1, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S1600000x1, .i32⟩
  | .hbm, ⟨13, _⟩ => ⟨S100000, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000, .f32⟩
  | .hbm, ⟨23, _⟩ => ⟨S_, .i32⟩
  | .hbm, ⟨24, _⟩ => ⟨S1600000, .i32⟩
  | .hbm, ⟨25, _⟩ => ⟨S1600000, .i1⟩
  | .hbm, ⟨26, _⟩ => ⟨S_, .i32⟩
  | .hbm, ⟨27, _⟩ => ⟨S1600000, .i32⟩
  | .hbm, ⟨28, _⟩ => ⟨S1600000, .i32⟩
  | .hbm, ⟨29, _⟩ => ⟨S1600000, .i32⟩
  | .hbm, ⟨30, _⟩ => ⟨S1600000x1, .i32⟩
  | .hbm, ⟨31, _⟩ => ⟨S1600000, .f32⟩
  | .hbm, ⟨32, _⟩ => ⟨S1600000, .f32⟩
  | .hbm, ⟨33, _⟩ => ⟨S1600000, .f32⟩
  | .hbm, ⟨34, _⟩ => ⟨S1600000, .f32⟩
  | .hbm, ⟨35, _⟩ => ⟨S1600000x1, .f32⟩
  | .hbm, ⟨36, _⟩ => ⟨S1x128x128, .f32⟩
  | .hbm, ⟨37, _⟩ => ⟨S128x128, .f32⟩
  | .hbm, ⟨38, _⟩ => ⟨S_, .i32⟩
  | .hbm, ⟨39, _⟩ => ⟨S_, .f32⟩
  | .hbm, ⟨40, _⟩ => ⟨S106496x128, .f32⟩
  | .hbm, ⟨41, _⟩ => ⟨S106496x128, .f32⟩
  | .hbm, ⟨42, _⟩ => ⟨S100000x128, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x128, .f32⟩
  | .hbm, ⟨52, _⟩ => ⟨S1600000x128, .f32⟩
  | .hbm, ⟨53, _⟩ => ⟨S1600000x128, .f32⟩
  | .hbm, ⟨54, _⟩ => ⟨S_, .f32⟩
  | .hbm, ⟨55, _⟩ => ⟨S100000x128, .f32⟩
  | .hbm, ⟨56, _⟩ => ⟨S1600000x1, .i32⟩
  | .hbm, ⟨57, _⟩ => ⟨S100000x128, .f32⟩
  | .hbm, ⟨58, _⟩ => ⟨S1x128, .f32⟩
  | .hbm, ⟨59, _⟩ => ⟨S128, .f32⟩
  | .hbm, ⟨60, _⟩ => ⟨S1x128x128, .f32⟩
  | .hbm, ⟨61, _⟩ => ⟨S128x128, .f32⟩
  | .hbm, ⟨62, _⟩ => ⟨S_, .i32⟩
  | .hbm, ⟨63, _⟩ => ⟨S_, .f32⟩
  | .hbm, ⟨64, _⟩ => ⟨S106496x128, .f32⟩
  | .hbm, ⟨65, _⟩ => ⟨S1x128, .f32⟩
  | .hbm, ⟨66, _⟩ => ⟨S106496x128, .f32⟩
  | .hbm, ⟨67, _⟩ => ⟨S100000x128, .f32⟩
  | .hbm, ⟨68, _⟩ => ⟨S_, .i32⟩
  | .hbm, ⟨69, _⟩ => ⟨S1600000, .i32⟩
  | .hbm, ⟨70, _⟩ => ⟨S1600000, .i1⟩
  | .hbm, ⟨71, _⟩ => ⟨S_, .i32⟩
  | .hbm, ⟨72, _⟩ => ⟨S1600000, .i32⟩
  | .hbm, ⟨73, _⟩ => ⟨S1600000, .i32⟩
  | .hbm, ⟨74, _⟩ => ⟨S1600000, .i32⟩
  | .hbm, ⟨75, _⟩ => ⟨S1600000x1, .i32⟩
  | .hbm, ⟨76, _⟩ => ⟨S1600000x128, .f32⟩
  | .hbm, ⟨77, _⟩ => ⟨S1600000x128, .f32⟩
  | .hbm, ⟨78, _⟩ => ⟨S1600000x128, .f32⟩
  | .hbm, ⟨79, _⟩ => ⟨S_, .f32⟩
  | .hbm, ⟨80, _⟩ => ⟨S100000x128, .f32⟩
  | .hbm, ⟨81, _⟩ => ⟨S1600000x1, .i32⟩
  | .hbm, ⟨82, _⟩ => ⟨S100000x128, .f32⟩
  | .hbm, ⟨83, _⟩ => ⟨S1x128, .f32⟩
  | .hbm, ⟨84, _⟩ => ⟨S128, .f32⟩
  | .hbm, ⟨85, _⟩ => ⟨S1x128x128, .f32⟩
  | .hbm, ⟨86, _⟩ => ⟨S128x128, .f32⟩
  | .hbm, ⟨87, _⟩ => ⟨S_, .i32⟩
  | .hbm, ⟨88, _⟩ => ⟨S_, .f32⟩
  | .hbm, ⟨89, _⟩ => ⟨S106496x128, .f32⟩
  | .hbm, ⟨90, _⟩ => ⟨S1x128, .f32⟩
  | .hbm, ⟨91, _⟩ => ⟨S106496x128, .f32⟩
  | .hbm, ⟨92, _⟩ => ⟨S100000x128, .f32⟩
  | .hbm, ⟨93, _⟩ => ⟨S_, .i32⟩
  | .hbm, ⟨94, _⟩ => ⟨S1600000, .i32⟩
  | .hbm, ⟨95, _⟩ => ⟨S1600000, .i1⟩
  | .hbm, ⟨96, _⟩ => ⟨S_, .i32⟩
  | .hbm, ⟨97, _⟩ => ⟨S1600000, .i32⟩
  | .hbm, ⟨98, _⟩ => ⟨S1600000, .i32⟩
  | .hbm, ⟨99, _⟩ => ⟨S1600000, .i32⟩
  | .hbm, ⟨100, _⟩ => ⟨S1600000x1, .i32⟩
  | .hbm, ⟨101, _⟩ => ⟨S1600000x128, .f32⟩
  | .hbm, ⟨102, _⟩ => ⟨S1600000x128, .f32⟩
  | .hbm, ⟨103, _⟩ => ⟨S1600000x128, .f32⟩
  | .hbm, ⟨104, _⟩ => ⟨S_, .f32⟩
  | .hbm, ⟨105, _⟩ => ⟨S100000x128, .f32⟩
  | .hbm, ⟨106, _⟩ => ⟨S1600000x1, .i32⟩
  | .hbm, ⟨107, _⟩ => ⟨S100000x128, .f32⟩
  | .hbm, ⟨108, _⟩ => ⟨S1x128, .f32⟩
  | .hbm, ⟨109, _⟩ => ⟨S128, .f32⟩
  | .hbm, ⟨110, _⟩ => ⟨S_, .i32⟩
  | .hbm, ⟨111, _⟩ => ⟨S_, .f32⟩
  | .hbm, ⟨112, _⟩ => ⟨S106496x128, .f32⟩
  | .hbm, ⟨113, _⟩ => ⟨S1x128, .f32⟩
  | .hbm, ⟨114, _⟩ => ⟨S106496x128, .f32⟩
  | .hbm, ⟨115, _⟩ => ⟨S100000x128, .f32⟩
  | .local _ .vmem, ⟨0, _⟩ => ⟨S8192x128, .f32⟩
  | .local _ .vmem, ⟨1, _⟩ => ⟨S8192x128, .f32⟩
  | .local _ .vmem, ⟨2, _⟩ => ⟨S128x128, .f32⟩
  | .local _ .vmem, ⟨3, _⟩ => ⟨S8192x128, .f32⟩
  | .local _ .vmem, ⟨4, _⟩ => ⟨S8192x128, .f32⟩
  | .local _ .vmem, ⟨5, _⟩ => ⟨S8192x128, .f32⟩
  | .local _ .vmem, ⟨6, _⟩ => ⟨S8192x128, .f32⟩
  | .local _ .vmem, ⟨7, _⟩ => ⟨S1x128, .f32⟩
  | .local _ .vmem, ⟨8, _⟩ => ⟨S128x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S8192x128, .f32⟩
  | .local _ .vmem, ⟨13, _⟩ => ⟨S1x128, .f32⟩
  | .local _ .vmem, ⟨14, _⟩ => ⟨S128x128, .f32⟩
  | .local _ .vmem, ⟨15, _⟩ => ⟨S8192x128, .f32⟩
  | .local _ .vmem, ⟨16, _⟩ => ⟨S8192x128, .f32⟩
  | .local _ .vmem, ⟨17, _⟩ => ⟨S8192x128, .f32⟩
  | .local _ .vmem, ⟨18, _⟩ => ⟨S8192x128, .f32⟩
  | .local _ .vmem, ⟨19, _⟩ => ⟨S1x128, .f32⟩
  | .local _ .vmem, ⟨20, _⟩ => ⟨S8192x128, .f32⟩
  | .local _ .vmem, ⟨21, _⟩ => ⟨S8192x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_call0_v0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_7 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_8 : Ref sig .tc := ⟨.hbm, 62, rfl⟩
abbrev main_call1_v0 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_c_9 : Ref sig .tc := ⟨.hbm, 68, rfl⟩
abbrev main_v49 : Ref sig .tc := ⟨.hbm, 69, rfl⟩
abbrev main_v50 : Ref sig .tc := ⟨.hbm, 70, rfl⟩
abbrev main_c_10 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_11 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_call2_v0 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_c_13 : Ref sig .tc := ⟨.hbm, 93, rfl⟩
abbrev main_v69 : Ref sig .tc := ⟨.hbm, 94, rfl⟩
abbrev main_v70 : Ref sig .tc := ⟨.hbm, 95, rfl⟩
abbrev main_c_14 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_cst_15 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_c_16 : Ref sig .tc := ⟨.hbm, 110, rfl⟩
abbrev main_call3_v0 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc3_stg0_0 : Ref sig .tc := ⟨.vmem, 17, rfl⟩
abbrev cc3_stg0_1 : Ref sig .tc := ⟨.vmem, 18, rfl⟩
abbrev cc3_stg1_0 : Ref sig .tc := ⟨.vmem, 19, rfl⟩
abbrev cc3_stg2_0 : Ref sig .tc := ⟨.vmem, 20, rfl⟩
abbrev cc3_stg2_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8192x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S8192x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![13], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S8192x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S8192x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![13], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S8192x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S3x128x128_S1x128x128_0_0_0 : S3x128x128.Slices ![0, 0, 0] S1x128x128
  shapeCasts_S1x128x128_S128x128 : S1x128x128.ShapeCasts S128x128
  pads_S100000x128_S106496x128_064960_000 : S100000x128.Pads (![0, 0] : Fin 2 → Nat) ![6496, 0] ![0, 0] S106496x128
  h_S_ : 0 < S_.numel
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S106496x128_S100000x128_0_0 : S106496x128.Slices ![0, 0] S100000x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  slices_S3x128x128_S1x128x128_1_0_0 : S3x128x128.Slices ![1, 0, 0] S1x128x128
  shapeCasts_S128_S1x128 : S128.ShapeCasts S1x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8192x128 : S1x128.Broadcasts S8192x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S8192x128_S128x128_S8192x128_1_0_0_1_n_n_wf : DotDims.WF S8192x128 S128x128 S8192x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S106496x128.size a
  hwx0_0 : ∀ i : grid0.Coords, EltTy.bits .f32 = 32 ∨ (Rect.block (s := S106496x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S106496x128.size a
  hwx0_2 : ∀ i : grid0.Coords, EltTy.bits .f32 = 32 ∨ (Rect.block (s := S106496x128) S8192x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S106496x128.size a
  hwx1_0 : ∀ i : grid1.Coords, EltTy.bits .f32 = 32 ∨ (Rect.block (s := S106496x128) S8192x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8192x128.size a ≤ S106496x128.size a
  hwx1_3 : ∀ i : grid1.Coords, EltTy.bits .f32 = 32 ∨ (Rect.block (s := S106496x128) S8192x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S8192x128.size a ≤ S106496x128.size a
  hwx2_0 : ∀ i : grid2.Coords, EltTy.bits .f32 = 32 ∨ (Rect.block (s := S106496x128) S8192x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S8192x128.size a ≤ S106496x128.size a
  hwx2_3 : ∀ i : grid2.Coords, EltTy.bits .f32 = 32 ∨ (Rect.block (s := S106496x128) S8192x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S106496x128.size a
  hwx3_0 : ∀ i : grid3.Coords, EltTy.bits .f32 = 32 ∨ (Rect.block (s := S106496x128) S8192x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x128.size a ≤ S106496x128.size a
  hwx3_2 : ∀ i : grid3.Coords, EltTy.bits .f32 = 32 ∨ (Rect.block (s := S106496x128) S8192x128.size (cc3_transform_2 i) (hinb3_2 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

abbrev win0_0 : Pipeline.Window sig grid0 :=
  Pipeline.Window.ofSpec (Memref.whole main_v26) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v25) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S8192x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S8192x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v65) S8192x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v66) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v67) S8192x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v83) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v84) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v85) S8192x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S1600000 : Shape := ⟨1, ![1600000]⟩
abbrev S3x128x128 : Shape := ⟨3, ![3, 128, 128]⟩
abbrev S3x128 : Shape := ⟨2, ![3, 128]⟩
abbrev S_ : Shape := ⟨0, ![]⟩
abbrev S100000 : Shape := ⟨1, ![100000]⟩
abbrev S1600000x1 : Shape := ⟨2, ![1600000, 1]⟩
abbrev S1x128x128 : Shape := ⟨3, ![1, 128, 128]⟩
abbrev S128x128 : Shape := ⟨2, ![128, 128]⟩
abbrev S1600000x128 : Shape := ⟨2, ![1600000, 128]⟩
abbrev S1x128 : Shape := ⟨2, ![1, 128]⟩
abbrev S128 : Shape := ⟨1, ![128]⟩

abbrev nBuf : Space → Nat
  | .hbm => 152
  | .vmem => 0
  | .smem => 0
  | _ => 0

abbrev hbmTy0_0 (i : Nat) : BufTy := match i % 128 with
  | 0 => ⟨S100000x128, .f32⟩
  | 1 => ⟨S1600000, .f32⟩
  | 2 => ⟨S3x128x128, .f32⟩
  | 3 => ⟨S3x128, .f32⟩
  | 4 => ⟨S1600000, .i32⟩
  | 5 => ⟨S1600000, .i32⟩
  | 6 => ⟨S_, .f32⟩
  | 7 => ⟨S100000, .f32⟩
  | 8 => ⟨S1600000x1, .i32⟩
  | 9 => ⟨S100000, .f32⟩
  | 10 => ⟨S_, .f32⟩
  | 11 => ⟨S100000, .f32⟩
  | 12 => ⟨S1600000x1, .i32⟩
  | 13 => ⟨S100000, .f32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000, .f32⟩
  | 23 => ⟨S_, .i32⟩
  | 24 => ⟨S1600000, .i32⟩
  | 25 => ⟨S1600000, .i1⟩
  | 26 => ⟨S_, .i32⟩
  | 27 => ⟨S1600000, .i32⟩
  | 28 => ⟨S1600000, .i32⟩
  | 29 => ⟨S1600000, .i32⟩
  | 30 => ⟨S1600000x1, .i32⟩
  | 31 => ⟨S1600000, .f32⟩
  | 32 => ⟨S1600000, .f32⟩
  | 33 => ⟨S1600000, .f32⟩
  | 34 => ⟨S1600000, .f32⟩
  | 35 => ⟨S1x128x128, .f32⟩
  | 36 => ⟨S128x128, .f32⟩
  | 37 => ⟨S100000x128, .f32⟩
  | 38 => ⟨S_, .i32⟩
  | 39 => ⟨S1600000, .i32⟩
  | 40 => ⟨S1600000, .i1⟩
  | 41 => ⟨S_, .i32⟩
  | 42 => ⟨S1600000, .i32⟩
  | 43 => ⟨S1600000, .i32⟩
  | 44 => ⟨S1600000, .i32⟩
  | 45 => ⟨S1600000x1, .i32⟩
  | 46 => ⟨S1600000x128, .f32⟩
  | 47 => ⟨S1600000x1, .f32⟩
  | 48 => ⟨S1600000x128, .f32⟩
  | 49 => ⟨S1600000x128, .f32⟩
  | 50 => ⟨S_, .f32⟩
  | 51 => ⟨S100000x128, .f32⟩
  | 52 => ⟨S1600000x1, .i32⟩
  | 53 => ⟨S100000x128, .f32⟩
  | 54 => ⟨S1x128, .f32⟩
  | 55 => ⟨S128, .f32⟩
  | 56 => ⟨S1x128, .f32⟩
  | 57 => ⟨S100000x128, .f32⟩
  | 58 => ⟨S100000x128, .f32⟩
  | 59 => ⟨S_, .f32⟩
  | 60 => ⟨S100000x128, .f32⟩
  | 61 => ⟨S100000x128, .i1⟩
  | 62 => ⟨S_, .f32⟩
  | 63 => ⟨S100000x128, .f32⟩
  | 64 => ⟨S100000x128, .i1⟩
  | 65 => ⟨S_, .f32⟩
  | 66 => ⟨S_, .f32⟩
  | 67 => ⟨S100000x128, .f32⟩
  | 68 => ⟨S100000x128, .f32⟩
  | 69 => ⟨S100000x128, .f32⟩
  | 70 => ⟨S_, .f32⟩
  | 71 => ⟨S100000x128, .f32⟩
  | 72 => ⟨S100000x128, .f32⟩
  | 73 => ⟨S100000x128, .f32⟩
  | 74 => ⟨S1x128x128, .f32⟩
  | 75 => ⟨S128x128, .f32⟩
  | 76 => ⟨S100000x128, .f32⟩
  | 77 => ⟨S_, .i32⟩
  | 78 => ⟨S1600000, .i32⟩
  | 79 => ⟨S1600000, .i1⟩
  | 80 => ⟨S_, .i32⟩
  | 81 => ⟨S1600000, .i32⟩
  | 82 => ⟨S1600000, .i32⟩
  | 83 => ⟨S1600000, .i32⟩
  | 84 => ⟨S1600000x1, .i32⟩
  | 85 => ⟨S1600000x128, .f32⟩
  | 86 => ⟨S1600000x1, .f32⟩
  | 87 => ⟨S1600000x128, .f32⟩
  | 88 => ⟨S1600000x128, .f32⟩
  | 89 => ⟨S_, .f32⟩
  | 90 => ⟨S100000x128, .f32⟩
  | 91 => ⟨S1600000x1, .i32⟩
  | 92 => ⟨S100000x128, .f32⟩
  | 93 => ⟨S1x128, .f32⟩
  | 94 => ⟨S128, .f32⟩
  | 95 => ⟨S1x128, .f32⟩
  | 96 => ⟨S100000x128, .f32⟩
  | 97 => ⟨S100000x128, .f32⟩
  | 98 => ⟨S_, .f32⟩
  | 99 => ⟨S100000x128, .f32⟩
  | 100 => ⟨S100000x128, .i1⟩
  | 101 => ⟨S_, .f32⟩
  | 102 => ⟨S100000x128, .f32⟩
  | 103 => ⟨S100000x128, .i1⟩
  | 104 => ⟨S_, .f32⟩
  | 105 => ⟨S_, .f32⟩
  | 106 => ⟨S100000x128, .f32⟩
  | 107 => ⟨S100000x128, .f32⟩
  | 108 => ⟨S100000x128, .f32⟩
  | 109 => ⟨S_, .f32⟩
  | 110 => ⟨S100000x128, .f32⟩
  | 111 => ⟨S100000x128, .f32⟩
  | 112 => ⟨S100000x128, .f32⟩
  | 113 => ⟨S1x128x128, .f32⟩
  | 114 => ⟨S128x128, .f32⟩
  | 115 => ⟨S100000x128, .f32⟩
  | 116 => ⟨S_, .i32⟩
  | 117 => ⟨S1600000, .i32⟩
  | 118 => ⟨S1600000, .i1⟩
  | 119 => ⟨S_, .i32⟩
  | 120 => ⟨S1600000, .i32⟩
  | 121 => ⟨S1600000, .i32⟩
  | 122 => ⟨S1600000, .i32⟩
  | 123 => ⟨S1600000x1, .i32⟩
  | 124 => ⟨S1600000x128, .f32⟩
  | 125 => ⟨S1600000x1, .f32⟩
  | 126 => ⟨S1600000x128, .f32⟩
  | 127 => ⟨S1600000x128, .f32⟩
  | _ => ⟨S100000x128, .f32⟩

abbrev hbmTy0_1 (i : Nat) : BufTy := match i % 128 with
  | 0 => ⟨S_, .f32⟩
  | 1 => ⟨S100000x128, .f32⟩
  | 2 => ⟨S1600000x1, .i32⟩
  | 3 => ⟨S100000x128, .f32⟩
  | 4 => ⟨S1x128, .f32⟩
  | 5 => ⟨S128, .f32⟩
  | 6 => ⟨S1x128, .f32⟩
  | 7 => ⟨S100000x128, .f32⟩
  | 8 => ⟨S100000x128, .f32⟩
  | 9 => ⟨S_, .f32⟩
  | 10 => ⟨S100000x128, .f32⟩
  | 11 => ⟨S100000x128, .i1⟩
  | 12 => ⟨S_, .f32⟩
  | 13 => ⟨S100000x128, .f32⟩
  | 14 => ⟨S100000x128, .i1⟩
  | 15 => ⟨S_, .f32⟩
  | 16 => ⟨S_, .f32⟩
  | 17 => ⟨S100000x128, .f32⟩
  | 18 => ⟨S100000x128, .f32⟩
  | 19 => ⟨S100000x128, .f32⟩
  | 20 => ⟨S_, .f32⟩
  | 21 => ⟨S100000x128, .f32⟩
  | 22 => ⟨S100000x128, .f32⟩
  | 23 => ⟨S100000x128, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_c_4 : Ref sig .tc := ⟨.hbm, 38, rfl⟩
abbrev main_v26 : Ref sig .tc := ⟨.hbm, 39, rfl⟩
abbrev main_v27 : Ref sig .tc := ⟨.hbm, 40, rfl⟩
abbrev main_c_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_call0_cst : Ref sig .tc := ⟨.hbm, 59, rfl⟩
abbrev main_call0_v0 : Ref sig .tc := ⟨.hbm, 60, rfl⟩
abbrev main_call0_v1 : Ref sig .tc := ⟨.hbm, 61, rfl⟩
abbrev main_call0_cst_0 : Ref sig .tc := ⟨.hbm, 62, rfl⟩
abbrev main_call0_v2 : Ref sig .tc := ⟨.hbm, 63, rfl⟩
abbrev main_call0_v3 : Ref sig .tc := ⟨.hbm, 64, rfl⟩
abbrev main_call0_cst_1 : Ref sig .tc := ⟨.hbm, 65, rfl⟩
abbrev main_call0_call0_v0 : Ref sig .tc := ⟨.hbm, 66, rfl⟩
abbrev main_call0_call0_v1 : Ref sig .tc := ⟨.hbm, 67, rfl⟩
abbrev main_call0_v4 : Ref sig .tc := ⟨.hbm, 68, rfl⟩
abbrev main_call0_v5 : Ref sig .tc := ⟨.hbm, 69, rfl⟩
abbrev main_call0_cst_2 : Ref sig .tc := ⟨.hbm, 70, rfl⟩
abbrev main_call0_v6 : Ref sig .tc := ⟨.hbm, 71, rfl⟩
abbrev main_call0_v7 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_c_7 : Ref sig .tc := ⟨.hbm, 77, rfl⟩
abbrev main_v48 : Ref sig .tc := ⟨.hbm, 78, rfl⟩
abbrev main_v49 : Ref sig .tc := ⟨.hbm, 79, rfl⟩
abbrev main_c_8 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_9 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_call1_cst : Ref sig .tc := ⟨.hbm, 98, rfl⟩
abbrev main_call1_v0 : Ref sig .tc := ⟨.hbm, 99, rfl⟩
abbrev main_call1_v1 : Ref sig .tc := ⟨.hbm, 100, rfl⟩
abbrev main_call1_cst_0 : Ref sig .tc := ⟨.hbm, 101, rfl⟩
abbrev main_call1_v2 : Ref sig .tc := ⟨.hbm, 102, rfl⟩
abbrev main_call1_v3 : Ref sig .tc := ⟨.hbm, 103, rfl⟩
abbrev main_call1_cst_1 : Ref sig .tc := ⟨.hbm, 104, rfl⟩
abbrev main_call1_call0_v0 : Ref sig .tc := ⟨.hbm, 105, rfl⟩
abbrev main_call1_call0_v1 : Ref sig .tc := ⟨.hbm, 106, rfl⟩
abbrev main_call1_v4 : Ref sig .tc := ⟨.hbm, 107, rfl⟩
abbrev main_call1_v5 : Ref sig .tc := ⟨.hbm, 108, rfl⟩
abbrev main_call1_cst_2 : Ref sig .tc := ⟨.hbm, 109, rfl⟩
abbrev main_call1_v6 : Ref sig .tc := ⟨.hbm, 110, rfl⟩
abbrev main_call1_v7 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_c_10 : Ref sig .tc := ⟨.hbm, 116, rfl⟩
abbrev main_v70 : Ref sig .tc := ⟨.hbm, 117, rfl⟩
abbrev main_v71 : Ref sig .tc := ⟨.hbm, 118, rfl⟩
abbrev main_c_11 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_v76 : Ref sig .tc := ⟨.hbm, 124, rfl⟩
abbrev main_v77 : Ref sig .tc := ⟨.hbm, 125, rfl⟩
abbrev main_v78 : Ref sig .tc := ⟨.hbm, 126, rfl⟩
abbrev main_v79 : Ref sig .tc := ⟨.hbm, 127, rfl⟩
abbrev main_cst_12 : Ref sig .tc := ⟨.hbm, 128, rfl⟩
abbrev main_v80 : Ref sig .tc := ⟨.hbm, 129, rfl⟩
abbrev main_v81 : Ref sig .tc := ⟨.hbm, 130, rfl⟩
abbrev main_v82 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_v86 : Ref sig .tc := ⟨.hbm, 135, rfl⟩
abbrev main_v87 : Ref sig .tc := ⟨.hbm, 136, rfl⟩
abbrev main_call2_cst : Ref sig .tc := ⟨.hbm, 137, rfl⟩
abbrev main_call2_v0 : Ref sig .tc := ⟨.hbm, 138, rfl⟩
abbrev main_call2_v1 : Ref sig .tc := ⟨.hbm, 139, rfl⟩
abbrev main_call2_cst_0 : Ref sig .tc := ⟨.hbm, 140, rfl⟩
abbrev main_call2_v2 : Ref sig .tc := ⟨.hbm, 141, rfl⟩
abbrev main_call2_v3 : Ref sig .tc := ⟨.hbm, 142, rfl⟩
abbrev main_call2_cst_1 : Ref sig .tc := ⟨.hbm, 143, rfl⟩
abbrev main_call2_call0_v0 : Ref sig .tc := ⟨.hbm, 144, rfl⟩
abbrev main_call2_call0_v1 : Ref sig .tc := ⟨.hbm, 145, rfl⟩
abbrev main_call2_v4 : Ref sig .tc := ⟨.hbm, 146, rfl⟩
abbrev main_call2_v5 : Ref sig .tc := ⟨.hbm, 147, rfl⟩
abbrev main_call2_cst_2 : Ref sig .tc := ⟨.hbm, 148, rfl⟩
abbrev main_call2_v6 : Ref sig .tc := ⟨.hbm, 149, rfl⟩
abbrev main_call2_v7 : Ref sig .tc := ⟨.hbm, 150, rfl⟩
abbrev main_v88 : Ref sig .tc := ⟨.hbm, 151, rfl⟩

abbrev nD : Nat := 1
abbrev τ : Topo := Topo.v7x

variable {F : FTy → Type} [FloatOps F]

class Facts₀ : Prop where
  bcast_S_S100000 : S_.BroadcastsInDim S100000 (![] : Fin 0 → Fin S100000.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  slices_S3x128x128_S1x128x128_0_0_0 : S3x128x128.Slices ![0, 0, 0] S1x128x128
  shapeCasts_S1x128x128_S128x128 : S1x128x128.ShapeCasts S128x128
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  scatter_S100000_S1600000x1_S1600000_n_0_0_1_wf : ScatterDims.WF S100000 S1600000x1 S1600000 [] [0] [0] 1
  gather_S100000_S1600000x1_S1600000_n_0_n_n_0_1_1_wf : GatherDims.WF S100000 S1600000x1 S1600000 [] [0] [] [0] [] 1 ![1]
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000_S1600000x1_S1600000_n_0_n_n_0_1_1 : GatherDims S100000 S1600000x1 S1600000 where
  offsetDims := []
  collapsedSliceDims := [0]
  operandBatchingDims := []
  startIndicesBatchingDims := []
  startIndexMap := [0]
  indexVectorDim := 1
  sliceSizes := ![1]
  wf := gather_S100000_S1600000x1_S1600000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf

class Facts : Prop extends Facts₀ where

variable [Facts]
-- ==== Proof.KerRun.lean ====
/-
  The idealized kernel's run with its result named: every weakly fair execution of the program ends, nothing
  faulting, with the result array at the last boundary's contents of its buffer (the fold of the host operations
  and of the four regions' write-backs over the launch memory) and the six argument arrays as launched.
-/
import proofs.«104657_j9869834846327_1_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run over the sixteen segments, read at the result's buffer and at the arguments': the last thread state
    holds every unscoped buffer at the last boundary's contents, and the final memory is read against it. -/
theorem run_result : θ_run defs (onTc (τ := τ) (main (F := F))) ⟨m, fun _ => 0, ρ⟩ (fun r => ∀ c : Dev nD,
      r.2.mem ((c.tc : Thread nD τ).loc main_v86) = W16 m ρ c (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v86 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c)⟩)

end Cert.KernelIdeal.Hand

end
-- ==== Proof.KerStages.lean ====
/-
  The host side of the idealized kernel's program as named pure functions of whole arrays, one for one with the
  program's host operations: the edge normalisation (weighted degrees by a scatter-add of the edge weights, gathered
  back at the two endpoints of each edge, the weight times the inverse square root of their product), the
  aggregation of a feature array over the edges (rows gathered at the sources, scaled, scatter-added at the
  destinations), the three weight matrices and bias rows cut out of the stacked parameters, the zero padding
  of the rows up to a whole number of row blocks and the cut back to the true row count.
-/
import proofs.«104657_j9869834846327_1_alg».proof.Proof.Gen.KernelIdeal

noncomputable section

namespace Cert.KernelIdeal.Hand

open Cert.KernelIdeal Cert.KernelIdeal.Facts₀ Cert.KernelIdeal.Facts
open Idealize.ShloMosaic

variable {F : FTy → Type} [FloatOps F]

/-- An index vector as a one-column index matrix. -/
def idxCol (s : IVec S1600000 32) : IVec S1600000x1 32 :=
  broadcastInDim S1600000x1 ![0] bcast_S1600000_S1600000x1_0 s

/-- A possibly negative node index wrapped once by the node count, as a one-column index matrix. -/
def wrapIdx (s : IVec S1600000 32) : IVec S1600000x1 32 :=
  idxCol (select (cmpi .slt s (broadcastInDim S1600000 ![] bcast_S_S1600000 (constantI S_ 32 0#32)))
    (addi s (broadcastInDim S1600000 ![] bcast_S_S1600000 (constantI S_ 32 100000#32))) s)

/-- The weighted degree of every node: the edge weights summed at the edges' endpoints `s`. -/
def degree (ew : FVec F S1600000 .f32) (s : IVec S1600000 32) : FVec F S100000 .f32 :=
  Host.scatterAdd scatter_S100000_S1600000x1_S1600000_n_0_0_1
    (broadcastInDim S100000 ![] bcast_S_S100000 (constant S_ .f32 0x00000000#32)) (idxCol s) ew

/-- The normalised edge weight: the weight over the square root of the product of the source's weighted
    out-degree and the destination's weighted in-degree. -/
def normW (ew : FVec F S1600000 .f32) (src dst : IVec S1600000 32) : FVec F S1600000 .f32 :=
  mulf ew (Host.rsqrt (mulf
    (Host.gather gather_S100000_S1600000x1_S1600000_n_0_n_n_0_1_1 (degree ew src) (wrapIdx src))
    (Host.gather gather_S100000_S1600000x1_S1600000_n_0_n_n_0_1_1 (degree ew dst) (wrapIdx dst))))

/-- The normalised edge weights as a column. -/
def normCol (ew : FVec F S1600000 .f32) (src dst : IVec S1600000 32) : FVec F S1600000x1 .f32 :=
  broadcastInDim S1600000x1 ![0] bcast_S1600000_S1600000x1_0 (normW ew src dst)

/-- One aggregation: the rows of `h` at the edges' sources, each scaled by its edge's normalised weight,
    summed at the edges' destinations. -/
def aggregate (h : FVec F S100000x128 .f32) (nc : FVec F S1600000x1 .f32) (src dst : IVec S1600000 32) :
    FVec F S100000x128 .f32 :=
  Host.scatterAdd scatter_S100000x128_S1600000x1_S1600000x128_1_0_0_1
    (broadcastInDim S100000x128 ![] bcast_S_S100000x128 (constant S_ .f32 0x00000000#32)) (idxCol dst)
    (mulf (Host.gather gather_S100000x128_S1600000x1_S1600000x128_1_0_n_n_0_1_1128 h (wrapIdx src))
      (broadcastInDim S1600000x128 ![0, 1] bcast_S1600000x1_S1600000x128_0_1 nc))

/-- The three layers' weight matrices. -/
def weight0 (W : FVec F S3x128x128 .f32) : FVec F S128x128 .f32 :=
  shapeCast S128x128 (extractStridedSlice S1x128x128 ![0, 0, 0] W slices_S3x128x128_S1x128x128_0_0_0) shapeCasts_S1x128x128_S128x128
def weight1 (W : FVec F S3x128x128 .f32) : FVec F S128x128 .f32 :=
  shapeCast S128x128 (extractStridedSlice S1x128x128 ![1, 0, 0] W slices_S3x128x128_S1x128x128_1_0_0) shapeCasts_S1x128x128_S128x128
def weight2 (W : FVec F S3x128x128 .f32) : FVec F S128x128 .f32 :=
  shapeCast S128x128 (extractStridedSlice S1x128x128 ![2, 0, 0] W slices_S3x128x128_S1x128x128_2_0_0) shapeCasts_S1x128x128_S128x128

/-- The three layers' biases, each as a vector and as the one-row matrix a region reads. -/
def biasVec0 (b : FVec F S3x128 .f32) : FVec F S128 .f32 :=
  shapeCast S128 (extractStridedSlice S1x128 ![0, 0] b slices_S3x128_S1x128_0_0) shapeCasts_S1x128_S128
def biasVec1 (b : FVec F S3x128 .f32) : FVec F S128 .f32 :=
  shapeCast S128 (extractStridedSlice S1x128 ![1, 0] b slices_S3x128_S1x128_1_0) shapeCasts_S1x128_S128
def biasVec2 (b : FVec F S3x128 .f32) : FVec F S128 .f32 :=
  shapeCast S128 (extractStridedSlice S1x128 ![2, 0] b slices_S3x128_S1x128_2_0) shapeCasts_S1x128_S128
def biasRow (v : FVec F S128 .f32) : FVec F S1x128 .f32 := shapeCast S1x128 v shapeCasts_S128_S1x128

/-- The rows padded with zero rows up to thirteen blocks of 8192. -/
def padRows (a : FVec F S100000x128 .f32) : FVec F S106496x128 .f32 :=
  pad S106496x128 ![0, 0] ![6496, 0] ![0, 0] a (sitofp .f32 (constantI S_ 32 0#32)) pads_S100000x128_S106496x128_064960_000 h_S_

/-- The first 100000 rows. -/
def cutRows (y : FVec F S106496x128 .f32) : FVec F S100000x128 .f32 :=
  extractStridedSlice S100000x128 ![0, 0] y slices_S106496x128_S100000x128_0_0

end Cert.KernelIdeal.Hand

end
-- ==== Proof.Spec.lean ====
/-
  The mathematics both programs compute, on the extended reals: a three-layer graph convolution.  Each layer
  multiplies the node features by a 128 x 128 weight matrix, sums the weighted rows of the source nodes into the
  destination nodes, adds a bias row and applies ELU.  This module names the three dense pieces as functions of
  whole arrays, index by index: a row-by-matrix product, the bias-plus-ELU map, and ELU itself.
-/
import Idealize.ShloMosaic.PureOps.Ideal
import Idealize.ShloMosaic.PureOps.Ideal.Laws
import Idealize.ShloMosaic.Lib.ValueIdx

noncomputable section

namespace Cert.Gcn

open Idealize.ShloMosaic Idealize.ShloMosaic.ValueIdx

/-- ELU with unit slope on the extended reals: the identity above zero, `e^y - 1` at and below it
    (so `-1` at `-∞`). -/
def elu (y : EReal) : EReal := if 0 < y then y else Ideal.exp y - 1

/-- Rows times a square weight matrix: entry `(r, j)` is the sum over `k` of `x (r, k) * w (k, j)`. -/
def rowsTimes {n : Nat} (x : FVec Ideal ⟨2, ![n, 128]⟩ .f32) (w : FVec Ideal ⟨2, ![128, 128]⟩ .f32) :
    FVec Ideal ⟨2, ![n, 128]⟩ .f32 :=
  fun i => ∑ k : Fin 128, x (ix2 (n0 := n) (n1 := 128) (i 0) k) * w (ix2 (n0 := 128) (n1 := 128) k (i 1))

/-- A bias row added to every row, then ELU, entry by entry. -/
def biasElu {n : Nat} (a : FVec Ideal ⟨2, ![n, 128]⟩ .f32) (b : FVec Ideal ⟨2, ![1, 128]⟩ .f32) :
    FVec Ideal ⟨2, ![n, 128]⟩ .f32 :=
  fun i => elu (a i + b (ix2 (n0 := 1) (n1 := 128) 0 (i 1)))

end Cert.Gcn

end
-- ==== Proof.KerOut.lean ====
/-
  The idealized kernel's whole computation as one function of its six arguments: three dense transforms on
  row blocks (the rows padded with zero rows to thirteen blocks of 8192, transformed, cut back to the true
  100000 rows), each followed by the aggregation over the edges; the first transform is the plain product with
  the first weight matrix, the next two add the previous layer's bias, apply ELU and multiply by the next weight
  matrix, and the last adds the third bias and applies ELU.
-/
import proofs.«104657_j9869834846327_1_alg».proof.Proof.KerStages
import proofs.«104657_j9869834846327_1_alg».proof.Proof.Spec

noncomputable section

namespace Cert.KernelIdeal.Hand

open Cert.KernelIdeal Cert.Gcn
open Idealize.ShloMosaic

/-- The first layer's transform: the padded rows times the first weight matrix, cut back. -/
def layer0 (x : FVec Ideal S100000x128 .f32) (W : FVec Ideal S3x128x128 .f32) : FVec Ideal S100000x128 .f32 :=
  cutRows (rowsTimes (padRows x) (weight0 W))

/-- A middle layer's transform: bias and ELU of the padded aggregate, times the next weight matrix, cut back. -/
def layerMid (a : FVec Ideal S100000x128 .f32) (bv : FVec Ideal S128 .f32) (w : FVec Ideal S128x128 .f32) :
    FVec Ideal S100000x128 .f32 :=
  cutRows (rowsTimes (biasElu (padRows a) (biasRow bv)) w)

/-- The closing step: bias and ELU of the padded aggregate, cut back. -/
def layerLast (a : FVec Ideal S100000x128 .f32) (bv : FVec Ideal S128 .f32) : FVec Ideal S100000x128 .f32 :=
  cutRows (biasElu (padRows a) (biasRow bv))

/-- The whole program: three transforms, each followed by the aggregation over the edges, then the closing step. -/
def kerOut (x : FVec Ideal S100000x128 .f32) (ew : FVec Ideal S1600000 .f32) (W : FVec Ideal S3x128x128 .f32)
    (b : FVec Ideal S3x128 .f32) (src dst : IVec S1600000 32) : FVec Ideal S100000x128 .f32 :=
  layerLast (aggregate (layerMid (aggregate (layerMid (aggregate (layer0 x W) (normCol ew src dst) src dst)
      (biasVec0 b) (weight1 W)) (normCol ew src dst) src dst) (biasVec1 b) (weight2 W)) (normCol ew src dst) src dst)
    (biasVec2 b)

end Cert.KernelIdeal.Hand

end
-- ==== Proof.Stretch0.lean ====
/-
  The host stretch before the first region, read over any contents of the buffers it starts from: it computes
  the normalised edge weights, cuts the first weight matrix out of the stacked parameters and pads the node
  features with zero rows; the arrays later stretches read pass through unchanged.
-/
import proofs.«104657_j9869834846327_1_alg».proof.Proof.Gen.KernelIdeal.Launch
import proofs.«104657_j9869834846327_1_alg».proof.Proof.KerStages
import Idealize.ShloMosaic.Lib.StableHlo.Run
import Idealize.ShloMosaic.PureOps.Ideal

set_option maxRecDepth 16384
set_option maxHeartbeats 4000000

noncomputable section

namespace Cert.KernelIdeal.Hand

open Cert.KernelIdeal Cert.KernelIdeal.Gen
open Idealize.ShloMosaic Idealize.ShloMosaic.TcCoe Idealize.SL.Sem Idealize.ShloMosaic.StableHlo

/-- The padding call on its typed references pads the rows with zero rows. -/
theorem pad_call0 (x : FVec Ideal S100000x128 .f32) :
    (TRef.of main_v26 : TRef sig ⟨S106496x128, .f32⟩).toBuf (Val := Elt Ideal)
      (pad S106496x128 ![0, 0] ![6496, 0] ![0, 0]
        ((TRef.of main_arg0 : TRef sig ⟨S100000x128, .f32⟩).ofBuf (Val := Elt Ideal) x)
        ((TRef.of main_call0_v0 : TRef sig ⟨S_, .f32⟩).ofBuf (Val := Elt Ideal)
          ((TRef.of main_call0_v0 : TRef sig ⟨S_, .f32⟩).toBuf (Val := Elt Ideal)
            (sitofp (F := Ideal) .f32 ((TRef.of main_c_4 : TRef sig ⟨S_, .i32⟩).ofBuf (Val := Elt Ideal) (constantI S_ 32 0#32)))))
        pads_S100000x128_S106496x128_064960_000 h_S_) = padRows x := rfl

variable (Fv : Valuation τ sig (Elt Ideal))

/-- The padded node features. -/
theorem stretch0_v26 :
    StableHlo.after hostOps0_1 (StableHlo.after hostOps0 Fv) (Proc.devRef .tc main_v26) = padRows (F := Ideal) (Fv (Proc.devRef .tc main_arg0) : FVec Ideal S100000x128 .f32) := by
  after_results_simp
  exact pad_call0 _

/-- The first weight matrix. -/
theorem stretch0_v25 :
    StableHlo.after hostOps0_1 (StableHlo.after hostOps0 Fv) (Proc.devRef .tc main_v25) = weight0 (F := Ideal) (Fv (Proc.devRef .tc main_arg2) : FVec Ideal S3x128x128 .f32) := by
  after_results_simp
  rfl

/-- The normalised edge weights, as a column. -/
theorem stretch0_v23 :
    StableHlo.after hostOps0_1 (StableHlo.after hostOps0 Fv) (Proc.devRef .tc main_v23)
      = normCol (F := Ideal) (Fv (Proc.devRef .tc main_arg1) : FVec Ideal S1600000 .f32) (Fv (Proc.devRef .tc main_arg4) : IVec S1600000 32) (Fv (Proc.devRef .tc main_arg5) : IVec S1600000 32) := by
  after_results_simp
  rfl

theorem stretch0_arg2 :
    StableHlo.after hostOps0_1 (StableHlo.after hostOps0 Fv) (Proc.devRef .tc main_arg2) = Fv (Proc.devRef .tc main_arg2) := by
  after_results_simp

theorem stretch0_arg3 :
    StableHlo.after hostOps0_1 (StableHlo.after hostOps0 Fv) (Proc.devRef .tc main_arg3) = Fv (Proc.devRef .tc main_arg3) := by
  after_results_simp

theorem stretch0_arg4 :
    StableHlo.after hostOps0_1 (StableHlo.after hostOps0 Fv) (Proc.devRef .tc main_arg4) = Fv (Proc.devRef .tc main_arg4) := by
  after_results_simp

theorem stretch0_arg5 :
    StableHlo.after hostOps0_1 (StableHlo.after hostOps0 Fv) (Proc.devRef .tc main_arg5) = Fv (Proc.devRef .tc main_arg5) := by
  after_results_simp

end Cert.KernelIdeal.Hand

end
-- ==== Proof.Stretch1.lean ====
/-
  The host stretch between the first and the second region, read over any contents of the buffers it starts
  from: it cuts the first product array back to the true rows, aggregates them over the edges, pads the aggregate
  with zero rows, and cuts the first bias row and the second weight matrix out of the stacked parameters; the
  arrays later stretches read pass through unchanged.
-/
import proofs.«104657_j9869834846327_1_alg».proof.Proof.Gen.KernelIdeal.Launch
import proofs.«104657_j9869834846327_1_alg».proof.Proof.KerStages
import Idealize.ShloMosaic.Lib.StableHlo.Run
import Idealize.ShloMosaic.PureOps.Ideal

set_option maxRecDepth 16384
set_option maxHeartbeats 4000000

noncomputable section

namespace Cert.KernelIdeal.Hand

open Cert.KernelIdeal Cert.KernelIdeal.Gen
open Idealize.ShloMosaic Idealize.ShloMosaic.TcCoe Idealize.SL.Sem Idealize.ShloMosaic.StableHlo

/-- The padding call on its typed references pads the rows with zero rows. -/
theorem pad_call1 (x : FVec Ideal S100000x128 .f32) :
    (TRef.of main_v45 : TRef sig ⟨S106496x128, .f32⟩).toBuf (Val := Elt Ideal)
      (pad S106496x128 ![0, 0] ![6496, 0] ![0, 0]
        ((TRef.of main_v40 : TRef sig ⟨S100000x128, .f32⟩).ofBuf (Val := Elt Ideal) x)
        ((TRef.of main_call1_v0 : TRef sig ⟨S_, .f32⟩).ofBuf (Val := Elt Ideal)
          ((TRef.of main_call1_v0 : TRef sig ⟨S_, .f32⟩).toBuf (Val := Elt Ideal)
            (sitofp (F := Ideal) .f32 ((TRef.of main_c_8 : TRef sig ⟨S_, .i32⟩).ofBuf (Val := Elt Ideal) (constantI S_ 32 0#32)))))
        pads_S100000x128_S106496x128_064960_000 h_S_) = padRows x := rfl

variable (Fv : Valuation τ sig (Elt Ideal))

/-- The padded aggregate of the first product array. -/
theorem stretch1_v45 :
    StableHlo.after hostOps1_2 (StableHlo.after hostOps1_1 (StableHlo.after hostOps1 Fv)) (Proc.devRef .tc main_v45)
      = padRows (F := Ideal) (aggregate (cutRows (Fv (Proc.devRef .tc main_v27) : FVec Ideal S106496x128 .f32)) (Fv (Proc.devRef .tc main_v23) : FVec Ideal S1600000x1 .f32)
          (Fv (Proc.devRef .tc main_arg4) : IVec S1600000 32) (Fv (Proc.devRef .tc main_arg5) : IVec S1600000 32)) := by
  after_results_simp
  refine (pad_call1 _).trans (congrArg padRows ?_)
  rfl

/-- The layer's bias as a one-row matrix. -/
theorem stretch1_v46 :
    StableHlo.after hostOps1_2 (StableHlo.after hostOps1_1 (StableHlo.after hostOps1 Fv)) (Proc.devRef .tc main_v46) = biasRow (F := Ideal) (biasVec0 (Fv (Proc.devRef .tc main_arg3) : FVec Ideal S3x128 .f32)) := by
  after_results_simp
  rfl

/-- The next layer's weight matrix. -/
theorem stretch1_v44 :
    StableHlo.after hostOps1_2 (StableHlo.after hostOps1_1 (StableHlo.after hostOps1 Fv)) (Proc.devRef .tc main_v44) = weight1 (F := Ideal) (Fv (Proc.devRef .tc main_arg2) : FVec Ideal S3x128x128 .f32) := by
  after_results_simp
  rfl

theorem stretch1_v23 :
    StableHlo.after hostOps1_2 (StableHlo.after hostOps1_1 (StableHlo.after hostOps1 Fv)) (Proc.devRef .tc main_v23) = Fv (Proc.devRef .tc main_v23) := by
  after_results_simp

theorem stretch1_arg2 :
    StableHlo.after hostOps1_2 (StableHlo.after hostOps1_1 (StableHlo.after hostOps1 Fv)) (Proc.devRef .tc main_arg2) = Fv (Proc.devRef .tc main_arg2) := by
  after_results_simp

theorem stretch1_arg3 :
    StableHlo.after hostOps1_2 (StableHlo.after hostOps1_1 (StableHlo.after hostOps1 Fv)) (Proc.devRef .tc main_arg3) = Fv (Proc.devRef .tc main_arg3) := by
  after_results_simp

theorem stretch1_arg4 :
    StableHlo.after hostOps1_2 (StableHlo.after hostOps1_1 (StableHlo.after hostOps1 Fv)) (Proc.devRef .tc main_arg4) = Fv (Proc.devRef .tc main_arg4) := by
  after_results_simp

theorem stretch1_arg5 :
    StableHlo.after hostOps1_2 (StableHlo.after hostOps1_1 (StableHlo.after hostOps1 Fv)) (Proc.devRef .tc main_arg5) = Fv (Proc.devRef .tc main_arg5) := by
  after_results_simp

end Cert.KernelIdeal.Hand

end
-- ==== Proof.Stretch2.lean ====
/-
  The host stretch between the second and the third region, read over any contents of the buffers it starts
  from: it cuts the second product array back to the true rows, aggregates them over the edges, pads the aggregate
  with zero rows, and cuts the second bias row and the third weight matrix out of the stacked parameters; the
  arrays later stretches read pass through unchanged.
-/
import proofs.«104657_j9869834846327_1_alg».proof.Proof.Gen.KernelIdeal.Launch
import proofs.«104657_j9869834846327_1_alg».proof.Proof.KerStages
import Idealize.ShloMosaic.Lib.StableHlo.Run
import Idealize.ShloMosaic.PureOps.Ideal

set_option maxRecDepth 16384
set_option maxHeartbeats 4000000

noncomputable section

namespace Cert.KernelIdeal.Hand

open Cert.KernelIdeal Cert.KernelIdeal.Gen
open Idealize.ShloMosaic Idealize.ShloMosaic.TcCoe Idealize.SL.Sem Idealize.ShloMosaic.StableHlo

/-- The padding call on its typed references pads the rows with zero rows. -/
theorem pad_call2 (x : FVec Ideal S100000x128 .f32) :
    (TRef.of main_v65 : TRef sig ⟨S106496x128, .f32⟩).toBuf (Val := Elt Ideal)
      (pad S106496x128 ![0, 0] ![6496, 0] ![0, 0]
        ((TRef.of main_v60 : TRef sig ⟨S100000x128, .f32⟩).ofBuf (Val := Elt Ideal) x)
        ((TRef.of main_call2_v0 : TRef sig ⟨S_, .f32⟩).ofBuf (Val := Elt Ideal)
          ((TRef.of main_call2_v0 : TRef sig ⟨S_, .f32⟩).toBuf (Val := Elt Ideal)
            (sitofp (F := Ideal) .f32 ((TRef.of main_c_12 : TRef sig ⟨S_, .i32⟩).ofBuf (Val := Elt Ideal) (constantI S_ 32 0#32)))))
        pads_S100000x128_S106496x128_064960_000 h_S_) = padRows x := rfl

variable (Fv : Valuation τ sig (Elt Ideal))

/-- The padded aggregate of the second product array. -/
theorem stretch2_v65 :
    StableHlo.after hostOps2_2 (StableHlo.after hostOps2_1 (StableHlo.after hostOps2 Fv)) (Proc.devRef .tc main_v65)
      = padRows (F := Ideal) (aggregate (cutRows (Fv (Proc.devRef .tc main_v47) : FVec Ideal S106496x128 .f32)) (Fv (Proc.devRef .tc main_v23) : FVec Ideal S1600000x1 .f32)
          (Fv (Proc.devRef .tc main_arg4) : IVec S1600000 32) (Fv (Proc.devRef .tc main_arg5) : IVec S1600000 32)) := by
  after_results_simp
  refine (pad_call2 _).trans (congrArg padRows ?_)
  rfl

/-- The layer's bias as a one-row matrix. -/
theorem stretch2_v66 :
    StableHlo.after hostOps2_2 (StableHlo.after hostOps2_1 (StableHlo.after hostOps2 Fv)) (Proc.devRef .tc main_v66) = biasRow (F := Ideal) (biasVec1 (Fv (Proc.devRef .tc main_arg3) : FVec Ideal S3x128 .f32)) := by
  after_results_simp
  rfl

/-- The next layer's weight matrix. -/
theorem stretch2_v64 :
    StableHlo.after hostOps2_2 (StableHlo.after hostOps2_1 (StableHlo.after hostOps2 Fv)) (Proc.devRef .tc main_v64) = weight2 (F := Ideal) (Fv (Proc.devRef .tc main_arg2) : FVec Ideal S3x128x128 .f32) := by
  after_results_simp
  rfl

theorem stretch2_v23 :
    StableHlo.after hostOps2_2 (StableHlo.after hostOps2_1 (StableHlo.after hostOps2 Fv)) (Proc.devRef .tc main_v23) = Fv (Proc.devRef .tc main_v23) := by
  after_results_simp

theorem stretch2_arg3 :
    StableHlo.after hostOps2_2 (StableHlo.after hostOps2_1 (StableHlo.after hostOps2 Fv)) (Proc.devRef .tc main_arg3) = Fv (Proc.devRef .tc main_arg3) := by
  after_results_simp

theorem stretch2_arg4 :
    StableHlo.after hostOps2_2 (StableHlo.after hostOps2_1 (StableHlo.after hostOps2 Fv)) (Proc.devRef .tc main_arg4) = Fv (Proc.devRef .tc main_arg4) := by
  after_results_simp

theorem stretch2_arg5 :
    StableHlo.after hostOps2_2 (StableHlo.after hostOps2_1 (StableHlo.after hostOps2 Fv)) (Proc.devRef .tc main_arg5) = Fv (Proc.devRef .tc main_arg5) := by
  after_results_simp

end Cert.KernelIdeal.Hand

end
-- ==== Proof.Stretch3.lean ====
/-
  The host stretches around the last region, read over any contents of the buffers they start from: before it,
  the third product array is cut back to the true rows, aggregated over the edges and padded with zero rows, and
  the third bias row is cut out of the stacked parameters; after it, the result is cut back to the true rows.
-/
import proofs.«104657_j9869834846327_1_alg».proof.Proof.Gen.KernelIdeal.Launch
import proofs.«104657_j9869834846327_1_alg».proof.Proof.KerStages
import Idealize.ShloMosaic.Lib.StableHlo.Run
import Idealize.ShloMosaic.PureOps.Ideal

set_option maxRecDepth 16384
set_option maxHeartbeats 4000000

noncomputable section

namespace Cert.KernelIdeal.Hand

open Cert.KernelIdeal Cert.KernelIdeal.Gen
open Idealize.ShloMosaic Idealize.ShloMosaic.TcCoe Idealize.SL.Sem Idealize.ShloMosaic.StableHlo

/-- The padding call on its typed references pads the rows with zero rows. -/
theorem pad_call3 (x : FVec Ideal S100000x128 .f32) :
    (TRef.of main_v83 : TRef sig ⟨S106496x128, .f32⟩).toBuf (Val := Elt Ideal)
      (pad S106496x128 ![0, 0] ![6496, 0] ![0, 0]
        ((TRef.of main_v80 : TRef sig ⟨S100000x128, .f32⟩).ofBuf (Val := Elt Ideal) x)
        ((TRef.of main_call3_v0 : TRef sig ⟨S_, .f32⟩).ofBuf (Val := Elt Ideal)
          ((TRef.of main_call3_v0 : TRef sig ⟨S_, .f32⟩).toBuf (Val := Elt Ideal)
            (sitofp (F := Ideal) .f32 ((TRef.of main_c_16 : TRef sig ⟨S_, .i32⟩).ofBuf (Val := Elt Ideal) (constantI S_ 32 0#32)))))
        pads_S100000x128_S106496x128_064960_000 h_S_) = padRows x := rfl

variable (Fv : Valuation τ sig (Elt Ideal))

/-- The padded aggregate of the third product array. -/
theorem stretch3_v83 :
    StableHlo.after hostOps3_2 (StableHlo.after hostOps3_1 (StableHlo.after hostOps3 Fv)) (Proc.devRef .tc main_v83)
      = padRows (F := Ideal) (aggregate (cutRows (Fv (Proc.devRef .tc main_v67) : FVec Ideal S106496x128 .f32)) (Fv (Proc.devRef .tc main_v23) : FVec Ideal S1600000x1 .f32)
          (Fv (Proc.devRef .tc main_arg4) : IVec S1600000 32) (Fv (Proc.devRef .tc main_arg5) : IVec S1600000 32)) := by
  after_results_simp
  refine (pad_call3 _).trans (congrArg padRows ?_)
  rfl

/-- The layer's bias as a one-row matrix. -/
theorem stretch3_v84 :
    StableHlo.after hostOps3_2 (StableHlo.after hostOps3_1 (StableHlo.after hostOps3 Fv)) (Proc.devRef .tc main_v84) = biasRow (F := Ideal) (biasVec2 (Fv (Proc.devRef .tc main_arg3) : FVec Ideal S3x128 .f32)) := by
  after_results_simp
  rfl

/-- The result: the last region's output cut back to the true rows. -/
theorem stretch4_v86 :
    StableHlo.after hostOps4 Fv (Proc.devRef .tc main_v86) = cutRows (F := Ideal) (Fv (Proc.devRef .tc main_v85) : FVec Ideal S106496x128 .f32) := by
  after_results_simp
  rfl

end Cert.KernelIdeal.Hand

end
-- ==== Proof.KerChain.lean ====
/-
  The idealized kernel's result as one function of its arguments.  The run's last boundary holds the result
  buffer at a fold through sixteen segments; here the fold is read back segment by segment: each host stretch is
  the named stage functions applied to what the previous boundary holds, each region leaves in its output array
  the whole-array function of its input arrays (the hypothesis `RegionValues`, one conjunct per region), and every
  array a later stretch reads (the stacked parameters, the edge endpoints, the normalised edge weights) is
  carried unchanged across the regions that do not write it.
-/
import proofs.«104657_j9869834846327_1_alg».proof.Proof.Gen.KernelIdeal.Frame
import proofs.«104657_j9869834846327_1_alg».proof.Proof.KerOut
import proofs.«104657_j9869834846327_1_alg».proof.Proof.Spec
import proofs.«104657_j9869834846327_1_alg».proof.Proof.Stretch0
import proofs.«104657_j9869834846327_1_alg».proof.Proof.Stretch1
import proofs.«104657_j9869834846327_1_alg».proof.Proof.Stretch2
import proofs.«104657_j9869834846327_1_alg».proof.Proof.Stretch3

set_option maxRecDepth 16384
set_option maxHeartbeats 4000000

noncomputable section

namespace Cert.KernelIdeal.Hand

open Cert.KernelIdeal Cert.KernelIdeal.Gen Cert.Gcn
open Idealize.ShloMosaic Idealize.ShloMosaic.TcCoe Idealize.SL.Sem Idealize.ShloMosaic.StableHlo

variable (m : (ℓ : Loc nD τ sig) → Buf (Elt Ideal) ℓ) (ρ : Dev nD → PrngReg)

/-- What each region leaves in its output array, as a function of its input arrays at the region's entry. -/
def RegionValues : Prop :=
  (∀ (V : (c : Dev nD) → (b : Ref sig .tc) → Buf (Elt Ideal) ((c : Thread nD τ).loc b)) (c : Dev nD),
      (dat0 V c).arrAt 2 cfg0.N = rowsTimes (V c main_v26) (V c main_v25))
  ∧ (∀ (V : (c : Dev nD) → (b : Ref sig .tc) → Buf (Elt Ideal) ((c : Thread nD τ).loc b)) (c : Dev nD),
      (dat1 V c).arrAt 3 cfg1.N = rowsTimes (biasElu (V c main_v45) (V c main_v46)) (V c main_v44))
  ∧ (∀ (V : (c : Dev nD) → (b : Ref sig .tc) → Buf (Elt Ideal) ((c : Thread nD τ).loc b)) (c : Dev nD),
      (dat2 V c).arrAt 3 cfg2.N = rowsTimes (biasElu (V c main_v65) (V c main_v66)) (V c main_v64))
  ∧ (∀ (V : (c : Dev nD) → (b : Ref sig .tc) → Buf (Elt Ideal) ((c : Thread nD τ).loc b)) (c : Dev nD),
      (dat3 V c).arrAt 2 cfg3.N = biasElu (V c main_v83) (V c main_v84))

/-! ## The arguments as launched, and the stages' values -/

abbrev xA (c : Dev nD) : FVec Ideal S100000x128 .f32 := m ((c : Thread nD τ).loc main_arg0)
abbrev ewA (c : Dev nD) : FVec Ideal S1600000 .f32 := m ((c : Thread nD τ).loc main_arg1)
abbrev wA (c : Dev nD) : FVec Ideal S3x128x128 .f32 := m ((c : Thread nD τ).loc main_arg2)
abbrev bA (c : Dev nD) : FVec Ideal S3x128 .f32 := m ((c : Thread nD τ).loc main_arg3)
abbrev srcA (c : Dev nD) : IVec S1600000 32 := m ((c : Thread nD τ).loc main_arg4)
abbrev dstA (c : Dev nD) : IVec S1600000 32 := m ((c : Thread nD τ).loc main_arg5)
abbrev ncA (c : Dev nD) : FVec Ideal S1600000x1 .f32 := normCol (ewA m c) (srcA m c) (dstA m c)

/-- Region 0's output array: the padded rows times the first weight matrix. -/
def P0 (c : Dev nD) : FVec Ideal S106496x128 .f32 := rowsTimes (padRows (xA m c)) (weight0 (wA m c))
def a1 (c : Dev nD) : FVec Ideal S100000x128 .f32 := aggregate (cutRows (P0 m c)) (ncA m c) (srcA m c) (dstA m c)
/-- Region 1's output array. -/
def P1 (c : Dev nD) : FVec Ideal S106496x128 .f32 :=
  rowsTimes (biasElu (padRows (a1 m c)) (biasRow (biasVec0 (bA m c)))) (weight1 (wA m c))
def a2 (c : Dev nD) : FVec Ideal S100000x128 .f32 := aggregate (cutRows (P1 m c)) (ncA m c) (srcA m c) (dstA m c)
/-- Region 2's output array. -/
def P2 (c : Dev nD) : FVec Ideal S106496x128 .f32 :=
  rowsTimes (biasElu (padRows (a2 m c)) (biasRow (biasVec1 (bA m c)))) (weight2 (wA m c))
def a3 (c : Dev nD) : FVec Ideal S100000x128 .f32 := aggregate (cutRows (P2 m c)) (ncA m c) (srcA m c) (dstA m c)
/-- Region 3's output array. -/
def P3 (c : Dev nD) : FVec Ideal S106496x128 .f32 := biasElu (padRows (a3 m c)) (biasRow (biasVec2 (bA m c)))

theorem cut_P3 (c : Dev nD) : cutRows (P3 m c) = kerOut (xA m c) (ewA m c) (wA m c) (bA m c) (srcA m c) (dstA m c) := rfl

/-! ## Region 0 -/

theorem entry0 (c : Dev nD) :
    W2 m ρ c (Proc.devRef .tc main_v26) = padRows (xA m c)
    ∧ W2 m ρ c (Proc.devRef .tc main_v25) = weight0 (wA m c)
    ∧ W2 m ρ c (Proc.devRef .tc main_v23) = ncA m c
    ∧ W2 m ρ c (Proc.devRef .tc main_arg2) = wA m c
    ∧ W2 m ρ c (Proc.devRef .tc main_arg3) = bA m c
    ∧ W2 m ρ c (Proc.devRef .tc main_arg4) = srcA m c
    ∧ W2 m ρ c (Proc.devRef .tc main_arg5) = dstA m c :=
  ⟨stretch0_v26 (W0 m ρ c), stretch0_v25 (W0 m ρ c), stretch0_v23 (W0 m ρ c), stretch0_arg2 (W0 m ρ c),
    stretch0_arg3 (W0 m ρ c), stretch0_arg4 (W0 m ρ c), stretch0_arg5 (W0 m ρ c)⟩

theorem exit0 (hf : RegionValues) (c : Dev nD) :
    W3 m ρ c (Proc.devRef .tc main_v27) = P0 m c
    ∧ W3 m ρ c (Proc.devRef .tc main_v23) = ncA m c
    ∧ W3 m ρ c (Proc.devRef .tc main_arg2) = wA m c
    ∧ W3 m ρ c (Proc.devRef .tc main_arg3) = bA m c
    ∧ W3 m ρ c (Proc.devRef .tc main_arg4) = srcA m c
    ∧ W3 m ρ c (Proc.devRef .tc main_arg5) = dstA m c := by
  obtain ⟨e26, e25, e23, e2, e3, e4, e5⟩ := entry0 m ρ c
  refine ⟨?_, ?_, ?_, ?_, ?_, ?_⟩
  · have h := W3_arr m ρ c 2
    rw [hf.1 (V2 m ρ) c] at h
    refine h.trans ?_
    show rowsTimes (W2 m ρ c (Proc.devRef .tc main_v26)) (W2 m ρ c (Proc.devRef .tc main_v25)) = _
    rw [e26, e25]
    rfl
  · exact (W3_of_ne m ρ c main_v23 (by decide)).trans e23
  · exact (W3_of_ne m ρ c main_arg2 (by decide)).trans e2
  · exact (W3_of_ne m ρ c main_arg3 (by decide)).trans e3
  · exact (W3_of_ne m ρ c main_arg4 (by decide)).trans e4
  · exact (W3_of_ne m ρ c main_arg5 (by decide)).trans e5

/-! ## Region 1 -/

theorem entry1 (hf : RegionValues) (c : Dev nD) :
    W6 m ρ c (Proc.devRef .tc main_v45) = padRows (a1 m c)
    ∧ W6 m ρ c (Proc.devRef .tc main_v46) = biasRow (biasVec0 (bA m c))
    ∧ W6 m ρ c (Proc.devRef .tc main_v44) = weight1 (wA m c)
    ∧ W6 m ρ c (Proc.devRef .tc main_v23) = ncA m c
    ∧ W6 m ρ c (Proc.devRef .tc main_arg2) = wA m c
    ∧ W6 m ρ c (Proc.devRef .tc main_arg3) = bA m c
    ∧ W6 m ρ c (Proc.devRef .tc main_arg4) = srcA m c
    ∧ W6 m ρ c (Proc.devRef .tc main_arg5) = dstA m c := by
  obtain ⟨e27, e23, e2, e3, e4, e5⟩ := exit0 m ρ hf c
  refine ⟨?_, ?_, ?_, ?_, ?_, ?_, ?_, ?_⟩
  · have h := stretch1_v45 (W3 m ρ c)
    rw [e27, e23, e4, e5] at h
    exact h
  · have h := stretch1_v46 (W3 m ρ c)
    rw [e3] at h
    exact h
  · have h := stretch1_v44 (W3 m ρ c)
    rw [e2] at h
    exact h
  · exact (stretch1_v23 (W3 m ρ c)).trans e23
  · exact (stretch1_arg2 (W3 m ρ c)).trans e2
  · exact (stretch1_arg3 (W3 m ρ c)).trans e3
  · exact (stretch1_arg4 (W3 m ρ c)).trans e4
  · exact (stretch1_arg5 (W3 m ρ c)).trans e5

theorem exit1 (hf : RegionValues) (c : Dev nD) :
    W7 m ρ c (Proc.devRef .tc main_v47) = P1 m c
    ∧ W7 m ρ c (Proc.devRef .tc main_v23) = ncA m c
    ∧ W7 m ρ c (Proc.devRef .tc main_arg2) = wA m c
    ∧ W7 m ρ c (Proc.devRef .tc main_arg3) = bA m c
    ∧ W7 m ρ c (Proc.devRef .tc main_arg4) = srcA m c
    ∧ W7 m ρ c (Proc.devRef .tc main_arg5) = dstA m c := by
  obtain ⟨e45, e46, e44, e23, e2, e3, e4, e5⟩ := entry1 m ρ hf c
  refine ⟨?_, ?_, ?_, ?_, ?_, ?_⟩
  · have h := W7_arr m ρ c 3
    rw [hf.2.1 (V6 m ρ) c] at h
    refine h.trans ?_
    show rowsTimes (biasElu (W6 m ρ c (Proc.devRef .tc main_v45)) (W6 m ρ c (Proc.devRef .tc main_v46))) (W6 m ρ c (Proc.devRef .tc main_v44)) = _
    rw [e45, e46, e44]
    rfl
  · exact (W7_of_ne m ρ c main_v23 (by decide)).trans e23
  · exact (W7_of_ne m ρ c main_arg2 (by decide)).trans e2
  · exact (W7_of_ne m ρ c main_arg3 (by decide)).trans e3
  · exact (W7_of_ne m ρ c main_arg4 (by decide)).trans e4
  · exact (W7_of_ne m ρ c main_arg5 (by decide)).trans e5

/-! ## Region 2 -/

theorem entry2 (hf : RegionValues) (c : Dev nD) :
    W10 m ρ c (Proc.devRef .tc main_v65) = padRows (a2 m c)
    ∧ W10 m ρ c (Proc.devRef .tc main_v66) = biasRow (biasVec1 (bA m c))
    ∧ W10 m ρ c (Proc.devRef .tc main_v64) = weight2 (wA m c)
    ∧ W10 m ρ c (Proc.devRef .tc main_v23) = ncA m c
    ∧ W10 m ρ c (Proc.devRef .tc main_arg3) = bA m c
    ∧ W10 m ρ c (Proc.devRef .tc main_arg4) = srcA m c
    ∧ W10 m ρ c (Proc.devRef .tc main_arg5) = dstA m c := by
  obtain ⟨e47, e23, e2, e3, e4, e5⟩ := exit1 m ρ hf c
  refine ⟨?_, ?_, ?_, ?_, ?_, ?_, ?_⟩
  · have h := stretch2_v65 (W7 m ρ c)
    rw [e47, e23, e4, e5] at h
    exact h
  · have h := stretch2_v66 (W7 m ρ c)
    rw [e3] at h
    exact h
  · have h := stretch2_v64 (W7 m ρ c)
    rw [e2] at h
    exact h
  · exact (stretch2_v23 (W7 m ρ c)).trans e23
  · exact (stretch2_arg3 (W7 m ρ c)).trans e3
  · exact (stretch2_arg4 (W7 m ρ c)).trans e4
  · exact (stretch2_arg5 (W7 m ρ c)).trans e5

theorem exit2 (hf : RegionValues) (c : Dev nD) :
    W11 m ρ c (Proc.devRef .tc main_v67) = P2 m c
    ∧ W11 m ρ c (Proc.devRef .tc main_v23) = ncA m c
    ∧ W11 m ρ c (Proc.devRef .tc main_arg3) = bA m c
    ∧ W11 m ρ c (Proc.devRef .tc main_arg4) = srcA m c
    ∧ W11 m ρ c (Proc.devRef .tc main_arg5) = dstA m c := by
  obtain ⟨e65, e66, e64, e23, e3, e4, e5⟩ := entry2 m ρ hf c
  refine ⟨?_, ?_, ?_, ?_, ?_⟩
  · have h := W11_arr m ρ c 3
    rw [hf.2.2.1 (V10 m ρ) c] at h
    refine h.trans ?_
    show rowsTimes (biasElu (W10 m ρ c (Proc.devRef .tc main_v65)) (W10 m ρ c (Proc.devRef .tc main_v66))) (W10 m ρ c (Proc.devRef .tc main_v64)) = _
    rw [e65, e66, e64]
    rfl
  · exact (W11_of_ne m ρ c main_v23 (by decide)).trans e23
  · exact (W11_of_ne m ρ c main_arg3 (by decide)).trans e3
  · exact (W11_of_ne m ρ c main_arg4 (by decide)).trans e4
  · exact (W11_of_ne m ρ c main_arg5 (by decide)).trans e5

/-! ## Region 3 and the result -/

theorem entry3 (hf : RegionValues) (c : Dev nD) :
    W14 m ρ c (Proc.devRef .tc main_v83) = padRows (a3 m c)
    ∧ W14 m ρ c (Proc.devRef .tc main_v84) = biasRow (biasVec2 (bA m c)) := by
  obtain ⟨e67, e23, e3, e4, e5⟩ := exit2 m ρ hf c
  refine ⟨?_, ?_⟩
  · have h := stretch3_v83 (W11 m ρ c)
    rw [e67, e23, e4, e5] at h
    exact h
  · have h := stretch3_v84 (W11 m ρ c)
    rw [e3] at h
    exact h

theorem exit3 (hf : RegionValues) (c : Dev nD) : W15 m ρ c (Proc.devRef .tc main_v85) = P3 m c := by
  obtain ⟨e83, e84⟩ := entry3 m ρ hf c
  have h := W15_arr m ρ c 2
  rw [hf.2.2.2 (V14 m ρ) c] at h
  refine h.trans ?_
  show biasElu (W14 m ρ c (Proc.devRef .tc main_v83)) (W14 m ρ c (Proc.devRef .tc main_v84)) = _
  rw [e83, e84]
  rfl

/-- The last boundary holds, at the result's buffer, the whole program's function of the arguments. -/
theorem result_eq (hf : RegionValues) (c : Dev nD) :
    W16 m ρ c (Proc.devRef .tc main_v86) = kerOut (xA m c) (ewA m c) (wA m c) (bA m c) (srcA m c) (dstA m c) := by
  have h := stretch4_v86 (W15 m ρ c)
  rw [exit3 m ρ hf c] at h
  exact h.trans (cut_P3 m c)

end Cert.KernelIdeal.Hand

end
-- ==== Proof.Payload.lean ====
/-
  What the four kernel bodies compute on one row block, as functions of whole blocks: the first body multiplies
  the block's rows by the weight matrix, the second and third add the bias row, apply ELU and multiply by the
  weight matrix, the last adds the bias row and applies ELU.  On the extended reals the format changes inside the
  bodies are the identity and the matrix product is the plain sum over the contracted axis, so each body is the
  corresponding whole-array function of the specification, taken at the block's height.
-/
import proofs.«104657_j9869834846327_1_alg».proof.Proof.Gen.KernelIdeal.Skeleton
import proofs.«104657_j9869834846327_1_alg».proof.Proof.Spec
import Idealize.ShloMosaic.PureOps.Ideal.Laws
import Idealize.ShloMosaic.PureOps.IdealRules
import Idealize.ShloMosaic.Lib.ValueIdx
import Idealize.ShloMosaic.Lib.ValueLayout

noncomputable section

namespace Cert.KernelIdeal.Hand

open Cert.KernelIdeal Cert.KernelIdeal.Gen Cert.Gcn
open Idealize.ShloMosaic Idealize.ShloMosaic.ValueIdx

/-- The zero offsets of a whole-buffer access. -/
theorem zeros2 : (![0, 0] : Fin 2 → Nat) = fun _ => 0 := funext fun a => by fin_cases a <;> rfl

/-! ## ELU as the bodies spell it -/

/-- The bodies' ELU: where `y` is above zero take `y`, elsewhere `e^y - 1`; the two float words are zero and one. -/
theorem elu_select (y : EReal) :
    Scalar.select (Ideal.cmp .ogt y (Ideal.ofBits .f32 0x00000000#32)) y
      (Ideal.exp y - Ideal.ofBits .f32 0x3F800000#32) = elu y := by
  rw [Ideal.ofBits_zero_f32, show Ideal.ofBits .f32 0x3F800000#32 = 1 from IdealRules.sign_bit.ideal_onePat .f32]
  unfold elu Scalar.select Ideal.cmp
  by_cases h : (0 : EReal) < y
  · simp [h]
  · simp [h]

/-- The exponential of a block at an entry is the exponential of the entry. -/
theorem exp_apply {s : Shape} {φ : FTy} (a : FVec Ideal s φ) (i : s.Idx) : exp a i = Ideal.exp (a i) := rfl

/-- Bias row added, then ELU, at one entry of a block: the body's operations read at `(p, q)`. -/
theorem bias_elu_at (a : FVec Ideal S8192x128 .f32) (b : FVec Ideal S1x128 .f32) (p : Fin 8192) (q : Fin 128) :
    (select (cmpf .ogt (addf a (broadcastTo S8192x128 b broadcasts_S1x128_S8192x128))
        (broadcast S8192x128 (Scalar.ofBits (F := Ideal) .f32 0x00000000#32)))
      (addf a (broadcastTo S8192x128 b broadcasts_S1x128_S8192x128))
      (subf (exp (addf a (broadcastTo S8192x128 b broadcasts_S1x128_S8192x128)))
        (broadcast S8192x128 (Scalar.ofBits (F := Ideal) .f32 0x3F800000#32))) : FVec Ideal S8192x128 .f32) (ix2 p q)
      = elu (a (ix2 p q) + b (ix2 (0 : Fin 1) q)) := by
  rw [select_apply, cmpf_apply, subf_apply, exp_apply, addf_apply, broadcast_apply, broadcast_apply,
    broadcastTo_1b_ab_apply b broadcasts_S1x128_S8192x128 p q]
  exact elu_select _

/-! ## The matrix product at an entry -/

/-- The bodies' contraction: block rows `[8192, 128]` times the weight `[128, 128]`, over the rows' second axis and
    the weight's first. -/
abbrev dotRows : DotDims S8192x128 S128x128 S8192x128 := dot_S8192x128_S128x128_S8192x128_1_0_0_1_n_n

/-- The left operand is read at the output's row … -/
theorem lhs_row (i : S8192x128.Idx) (k : dotRows.contr.Idx) : (dotRows.lhsIdx i k 0).val = (i 0).val := by
  unfold DotDims.lhsIdx
  rw [dif_neg (show ¬(0 : Fin S8192x128.rank) ∈ dotRows.lhsBatch by decide),
    dif_pos (show (0 : Fin S8192x128.rank) ∈ dotRows.lhsNonContracting by decide)]
  rfl
/-- … and the contracted position, -/
theorem lhs_col (i : S8192x128.Idx) (k : dotRows.contr.Idx) : (dotRows.lhsIdx i k 1).val = (k ⟨0, by decide⟩).val :=
  dotRows.lhsIdx_val_of_single rfl i k
/-- the right operand at the contracted position … -/
theorem rhs_row (i : S8192x128.Idx) (k : dotRows.contr.Idx) : (dotRows.rhsIdx i k 0).val = (k ⟨0, by decide⟩).val :=
  dotRows.rhsIdx_val_of_single rfl i k
/-- … and the output's column. -/
theorem rhs_col (i : S8192x128.Idx) (k : dotRows.contr.Idx) : (dotRows.rhsIdx i k 1).val = (i 1).val := by
  unfold DotDims.rhsIdx
  rw [dif_neg (show ¬(1 : Fin S128x128.rank) ∈ dotRows.rhsBatch by decide),
    dif_pos (show (1 : Fin S128x128.rank) ∈ dotRows.rhsNonContracting by decide)]
  rfl

/-- The product into the zero accumulator, at entry `(p, q)`: the sum over `k` of `x (p, k) * w (k, q)`. -/
theorem matmul_at {φ₁ φ₂ : FTy} (x : FVec Ideal S8192x128 φ₁) (w : FVec Ideal S128x128 φ₂) (p : Fin 8192) (q : Fin 128) :
    matmul dotRows none x w (constant (F := Ideal) S8192x128 .f32 0x00000000#32) (ix2 p q)
      = ∑ k : Fin 128, x (ix2 p k) * w (ix2 k q) := by
  simp only [matmul]
  rw [Ideal.matmul_constant_zero_apply, ← Equiv.sum_comp (contrEquiv1 dotRows 128 rfl rfl).symm]
  refine Finset.sum_congr rfl fun k _ => ?_
  have hk := contrEquiv1_symm_val dotRows 128 rfl rfl k
  have el : dotRows.lhsIdx (ix2 p q) ((contrEquiv1 dotRows 128 rfl rfl).symm k) = ix2 p k := funext fun a => Fin.ext (by
    match a with
    | ⟨0, _⟩ => exact lhs_row _ _
    | ⟨1, _⟩ => exact (lhs_col _ _).trans hk)
  have er : dotRows.rhsIdx (ix2 p q) ((contrEquiv1 dotRows 128 rfl rfl).symm k) = ix2 k q := funext fun a => Fin.ext (by
    match a with
    | ⟨0, _⟩ => exact (rhs_row _ _).trans hk
    | ⟨1, _⟩ => exact rhs_col _ _)
  rw [el, er]

/-! ## The four bodies on a block -/

/-- The first body: the block's rows times the weight. -/
theorem k0_pay1_eq (v0 : Vec Ideal S8192x128 .f32) (v3 : Vec Ideal S128x128 .f32) :
    k0_pay1 v0 v3 = rowsTimes (n := 8192) v0 v3 := by
  funext j
  obtain ⟨p, q, rfl⟩ : ∃ (p : Fin 8192) (q : Fin 128), j = ix2 p q := ⟨j 0, j 1, eq_ix2 j⟩
  unfold k0_pay1
  simp only [shapeCast_self]
  exact matmul_at _ _ p q

/-- The last body: the bias row added to the block, then ELU. -/
theorem k3_pay1_eq (v0 : Vec Ideal S8192x128 .f32) (v2 : Vec Ideal S1x128 .f32) :
    k3_pay1 v0 v2 = biasElu (n := 8192) v0 v2 := by
  funext j
  obtain ⟨p, q, rfl⟩ : ∃ (p : Fin 8192) (q : Fin 128), j = ix2 p q := ⟨j 0, j 1, eq_ix2 j⟩
  unfold k3_pay1
  simp only [shapeCast_self]
  exact bias_elu_at v0 v2 p q

/-- The second body: bias and ELU, then the rows times the weight. -/
theorem k1_pay1_eq (v0 : Vec Ideal S8192x128 .f32) (v2 : Vec Ideal S1x128 .f32) (v13 : Vec Ideal S128x128 .f32) :
    k1_pay1 v0 v2 v13 = rowsTimes (n := 8192) (biasElu (n := 8192) v0 v2) v13 := by
  funext j
  obtain ⟨p, q, rfl⟩ : ∃ (p : Fin 8192) (q : Fin 128), j = ix2 p q := ⟨j 0, j 1, eq_ix2 j⟩
  unfold k1_pay1
  simp only [shapeCast_self]
  refine (matmul_at _ _ p q).trans ?_
  refine Finset.sum_congr rfl fun k _ => ?_
  rw [truncf_apply, truncf_apply, bias_elu_at v0 v2 p k]
  rfl

/-- The third body: the same as the second. -/
theorem k2_pay1_eq (v0 : Vec Ideal S8192x128 .f32) (v2 : Vec Ideal S1x128 .f32) (v13 : Vec Ideal S128x128 .f32) :
    k2_pay1 v0 v2 v13 = rowsTimes (n := 8192) (biasElu (n := 8192) v0 v2) v13 := by
  funext j
  obtain ⟨p, q, rfl⟩ : ∃ (p : Fin 8192) (q : Fin 128), j = ix2 p q := ⟨j 0, j 1, eq_ix2 j⟩
  unfold k2_pay1
  simp only [shapeCast_self]
  refine (matmul_at _ _ p q).trans ?_
  refine Finset.sum_congr rfl fun k _ => ?_
  rw [truncf_apply, truncf_apply, bias_elu_at v0 v2 p k]
  rfl

end Cert.KernelIdeal.Hand

end
-- ==== Proof.Layer0.lean ====
/-
  The first layer's product array as one function of the arrays the region finds: the thirteen row blocks the
  grid writes back are the blocks of "rows times the weight matrix" of the whole padded input, and they tile the
  output.
-/
import proofs.«104657_j9869834846327_1_alg».proof.Proof.Gen.KernelIdeal.Frame
import proofs.«104657_j9869834846327_1_alg».proof.Proof.Payload
import Idealize.ShloMosaic.Lib.Pipeline.Value

set_option maxRecDepth 16384

noncomputable section

namespace Cert.KernelIdeal.Hand

open Cert.KernelIdeal Cert.KernelIdeal.Gen Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The three windows' block indices at grid point `t`: the input and the output move down one row block per point,
    the weight stays. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Row block `t` of the input: its entry `(p, q)` is the array's entry `(8192 t + p, q)`. -/
theorem rows0 (c : Dev nD) (t : Fin cfg0.N) (y : S8192x128.Idx) (i : S106496x128.Idx)
    (h0 : (i 0).val = t.val * 8192 + (y 0).val) (h1 : (i 1).val = (y 1).val) :
    (iblk0 V c 0 t : Vec Ideal S8192x128 .f32) y = (V c main_v26 : S106496x128.Idx → Elt Ideal .f32) i := by
  obtain ⟨e0, e1, -⟩ := idx0 t
  unfold iblk0
  rw [View.read_apply]
  show V c main_v26 _ = V c main_v26 _
  refine congrArg (V c main_v26) ?_
  funext a
  apply Fin.ext
  match a with
  | ⟨0, _⟩ => show win0_0.index t 0 * 8192 + 1 * (y 0).val = (i 0).val; rw [e0, h0]; omega
  | ⟨1, _⟩ => show win0_0.index t 1 * 128 + 1 * (y 1).val = (i 1).val; rw [e1, h1]; omega

/-- The weight window's block at every point is the whole weight matrix. -/
theorem wblock0 (c : Dev nD) (t : Fin cfg0.N) (y : S128x128.Idx) :
    (iblk0 V c 1 t : Vec Ideal S128x128 .f32) y = (V c main_v25 : S128x128.Idx → Elt Ideal .f32) y := by
  obtain ⟨-, -, e0, e1, -⟩ := idx0 t
  unfold iblk0
  rw [View.read_apply]
  show V c main_v25 _ = V c main_v25 _
  refine congrArg (V c main_v25) ?_
  funext a
  apply Fin.ext
  match a with
  | ⟨0, _⟩ => show win0_1.index t 0 * 128 + 1 * (y 0).val = (y 0).val; rw [e0]; omega
  | ⟨1, _⟩ => show win0_1.index t 1 * 128 + 1 * (y 1).val = (y 1).val; rw [e1]; omega

/-- What point `t` writes back is row block `t` of the whole-array function. -/
theorem flushed0_eq (c : Dev nD) (t : Fin cfg0.N) :
    (dat0 V c).flushed 2 t = ((cfg0.win 2).blk t).view.read (Elt Ideal)
      (rowsTimes (n := 106496) (V c main_v26) (V c main_v25)) := by
  show (cfg0.win 2).cut (grid0.coords t) ((dat0 V c).after 2 t) = _
  rw [after0_2]
  unfold out0_2
  rw [View.canon_unit_zero zeros2]
  simp only [View.ld_unit_zero (S := S8192x128) zeros2, View.ld_unit_zero (S := S128x128) zeros2]
  rw [k0_pay1_eq]
  obtain ⟨-, -, -, -, e0, e1⟩ := idx0 t
  funext j
  show rowsTimes (n := 8192) (iblk0 V c 0 t) (iblk0 V c 1 t) j
    = rowsTimes (n := 106496) (V c main_v26) (V c main_v25) (((cfg0.win 2).blk t).view.emb j)
  have hrow : ((((cfg0.win 2).blk t).view.emb j) 0).val = t.val * 8192 + (j 0).val := by
    show win0_2.index t 0 * 8192 + 1 * (j 0).val = _
    rw [e0]; omega
  have hcol : ((((cfg0.win 2).blk t).view.emb j) 1).val = (j 1).val := by
    show win0_2.index t 1 * 128 + 1 * (j 1).val = _
    rw [e1]; omega
  unfold rowsTimes
  refine Finset.sum_congr rfl fun k _ => ?_
  refine congrArg₂ (· * ·) (rows0 V c t _ _ hrow rfl) ((wblock0 V c t _).trans ?_)
  refine congrArg (V c main_v25) ?_
  funext a
  apply Fin.ext
  match a with
  | ⟨0, _⟩ => rfl
  | ⟨1, _⟩ => exact hcol.symm

/-- An array index lies in point `t`'s output block iff each coordinate is in the block's range on its axis. -/
theorem mem_rows0 (t : Fin cfg0.N) (i : S106496x128.Idx) :
    i ∈ ((cfg0.win 2).blk t).view.set ↔ ∀ a : Fin 2, win0_2.index t a * S8192x128.size a ≤ (i a).val
      ∧ (i a).val < win0_2.index t a * S8192x128.size a + S8192x128.size a := by
  show i ∈ ((View.whole main_v27).slice (win0_2.rect t)).set ↔ _
  rw [View.set_slice_whole, Rect.mem_set_unit]
  exact Iff.rfl

/-- Every row of the output lies in the block of the point numbered by the row's quotient by the block height. -/
theorem cover0 (i : S106496x128.Idx) :
    ∃ t : Fin cfg0.N, (cfg0.win 2).flush t = true ∧ i ∈ ((cfg0.win 2).blk t).view.set := by
  have hi0 : (i 0).val < 106496 := (i 0).isLt
  have hi1 : (i 1).val < 128 := (i 1).isLt
  have hN : cfg0.N = 13 := N_0
  let t : Fin cfg0.N := ⟨(i 0).val / 8192, by rw [hN]; omega⟩
  obtain ⟨-, -, -, -, e0, e1⟩ := idx0 t
  refine ⟨t, flush0_2 t, ?_⟩
  rw [mem_rows0]
  have ht : t.val = (i 0).val / 8192 := rfl
  intro a
  match a with
  | ⟨0, _⟩ =>
    show win0_2.index t (0 : Fin 2) * 8192 ≤ (i 0).val ∧ (i 0).val < win0_2.index t (0 : Fin 2) * 8192 + 8192
    rw [e0, ht]; omega
  | ⟨1, _⟩ =>
    show win0_2.index t (1 : Fin 2) * 128 ≤ (i 1).val ∧ (i 1).val < win0_2.index t (1 : Fin 2) * 128 + 128
    rw [e1]; omega

/-- The product array after the first region: the padded input's rows times the weight matrix. -/
theorem final0 (c : Dev nD) :
    (dat0 V c).arrAt 2 cfg0.N = rowsTimes (n := 106496) (V c main_v26) (V c main_v25) :=
  (dat0 V c).arrAt_eq_of_cover 2 (rowsTimes (n := 106496) (V c main_v26) (V c main_v25))
    (fun t _ => flushed0_eq V c t) cover0

end Cert.KernelIdeal.Hand

end
-- ==== Proof.Layer1.lean ====
/-
  The second layer's product array as one function of the arrays the region finds: the thirteen row blocks the
  grid writes back are the blocks of "bias row added, ELU, then rows times the weight matrix" of the whole
  aggregated array, and they tile the output.
-/
import proofs.«104657_j9869834846327_1_alg».proof.Proof.Gen.KernelIdeal.Frame
import proofs.«104657_j9869834846327_1_alg».proof.Proof.Payload
import Idealize.ShloMosaic.Lib.Pipeline.Value

set_option maxRecDepth 16384

noncomputable section

namespace Cert.KernelIdeal.Hand

open Cert.KernelIdeal Cert.KernelIdeal.Gen Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The four windows' block indices at grid point `t`: the input and the output move down one row block per point,
    the bias row and the weight stay. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- Row block `t` of the input: its entry `(p, q)` is the array's entry `(8192 t + p, q)`. -/
theorem rows1 (c : Dev nD) (t : Fin cfg1.N) (y : S8192x128.Idx) (i : S106496x128.Idx)
    (h0 : (i 0).val = t.val * 8192 + (y 0).val) (h1 : (i 1).val = (y 1).val) :
    (iblk1 V c 0 t : Vec Ideal S8192x128 .f32) y = (V c main_v45 : S106496x128.Idx → Elt Ideal .f32) i := by
  obtain ⟨e0, e1, -⟩ := idx1 t
  unfold iblk1
  rw [View.read_apply]
  show V c main_v45 _ = V c main_v45 _
  refine congrArg (V c main_v45) ?_
  funext a
  apply Fin.ext
  match a with
  | ⟨0, _⟩ => show win1_0.index t 0 * 8192 + 1 * (y 0).val = (i 0).val; rw [e0, h0]; omega
  | ⟨1, _⟩ => show win1_0.index t 1 * 128 + 1 * (y 1).val = (i 1).val; rw [e1, h1]; omega

/-- The bias window's block at every point is the whole bias row. -/
theorem bias1 (c : Dev nD) (t : Fin cfg1.N) (y : S1x128.Idx) :
    (iblk1 V c 1 t : Vec Ideal S1x128 .f32) y = (V c main_v46 : S1x128.Idx → Elt Ideal .f32) y := by
  obtain ⟨-, -, e0, e1, -⟩ := idx1 t
  unfold iblk1
  rw [View.read_apply]
  show V c main_v46 _ = V c main_v46 _
  refine congrArg (V c main_v46) ?_
  funext a
  apply Fin.ext
  match a with
  | ⟨0, _⟩ => show win1_1.index t 0 * 1 + 1 * (y 0).val = (y 0).val; rw [e0]; omega
  | ⟨1, _⟩ => show win1_1.index t 1 * 128 + 1 * (y 1).val = (y 1).val; rw [e1]; omega

/-- The weight window's block at every point is the whole weight matrix. -/
theorem wblock1 (c : Dev nD) (t : Fin cfg1.N) (y : S128x128.Idx) :
    (iblk1 V c 2 t : Vec Ideal S128x128 .f32) y = (V c main_v44 : S128x128.Idx → Elt Ideal .f32) y := by
  obtain ⟨-, -, -, -, e0, e1, -⟩ := idx1 t
  unfold iblk1
  rw [View.read_apply]
  show V c main_v44 _ = V c main_v44 _
  refine congrArg (V c main_v44) ?_
  funext a
  apply Fin.ext
  match a with
  | ⟨0, _⟩ => show win1_2.index t 0 * 128 + 1 * (y 0).val = (y 0).val; rw [e0]; omega
  | ⟨1, _⟩ => show win1_2.index t 1 * 128 + 1 * (y 1).val = (y 1).val; rw [e1]; omega

/-- What point `t` writes back is row block `t` of the whole-array function. -/
theorem flushed1_eq (c : Dev nD) (t : Fin cfg1.N) :
    (dat1 V c).flushed 3 t = ((cfg1.win 3).blk t).view.read (Elt Ideal)
      (rowsTimes (n := 106496) (biasElu (n := 106496) (V c main_v45) (V c main_v46)) (V c main_v44)) := by
  show (cfg1.win 3).cut (grid1.coords t) ((dat1 V c).after 3 t) = _
  rw [after1_3]
  unfold out1_3
  rw [View.canon_unit_zero zeros2]
  simp only [View.ld_unit_zero (S := S8192x128) zeros2, View.ld_unit_zero (S := S1x128) zeros2,
    View.ld_unit_zero (S := S128x128) zeros2]
  rw [k1_pay1_eq]
  obtain ⟨-, -, -, -, -, -, e0, e1⟩ := idx1 t
  funext j
  show rowsTimes (n := 8192) (biasElu (n := 8192) (iblk1 V c 0 t) (iblk1 V c 1 t)) (iblk1 V c 2 t) j
    = rowsTimes (n := 106496) (biasElu (n := 106496) (V c main_v45) (V c main_v46)) (V c main_v44)
        (((cfg1.win 3).blk t).view.emb j)
  have hrow : ((((cfg1.win 3).blk t).view.emb j) 0).val = t.val * 8192 + (j 0).val := by
    show win1_3.index t 0 * 8192 + 1 * (j 0).val = _
    rw [e0]; omega
  have hcol : ((((cfg1.win 3).blk t).view.emb j) 1).val = (j 1).val := by
    show win1_3.index t 1 * 128 + 1 * (j 1).val = _
    rw [e1]; omega
  unfold rowsTimes biasElu
  refine Finset.sum_congr rfl fun k _ => ?_
  refine congrArg₂ (· * ·) ?_ ((wblock1 V c t _).trans ?_)
  · exact congrArg elu (congrArg₂ (· + ·) (rows1 V c t _ _ hrow rfl) (bias1 V c t _))
  · refine congrArg (V c main_v44) ?_
    funext a
    apply Fin.ext
    match a with
    | ⟨0, _⟩ => rfl
    | ⟨1, _⟩ => exact hcol.symm

/-- An array index lies in point `t`'s output block iff each coordinate is in the block's range on its axis. -/
theorem mem_rows1 (t : Fin cfg1.N) (i : S106496x128.Idx) :
    i ∈ ((cfg1.win 3).blk t).view.set ↔ ∀ a : Fin 2, win1_3.index t a * S8192x128.size a ≤ (i a).val
      ∧ (i a).val < win1_3.index t a * S8192x128.size a + S8192x128.size a := by
  show i ∈ ((View.whole main_v47).slice (win1_3.rect t)).set ↔ _
  rw [View.set_slice_whole, Rect.mem_set_unit]
  exact Iff.rfl

/-- Every row of the output lies in the block of the point numbered by the row's quotient by the block height. -/
theorem cover1 (i : S106496x128.Idx) :
    ∃ t : Fin cfg1.N, (cfg1.win 3).flush t = true ∧ i ∈ ((cfg1.win 3).blk t).view.set := by
  have hi0 : (i 0).val < 106496 := (i 0).isLt
  have hi1 : (i 1).val < 128 := (i 1).isLt
  have hN : cfg1.N = 13 := N_1
  let t : Fin cfg1.N := ⟨(i 0).val / 8192, by rw [hN]; omega⟩
  obtain ⟨-, -, -, -, -, -, e0, e1⟩ := idx1 t
  refine ⟨t, flush1_3 t, ?_⟩
  rw [mem_rows1]
  have ht : t.val = (i 0).val / 8192 := rfl
  intro a
  match a with
  | ⟨0, _⟩ =>
    show win1_3.index t (0 : Fin 2) * 8192 ≤ (i 0).val ∧ (i 0).val < win1_3.index t (0 : Fin 2) * 8192 + 8192
    rw [e0, ht]; omega
  | ⟨1, _⟩ =>
    show win1_3.index t (1 : Fin 2) * 128 ≤ (i 1).val ∧ (i 1).val < win1_3.index t (1 : Fin 2) * 128 + 128
    rw [e1]; omega

/-- The product array after the region: bias row added to the aggregated array, ELU, then rows times the weight
    matrix. -/
theorem final1 (c : Dev nD) :
    (dat1 V c).arrAt 3 cfg1.N
      = rowsTimes (n := 106496) (biasElu (n := 106496) (V c main_v45) (V c main_v46)) (V c main_v44) :=
  (dat1 V c).arrAt_eq_of_cover 3
    (rowsTimes (n := 106496) (biasElu (n := 106496) (V c main_v45) (V c main_v46)) (V c main_v44))
    (fun t _ => flushed1_eq V c t) cover1

end Cert.KernelIdeal.Hand

end
-- ==== Proof.Layer2.lean ====
/-
  The third layer's product array as one function of the arrays the region finds: the thirteen row blocks the
  grid writes back are the blocks of "bias row added, ELU, then rows times the weight matrix" of the whole
  aggregated array, and they tile the output.
-/
import proofs.«104657_j9869834846327_1_alg».proof.Proof.Gen.KernelIdeal.Frame
import proofs.«104657_j9869834846327_1_alg».proof.Proof.Payload
import Idealize.ShloMosaic.Lib.Pipeline.Value

set_option maxRecDepth 16384

noncomputable section

namespace Cert.KernelIdeal.Hand

open Cert.KernelIdeal Cert.KernelIdeal.Gen Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The four windows' block indices at grid point `t`: the input and the output move down one row block per point,
    the bias row and the weight stay. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- Row block `t` of the input: its entry `(p, q)` is the array's entry `(8192 t + p, q)`. -/
theorem rows2 (c : Dev nD) (t : Fin cfg2.N) (y : S8192x128.Idx) (i : S106496x128.Idx)
    (h0 : (i 0).val = t.val * 8192 + (y 0).val) (h1 : (i 1).val = (y 1).val) :
    (iblk2 V c 0 t : Vec Ideal S8192x128 .f32) y = (V c main_v65 : S106496x128.Idx → Elt Ideal .f32) i := by
  obtain ⟨e0, e1, -⟩ := idx2 t
  unfold iblk2
  rw [View.read_apply]
  show V c main_v65 _ = V c main_v65 _
  refine congrArg (V c main_v65) ?_
  funext a
  apply Fin.ext
  match a with
  | ⟨0, _⟩ => show win2_0.index t 0 * 8192 + 1 * (y 0).val = (i 0).val; rw [e0, h0]; omega
  | ⟨1, _⟩ => show win2_0.index t 1 * 128 + 1 * (y 1).val = (i 1).val; rw [e1, h1]; omega

/-- The bias window's block at every point is the whole bias row. -/
theorem bias2 (c : Dev nD) (t : Fin cfg2.N) (y : S1x128.Idx) :
    (iblk2 V c 1 t : Vec Ideal S1x128 .f32) y = (V c main_v66 : S1x128.Idx → Elt Ideal .f32) y := by
  obtain ⟨-, -, e0, e1, -⟩ := idx2 t
  unfold iblk2
  rw [View.read_apply]
  show V c main_v66 _ = V c main_v66 _
  refine congrArg (V c main_v66) ?_
  funext a
  apply Fin.ext
  match a with
  | ⟨0, _⟩ => show win2_1.index t 0 * 1 + 1 * (y 0).val = (y 0).val; rw [e0]; omega
  | ⟨1, _⟩ => show win2_1.index t 1 * 128 + 1 * (y 1).val = (y 1).val; rw [e1]; omega

/-- The weight window's block at every point is the whole weight matrix. -/
theorem wblock2 (c : Dev nD) (t : Fin cfg2.N) (y : S128x128.Idx) :
    (iblk2 V c 2 t : Vec Ideal S128x128 .f32) y = (V c main_v64 : S128x128.Idx → Elt Ideal .f32) y := by
  obtain ⟨-, -, -, -, e0, e1, -⟩ := idx2 t
  unfold iblk2
  rw [View.read_apply]
  show V c main_v64 _ = V c main_v64 _
  refine congrArg (V c main_v64) ?_
  funext a
  apply Fin.ext
  match a with
  | ⟨0, _⟩ => show win2_2.index t 0 * 128 + 1 * (y 0).val = (y 0).val; rw [e0]; omega
  | ⟨1, _⟩ => show win2_2.index t 1 * 128 + 1 * (y 1).val = (y 1).val; rw [e1]; omega

/-- What point `t` writes back is row block `t` of the whole-array function. -/
theorem flushed2_eq (c : Dev nD) (t : Fin cfg2.N) :
    (dat2 V c).flushed 3 t = ((cfg2.win 3).blk t).view.read (Elt Ideal)
      (rowsTimes (n := 106496) (biasElu (n := 106496) (V c main_v65) (V c main_v66)) (V c main_v64)) := by
  show (cfg2.win 3).cut (grid2.coords t) ((dat2 V c).after 3 t) = _
  rw [after2_3]
  unfold out2_3
  rw [View.canon_unit_zero zeros2]
  simp only [View.ld_unit_zero (S := S8192x128) zeros2, View.ld_unit_zero (S := S1x128) zeros2,
    View.ld_unit_zero (S := S128x128) zeros2]
  rw [k2_pay1_eq]
  obtain ⟨-, -, -, -, -, -, e0, e1⟩ := idx2 t
  funext j
  show rowsTimes (n := 8192) (biasElu (n := 8192) (iblk2 V c 0 t) (iblk2 V c 1 t)) (iblk2 V c 2 t) j
    = rowsTimes (n := 106496) (biasElu (n := 106496) (V c main_v65) (V c main_v66)) (V c main_v64)
        (((cfg2.win 3).blk t).view.emb j)
  have hrow : ((((cfg2.win 3).blk t).view.emb j) 0).val = t.val * 8192 + (j 0).val := by
    show win2_3.index t 0 * 8192 + 1 * (j 0).val = _
    rw [e0]; omega
  have hcol : ((((cfg2.win 3).blk t).view.emb j) 1).val = (j 1).val := by
    show win2_3.index t 1 * 128 + 1 * (j 1).val = _
    rw [e1]; omega
  unfold rowsTimes biasElu
  refine Finset.sum_congr rfl fun k _ => ?_
  refine congrArg₂ (· * ·) ?_ ((wblock2 V c t _).trans ?_)
  · exact congrArg elu (congrArg₂ (· + ·) (rows2 V c t _ _ hrow rfl) (bias2 V c t _))
  · refine congrArg (V c main_v64) ?_
    funext a
    apply Fin.ext
    match a with
    | ⟨0, _⟩ => rfl
    | ⟨1, _⟩ => exact hcol.symm

/-- An array index lies in point `t`'s output block iff each coordinate is in the block's range on its axis. -/
theorem mem_rows2 (t : Fin cfg2.N) (i : S106496x128.Idx) :
    i ∈ ((cfg2.win 3).blk t).view.set ↔ ∀ a : Fin 2, win2_3.index t a * S8192x128.size a ≤ (i a).val
      ∧ (i a).val < win2_3.index t a * S8192x128.size a + S8192x128.size a := by
  show i ∈ ((View.whole main_v67).slice (win2_3.rect t)).set ↔ _
  rw [View.set_slice_whole, Rect.mem_set_unit]
  exact Iff.rfl

/-- Every row of the output lies in the block of the point numbered by the row's quotient by the block height. -/
theorem cover2 (i : S106496x128.Idx) :
    ∃ t : Fin cfg2.N, (cfg2.win 3).flush t = true ∧ i ∈ ((cfg2.win 3).blk t).view.set := by
  have hi0 : (i 0).val < 106496 := (i 0).isLt
  have hi1 : (i 1).val < 128 := (i 1).isLt
  have hN : cfg2.N = 13 := N_2
  let t : Fin cfg2.N := ⟨(i 0).val / 8192, by rw [hN]; omega⟩
  obtain ⟨-, -, -, -, -, -, e0, e1⟩ := idx2 t
  refine ⟨t, flush2_3 t, ?_⟩
  rw [mem_rows2]
  have ht : t.val = (i 0).val / 8192 := rfl
  intro a
  match a with
  | ⟨0, _⟩ =>
    show win2_3.index t (0 : Fin 2) * 8192 ≤ (i 0).val ∧ (i 0).val < win2_3.index t (0 : Fin 2) * 8192 + 8192
    rw [e0, ht]; omega
  | ⟨1, _⟩ =>
    show win2_3.index t (1 : Fin 2) * 128 ≤ (i 1).val ∧ (i 1).val < win2_3.index t (1 : Fin 2) * 128 + 128
    rw [e1]; omega

/-- The product array after the region: bias row added to the aggregated array, ELU, then rows times the weight
    matrix. -/
theorem final2 (c : Dev nD) :
    (dat2 V c).arrAt 3 cfg2.N
      = rowsTimes (n := 106496) (biasElu (n := 106496) (V c main_v65) (V c main_v66)) (V c main_v64) :=
  (dat2 V c).arrAt_eq_of_cover 3
    (rowsTimes (n := 106496) (biasElu (n := 106496) (V c main_v65) (V c main_v66)) (V c main_v64))
    (fun t _ => flushed2_eq V c t) cover2

end Cert.KernelIdeal.Hand

end
-- ==== Proof.Layer3.lean ====
/-
  The last layer's output array as one function of the arrays the region finds: the thirteen row blocks the grid
  writes back are the blocks of "bias row added, then ELU" of the whole input array, and they tile the output.
-/
import proofs.«104657_j9869834846327_1_alg».proof.Proof.Gen.KernelIdeal.Frame
import proofs.«104657_j9869834846327_1_alg».proof.Proof.Payload
import Idealize.ShloMosaic.Lib.Pipeline.Value

set_option maxRecDepth 16384

noncomputable section

namespace Cert.KernelIdeal.Hand

open Cert.KernelIdeal Cert.KernelIdeal.Gen Cert.Gcn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

/-- The three windows' block indices at grid point `t`: the input and the output move down one row block per point,
    the bias row stays. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Row block `t` of the input: its entry `(p, q)` is the array's entry `(8192 t + p, q)`. -/
theorem rows3 (c : Dev nD) (t : Fin cfg3.N) (y : S8192x128.Idx) (i : S106496x128.Idx)
    (h0 : (i 0).val = t.val * 8192 + (y 0).val) (h1 : (i 1).val = (y 1).val) :
    (iblk3 V c 0 t : Vec Ideal S8192x128 .f32) y = (V c main_v83 : S106496x128.Idx → Elt Ideal .f32) i := by
  obtain ⟨e0, e1, -⟩ := idx3 t
  unfold iblk3
  rw [View.read_apply]
  show V c main_v83 _ = V c main_v83 _
  refine congrArg (V c main_v83) ?_
  funext a
  apply Fin.ext
  match a with
  | ⟨0, _⟩ => show win3_0.index t 0 * 8192 + 1 * (y 0).val = (i 0).val; rw [e0, h0]; omega
  | ⟨1, _⟩ => show win3_0.index t 1 * 128 + 1 * (y 1).val = (i 1).val; rw [e1, h1]; omega

/-- The bias window's block at every point is the whole bias row. -/
theorem bias3 (c : Dev nD) (t : Fin cfg3.N) (y : S1x128.Idx) :
    (iblk3 V c 1 t : Vec Ideal S1x128 .f32) y = (V c main_v84 : S1x128.Idx → Elt Ideal .f32) y := by
  obtain ⟨-, -, e0, e1, -⟩ := idx3 t
  unfold iblk3
  rw [View.read_apply]
  show V c main_v84 _ = V c main_v84 _
  refine congrArg (V c main_v84) ?_
  funext a
  apply Fin.ext
  match a with
  | ⟨0, _⟩ => show win3_1.index t 0 * 1 + 1 * (y 0).val = (y 0).val; rw [e0]; omega
  | ⟨1, _⟩ => show win3_1.index t 1 * 128 + 1 * (y 1).val = (y 1).val; rw [e1]; omega

/-- What point `t` writes back is row block `t` of the whole-array function. -/
theorem flushed3_eq (c : Dev nD) (t : Fin cfg3.N) :
    (dat3 V c).flushed 2 t = ((cfg3.win 2).blk t).view.read (Elt Ideal)
      (biasElu (n := 106496) (V c main_v83) (V c main_v84)) := by
  show (cfg3.win 2).cut (grid3.coords t) ((dat3 V c).after 2 t) = _
  rw [after3_2]
  unfold out3_2
  rw [View.canon_unit_zero zeros2]
  simp only [View.ld_unit_zero (S := S8192x128) zeros2, View.ld_unit_zero (S := S1x128) zeros2]
  rw [k3_pay1_eq]
  obtain ⟨-, -, -, -, e0, e1⟩ := idx3 t
  funext j
  show biasElu (n := 8192) (iblk3 V c 0 t) (iblk3 V c 1 t) j
    = biasElu (n := 106496) (V c main_v83) (V c main_v84) (((cfg3.win 2).blk t).view.emb j)
  have hrow : ((((cfg3.win 2).blk t).view.emb j) 0).val = t.val * 8192 + (j 0).val := by
    show win3_2.index t 0 * 8192 + 1 * (j 0).val = _
    rw [e0]; omega
  have hcol : ((((cfg3.win 2).blk t).view.emb j) 1).val = (j 1).val := by
    show win3_2.index t 1 * 128 + 1 * (j 1).val = _
    rw [e1]; omega
  unfold biasElu
  refine congrArg elu (congrArg₂ (· + ·) (rows3 V c t j _ hrow hcol) ((bias3 V c t _).trans ?_))
  refine congrArg (V c main_v84) ?_
  funext a
  apply Fin.ext
  match a with
  | ⟨0, _⟩ => rfl
  | ⟨1, _⟩ => exact hcol.symm

/-- An array index lies in point `t`'s output block iff each coordinate is in the block's range on its axis. -/
theorem mem_rows3 (t : Fin cfg3.N) (i : S106496x128.Idx) :
    i ∈ ((cfg3.win 2).blk t).view.set ↔ ∀ a : Fin 2, win3_2.index t a * S8192x128.size a ≤ (i a).val
      ∧ (i a).val < win3_2.index t a * S8192x128.size a + S8192x128.size a := by
  show i ∈ ((View.whole main_v85).slice (win3_2.rect t)).set ↔ _
  rw [View.set_slice_whole, Rect.mem_set_unit]
  exact Iff.rfl

/-- Every row of the output lies in the block of the point numbered by the row's quotient by the block height. -/
theorem cover3 (i : S106496x128.Idx) :
    ∃ t : Fin cfg3.N, (cfg3.win 2).flush t = true ∧ i ∈ ((cfg3.win 2).blk t).view.set := by
  have hi0 : (i 0).val < 106496 := (i 0).isLt
  have hi1 : (i 1).val < 128 := (i 1).isLt
  have hN : cfg3.N = 13 := N_3
  let t : Fin cfg3.N := ⟨(i 0).val / 8192, by rw [hN]; omega⟩
  obtain ⟨-, -, -, -, e0, e1⟩ := idx3 t
  refine ⟨t, flush3_2 t, ?_⟩
  rw [mem_rows3]
  have ht : t.val = (i 0).val / 8192 := rfl
  intro a
  match a with
  | ⟨0, _⟩ =>
    show win3_2.index t (0 : Fin 2) * 8192 ≤ (i 0).val ∧ (i 0).val < win3_2.index t (0 : Fin 2) * 8192 + 8192
    rw [e0, ht]; omega
  | ⟨1, _⟩ =>
    show win3_2.index t (1 : Fin 2) * 128 ≤ (i 1).val ∧ (i 1).val < win3_2.index t (1 : Fin 2) * 128 + 128
    rw [e1]; omega

/-- The output array after the last region: bias row added to the input array, then ELU, entry by entry. -/
theorem final3 (c : Dev nD) :
    (dat3 V c).arrAt 2 cfg3.N = biasElu (n := 106496) (V c main_v83) (V c main_v84) :=
  (dat3 V c).arrAt_eq_of_cover 2 (biasElu (n := 106496) (V c main_v83) (V c main_v84))
    (fun t _ => flushed3_eq V c t) cover3

end Cert.KernelIdeal.Hand

end
-- ==== Proof.RefStages.lean ====
/-
  The reference program's stages, as pure functions of whole arrays.

  The reference computes three graph-convolution layers.  Every layer multiplies the node features by a
  128 x 128 weight matrix, gathers the rows of the source nodes, scales row `e` by the normalised edge weight
  `ew e / sqrt (deg_src (src e) * deg_dst (dst e))`, sums the scaled rows into the destination nodes, adds a bias
  row, and applies ELU.  The degrees are the sums of the edge weights over the edges leaving (entering) a node.
  Each function below is one stretch of the program text, operation for operation, so that the value the run
  leaves in a buffer is the composition of these functions by unfolding alone.
-/
import proofs.«104657_j9869834846327_1_alg».proof.ReferenceIdeal

noncomputable section

namespace Cert.ReferenceIdeal.Hand

open Cert.ReferenceIdeal Idealize.ShloMosaic
open Facts₀

variable {F : FTy → Type} [FloatOps F] [Facts]

/-- An index vector as a one-column table: entry `(e, 0)` is `s e`. -/
def idxCol (s : IVec S1600000 32) : IVec S1600000x1 32 :=
  broadcastInDim S1600000x1 ![0] bcast_S1600000_S1600000x1_0 s

/-- Negative node indices wrapped once by the node count (`s e + 100000` where `s e < 0`), as a one-column table. -/
def wrapIdx (s : IVec S1600000 32) : IVec S1600000x1 32 :=
  idxCol (select (cmpi .slt s (broadcastInDim S1600000 ![] bcast_S_S1600000 (constantI S_ 32 0#32)))
    (addi s (broadcastInDim S1600000 ![] bcast_S_S1600000 (constantI S_ 32 100000#32))) s)

/-- The weighted degree of every node: the edge weights summed into the nodes `s` names, from zero. -/
def degree (ew : FVec F S1600000 .f32) (s : IVec S1600000 32) : FVec F S100000 .f32 :=
  Host.scatterAdd scatter_S100000_S1600000x1_S1600000_n_0_0_1
    (broadcastInDim S100000 ![] bcast_S_S100000 (constant S_ .f32 0x00000000#32)) (idxCol s) ew

/-- The normalised edge weights: `ew e` times the reciprocal square root of the product of the source node's
    degree over `src` and the destination node's degree over `dst`. -/
def normW (ew : FVec F S1600000 .f32) (src dst : IVec S1600000 32) : FVec F S1600000 .f32 :=
  mulf ew (Host.rsqrt (mulf
    (Host.gather gather_S100000_S1600000x1_S1600000_n_0_n_n_0_1_1 (degree ew src) (wrapIdx src))
    (Host.gather gather_S100000_S1600000x1_S1600000_n_0_n_n_0_1_1 (degree ew dst) (wrapIdx dst))))

/-- One aggregation: the rows of `h` at the source nodes, each scaled by its edge's normalised weight, summed
    into the destination nodes, from zero. -/
def aggregate (h : FVec F S100000x128 .f32) (ew : FVec F S1600000 .f32) (src dst : IVec S1600000 32) :
    FVec F S100000x128 .f32 :=
  Host.scatterAdd scatter_S100000x128_S1600000x1_S1600000x128_1_0_0_1
    (broadcastInDim S100000x128 ![] bcast_S_S100000x128 (constant S_ .f32 0x00000000#32)) (idxCol dst)
    (mulf (Host.gather gather_S100000x128_S1600000x1_S1600000x128_1_0_n_n_0_1_1128 h (wrapIdx src))
      (broadcastInDim S1600000x128 ![0, 1] bcast_S1600000x1_S1600000x128_0_1
        (broadcastInDim S1600000x1 ![0] bcast_S1600000_S1600000x1_0 (normW ew src dst))))

/-- Layer 0's weight matrix: plane 0 of the stacked weights. -/
def weight0 (W : FVec F S3x128x128 .f32) : FVec F S128x128 .f32 :=
  shapeCast S128x128 (extractStridedSlice S1x128x128 ![0, 0, 0] W slices_S3x128x128_S1x128x128_0_0_0)
    shapeCasts_S1x128x128_S128x128

/-- Layer 1's weight matrix: plane 1 of the stacked weights. -/
def weight1 (W : FVec F S3x128x128 .f32) : FVec F S128x128 .f32 :=
  shapeCast S128x128 (extractStridedSlice S1x128x128 ![1, 0, 0] W slices_S3x128x128_S1x128x128_1_0_0)
    shapeCasts_S1x128x128_S128x128

/-- Layer 2's weight matrix: plane 2 of the stacked weights. -/
def weight2 (W : FVec F S3x128x128 .f32) : FVec F S128x128 .f32 :=
  shapeCast S128x128 (extractStridedSlice S1x128x128 ![2, 0, 0] W slices_S3x128x128_S1x128x128_2_0_0)
    shapeCasts_S1x128x128_S128x128

/-- Layer 0's bias, repeated down every node row: row 0 of the stacked biases. -/
def biasRows0 (b : FVec F S3x128 .f32) : FVec F S100000x128 .f32 :=
  broadcastInDim S100000x128 ![0, 1] bcast_S1x128_S100000x128_0_1
    (broadcastInDim S1x128 ![1] bcast_S128_S1x128_1
      (shapeCast S128 (extractStridedSlice S1x128 ![0, 0] b slices_S3x128_S1x128_0_0) shapeCasts_S1x128_S128))

/-- Layer 1's bias, repeated down every node row: row 1 of the stacked biases. -/
def biasRows1 (b : FVec F S3x128 .f32) : FVec F S100000x128 .f32 :=
  broadcastInDim S100000x128 ![0, 1] bcast_S1x128_S100000x128_0_1
    (broadcastInDim S1x128 ![1] bcast_S128_S1x128_1
      (shapeCast S128 (extractStridedSlice S1x128 ![1, 0] b slices_S3x128_S1x128_1_0) shapeCasts_S1x128_S128))

/-- Layer 2's bias, repeated down every node row: row 2 of the stacked biases. -/
def biasRows2 (b : FVec F S3x128 .f32) : FVec F S100000x128 .f32 :=
  broadcastInDim S100000x128 ![0, 1] bcast_S1x128_S100000x128_0_1
    (broadcastInDim S1x128 ![1] bcast_S128_S1x128_1
      (shapeCast S128 (extractStridedSlice S1x128 ![2, 0] b slices_S3x128_S1x128_2_0) shapeCasts_S1x128_S128))

/-- Node features times a weight matrix: the contraction of the feature axis with the matrix's first axis. -/
def dense (l : FVec F S100000x128 .f32) (r : FVec F S128x128 .f32) : FVec F S100000x128 .f32 :=
  Host.dotGeneral dot_S100000x128_S128x128_S100000x128_1_0_0_1_n_n none l r

/-- ELU as the reference spells it: where `y > 0` the entry itself, elsewhere `1 * expm1 z` with `z` the entry
    where it is not positive and `0` where it is (so that `expm1` is never taken of a large positive number). -/
def eluRef (y : FVec F S100000x128 .f32) : FVec F S100000x128 .f32 :=
  select (cmpf .ogt y (broadcastInDim S100000x128 ![] bcast_S_S100000x128 (constant S_ .f32 0x00000000#32))) y
    (mulf (broadcastInDim S100000x128 ![] bcast_S_S100000x128 (constant S_ .f32 0x3F800000#32))
      (Host.expm1 (select
        (cmpf .ogt y (broadcastInDim S100000x128 ![] bcast_S_S100000x128 (constant S_ .f32 0x00000000#32)))
        (broadcastInDim S100000x128 ![] bcast_S_S100000x128 (id (constant S_ .f32 0x00000000#32))) y)))

/-- One layer: features times the weight matrix, aggregated over the edges, plus the bias rows, through ELU. -/
def layer (h : FVec F S100000x128 .f32) (w : FVec F S128x128 .f32) (bias : FVec F S100000x128 .f32)
    (ew : FVec F S1600000 .f32) (src dst : IVec S1600000 32) : FVec F S100000x128 .f32 :=
  eluRef (addf (aggregate (dense h w) ew src dst) bias)

/-- The reference's result: three layers, each with its own weight matrix and bias row, over the same edges. -/
def refOut (x : FVec F S100000x128 .f32) (ew : FVec F S1600000 .f32) (W : FVec F S3x128x128 .f32)
    (b : FVec F S3x128 .f32) (src dst : IVec S1600000 32) : FVec F S100000x128 .f32 :=
  layer (layer (layer x (weight0 W) (biasRows0 b) ew src dst) (weight1 W) (biasRows1 b) ew src dst)
    (weight2 W) (biasRows2 b) ew src dst

end Cert.ReferenceIdeal.Hand

end
-- ==== Proof.Bridge.lean ====
/-
  The two programs compute one function on the extended reals.  The kernel's program pads the rows with zero rows,
  transforms row blocks and cuts the padding off again; the reference transforms the true rows directly.  Entry by
  entry: a cut row of a padded array is the row itself; a row block's product with a weight matrix and the host's
  contraction are the same sum over the contracted axis; the kernel's ELU, `y` above zero and `e^y - 1` elsewhere,
  and the reference's, which multiplies `e^t - 1` by one after replacing `t` by zero where `y` is above zero, agree
  at every extended real; the bias row read through the region's one-row matrix and through the reference's two
  broadcasts is the same entry of the stacked biases.  The aggregation over the edges is the same chain of host
  operations in both programs and is never opened.
-/
import proofs.«104657_j9869834846327_1_alg».proof.Proof.KerOut
import proofs.«104657_j9869834846327_1_alg».proof.Proof.RefStages
import proofs.«104657_j9869834846327_1_alg».proof.Proof.Payload
import proofs.«104657_j9869834846327_1_alg».proof.Proof.Gen.ReferenceIdeal
import Idealize.ShloMosaic.Lib.KernelVsHost
import Idealize.ShloMosaic.Lib.Pipeline.Value
import Idealize.ShloMosaic.Lib.ValueIdx
import Idealize.ShloMosaic.PureOps.Ideal.Laws
import Idealize.ShloMosaic.PureOps.IdealRules

noncomputable section

namespace Cert.Gcn.Bridge

open Idealize.ShloMosaic Idealize.ShloMosaic.ValueIdx Cert.Gcn

abbrev SN : Shape := ⟨2, ![100000, 128]⟩
abbrev SP : Shape := ⟨2, ![106496, 128]⟩
abbrev SW : Shape := ⟨2, ![128, 128]⟩
abbrev SV : Shape := ⟨1, ![128]⟩

/-- A true row's place among the padded rows. -/
abbrev up (r : Fin 100000) : Fin 106496 := Fin.castLE (by decide) r

/-! ## Padding and cutting at an entry -/

theorem cutRows_at (Y : FVec Ideal SP .f32) (r : Fin 100000) (q : Fin 128) :
    Cert.KernelIdeal.Hand.cutRows Y (ix2 r q) = Y (ix2 (up r) q) := by
  unfold Cert.KernelIdeal.Hand.cutRows
  refine extractStridedSlice_apply _ _ _ _ _ (fun a => ?_)
  match a with
  | ⟨0, _⟩ => show r.val = 0 + r.val; omega
  | ⟨1, _⟩ => show q.val = 0 + q.val; omega

theorem padRows_at (a : FVec Ideal SN .f32) (r : Fin 100000) (q : Fin 128) :
    Cert.KernelIdeal.Hand.padRows a (ix2 (up r) q) = a (ix2 r q) := by
  unfold Cert.KernelIdeal.Hand.padRows
  refine pad_apply_of_inside _ _ _ _ _ _ _ _ (ix2 r q) (fun ax => ?_)
  match ax with
  | ⟨0, _⟩ => show r.val = 0 + r.val * (0 + 1); omega
  | ⟨1, _⟩ => show q.val = 0 + q.val * (0 + 1); omega

/-- The one-row bias matrix a region reads holds the bias vector. -/
theorem biasRow_at (v : FVec Ideal SV .f32) (q : Fin 128) :
    Cert.KernelIdeal.Hand.biasRow v (ix2 (0 : Fin 1) q) = v (ix1 q) := by
  unfold Cert.KernelIdeal.Hand.biasRow
  refine (shapeCast_addUnit_apply (![128]) v _ _).trans ?_
  exact congrArg v (funext fun a => by match a with | ⟨0, _⟩ => rfl)

/-! ## The reference's contraction at an entry -/

abbrev dotN : DotDims SN SW SN := Cert.ReferenceIdeal.dot_S100000x128_S128x128_S100000x128_1_0_0_1_n_n

theorem lhs_row (i : SN.Idx) (k : dotN.contr.Idx) : (dotN.lhsIdx i k 0).val = (i 0).val := by
  unfold DotDims.lhsIdx
  rw [dif_neg (show ¬(0 : Fin SN.rank) ∈ dotN.lhsBatch by decide),
    dif_pos (show (0 : Fin SN.rank) ∈ dotN.lhsNonContracting by decide)]
  rfl
theorem lhs_col (i : SN.Idx) (k : dotN.contr.Idx) : (dotN.lhsIdx i k 1).val = (k ⟨0, by decide⟩).val :=
  dotN.lhsIdx_val_of_single rfl i k
theorem rhs_row (i : SN.Idx) (k : dotN.contr.Idx) : (dotN.rhsIdx i k 0).val = (k ⟨0, by decide⟩).val :=
  dotN.rhsIdx_val_of_single rfl i k
theorem rhs_col (i : SN.Idx) (k : dotN.contr.Idx) : (dotN.rhsIdx i k 1).val = (i 1).val := by
  unfold DotDims.rhsIdx
  rw [dif_neg (show ¬(1 : Fin SW.rank) ∈ dotN.rhsBatch by decide),
    dif_pos (show (1 : Fin SW.rank) ∈ dotN.rhsNonContracting by decide)]
  rfl

/-- The host's contraction of the rows with a weight matrix, at entry `(r, q)`: the sum over `k` of
    `l (r, k) * w (k, q)`. -/
theorem dense_at (l : FVec Ideal SN .f32) (w : FVec Ideal SW .f32) (r : Fin 100000) (q : Fin 128) :
    Cert.ReferenceIdeal.Hand.dense l w (ix2 r q) = ∑ k : Fin 128, l (ix2 r k) * w (ix2 k q) := by
  unfold Cert.ReferenceIdeal.Hand.dense
  simp only [Host.dotGeneral]
  rw [Ideal.dotGeneral_apply, ← Equiv.sum_comp (contrEquiv1 dotN 128 rfl rfl).symm]
  refine Finset.sum_congr rfl fun k _ => ?_
  have hk := contrEquiv1_symm_val dotN 128 rfl rfl k
  have el : dotN.lhsIdx (ix2 r q) ((contrEquiv1 dotN 128 rfl rfl).symm k) = ix2 r k := funext fun a => Fin.ext (by
    match a with
    | ⟨0, _⟩ => exact lhs_row _ _
    | ⟨1, _⟩ => exact (lhs_col _ _).trans hk)
  have er : dotN.rhsIdx (ix2 r q) ((contrEquiv1 dotN 128 rfl rfl).symm k) = ix2 k q := funext fun a => Fin.ext (by
    match a with
    | ⟨0, _⟩ => exact (rhs_row _ _).trans hk
    | ⟨1, _⟩ => exact rhs_col _ _)
  rw [el, er]

/-! ## The reference's ELU and bias at an entry -/

/-- The reference's ELU at one extended real: where `t` is above zero take `t`; elsewhere one times `e^u - 1`,
    `u` being `t` with zero put where `t` is above zero, that is `t` itself. -/
theorem elu_ref_scalar (t : EReal) :
    Scalar.select (Ideal.cmp .ogt t (Ideal.ofBits .f32 0x00000000#32)) t
      (Ideal.ofBits .f32 0x3F800000#32
        * (Ideal.exp (Scalar.select (Ideal.cmp .ogt t (Ideal.ofBits .f32 0x00000000#32)) (Ideal.ofBits .f32 0x00000000#32) t) - 1))
      = elu t := by
  rw [Ideal.ofBits_zero_f32, show Ideal.ofBits .f32 0x3F800000#32 = 1 from IdealRules.sign_bit.ideal_onePat .f32]
  unfold elu Scalar.select Ideal.cmp
  by_cases h : (0 : EReal) < t
  · simp [h]
  · simp [h]

theorem eluRef_at (y : FVec Ideal SN .f32) (i : SN.Idx) :
    Cert.ReferenceIdeal.Hand.eluRef y i = elu (y i) :=
  elu_ref_scalar (y i)

theorem biasRows0_at (b : FVec Ideal Cert.ReferenceIdeal.S3x128 .f32) (r : Fin 100000) (q : Fin 128) :
    Cert.ReferenceIdeal.Hand.biasRows0 b (ix2 r q) = Cert.KernelIdeal.Hand.biasVec0 b (ix1 q) := by
  unfold Cert.ReferenceIdeal.Hand.biasRows0
  refine (broadcastInDim_apply _ _ _ _ (ix2 (0 : Fin 1) q) (fun a => by match a with | ⟨0, _⟩ => rfl | ⟨1, _⟩ => rfl)).trans ?_
  exact broadcastInDim_apply _ _ _ _ (ix1 q) (fun a => by match a with | ⟨0, _⟩ => rfl)
theorem biasRows1_at (b : FVec Ideal Cert.ReferenceIdeal.S3x128 .f32) (r : Fin 100000) (q : Fin 128) :
    Cert.ReferenceIdeal.Hand.biasRows1 b (ix2 r q) = Cert.KernelIdeal.Hand.biasVec1 b (ix1 q) := by
  unfold Cert.ReferenceIdeal.Hand.biasRows1
  refine (broadcastInDim_apply _ _ _ _ (ix2 (0 : Fin 1) q) (fun a => by match a with | ⟨0, _⟩ => rfl | ⟨1, _⟩ => rfl)).trans ?_
  exact broadcastInDim_apply _ _ _ _ (ix1 q) (fun a => by match a with | ⟨0, _⟩ => rfl)
theorem biasRows2_at (b : FVec Ideal Cert.ReferenceIdeal.S3x128 .f32) (r : Fin 100000) (q : Fin 128) :
    Cert.ReferenceIdeal.Hand.biasRows2 b (ix2 r q) = Cert.KernelIdeal.Hand.biasVec2 b (ix1 q) := by
  unfold Cert.ReferenceIdeal.Hand.biasRows2
  refine (broadcastInDim_apply _ _ _ _ (ix2 (0 : Fin 1) q) (fun a => by match a with | ⟨0, _⟩ => rfl | ⟨1, _⟩ => rfl)).trans ?_
  exact broadcastInDim_apply _ _ _ _ (ix1 q) (fun a => by match a with | ⟨0, _⟩ => rfl)

/-! ## The layers -/

/-- The aggregation is the same chain of host operations in both programs. -/
theorem aggregate_eq (h : FVec Ideal SN .f32) (ew : FVec Ideal Cert.ReferenceIdeal.S1600000 .f32) (src dst : IVec Cert.ReferenceIdeal.S1600000 32) :
    Cert.KernelIdeal.Hand.aggregate h (Cert.KernelIdeal.Hand.normCol ew src dst) src dst
      = Cert.ReferenceIdeal.Hand.aggregate h ew src dst := rfl

/-- The first transform: the padded rows' product, cut back, is the host's contraction of the true rows. -/
theorem layer0_eq (x : FVec Ideal SN .f32) (W : FVec Ideal Cert.ReferenceIdeal.S3x128x128 .f32) :
    Cert.KernelIdeal.Hand.layer0 x W = Cert.ReferenceIdeal.Hand.dense x (Cert.ReferenceIdeal.Hand.weight0 W) := by
  funext i
  obtain ⟨r, q, rfl⟩ : ∃ (r : Fin 100000) (q : Fin 128), i = ix2 r q := ⟨i 0, i 1, eq_ix2 i⟩
  unfold Cert.KernelIdeal.Hand.layer0
  rw [cutRows_at, dense_at]
  show ∑ k : Fin 128, Cert.KernelIdeal.Hand.padRows x (ix2 (up r) k) * Cert.KernelIdeal.Hand.weight0 W (ix2 k q) = _
  refine Finset.sum_congr rfl fun k _ => ?_
  rw [padRows_at]
  rfl

/-- One entry of a middle transform's left factor: bias and ELU of the padded aggregate at a true row. -/
theorem biasElu_at (a : FVec Ideal SN .f32) (bv : FVec Ideal SV .f32) (r : Fin 100000) (k : Fin 128) :
    biasElu (Cert.KernelIdeal.Hand.padRows a) (Cert.KernelIdeal.Hand.biasRow bv) (ix2 (up r) k)
      = elu (a (ix2 r k) + bv (ix1 k)) := by
  show elu (Cert.KernelIdeal.Hand.padRows a (ix2 (up r) k) + Cert.KernelIdeal.Hand.biasRow bv (ix2 (0 : Fin 1) k)) = _
  rw [padRows_at, biasRow_at]

theorem layerMid_eq (a : FVec Ideal SN .f32) (bv : FVec Ideal SV .f32) (BR : FVec Ideal SN .f32) (w : FVec Ideal SW .f32)
    (hBR : ∀ (r : Fin 100000) (k : Fin 128), BR (ix2 r k) = bv (ix1 k)) :
    Cert.KernelIdeal.Hand.layerMid a bv w
      = Cert.ReferenceIdeal.Hand.dense (Cert.ReferenceIdeal.Hand.eluRef (addf a BR)) w := by
  funext i
  obtain ⟨r, q, rfl⟩ : ∃ (r : Fin 100000) (q : Fin 128), i = ix2 r q := ⟨i 0, i 1, eq_ix2 i⟩
  unfold Cert.KernelIdeal.Hand.layerMid
  rw [cutRows_at, dense_at]
  show ∑ k : Fin 128, biasElu (Cert.KernelIdeal.Hand.padRows a) (Cert.KernelIdeal.Hand.biasRow bv) (ix2 (up r) k) * w (ix2 k q) = _
  refine Finset.sum_congr rfl fun k _ => ?_
  rw [biasElu_at, eluRef_at, addf_apply, hBR]

theorem layerLast_eq (a : FVec Ideal SN .f32) (bv : FVec Ideal SV .f32) (BR : FVec Ideal SN .f32)
    (hBR : ∀ (r : Fin 100000) (k : Fin 128), BR (ix2 r k) = bv (ix1 k)) :
    Cert.KernelIdeal.Hand.layerLast a bv = Cert.ReferenceIdeal.Hand.eluRef (addf a BR) := by
  funext i
  obtain ⟨r, q, rfl⟩ : ∃ (r : Fin 100000) (q : Fin 128), i = ix2 r q := ⟨i 0, i 1, eq_ix2 i⟩
  unfold Cert.KernelIdeal.Hand.layerLast
  rw [cutRows_at, biasElu_at, eluRef_at, addf_apply, hBR]

/-- The two programs' results are one function of the arguments. -/
theorem kerOut_eq_refOut (x : FVec Ideal SN .f32) (ew : FVec Ideal Cert.ReferenceIdeal.S1600000 .f32)
    (W : FVec Ideal Cert.ReferenceIdeal.S3x128x128 .f32) (b : FVec Ideal Cert.ReferenceIdeal.S3x128 .f32)
    (src dst : IVec Cert.ReferenceIdeal.S1600000 32) :
    Cert.KernelIdeal.Hand.kerOut x ew W b src dst = Cert.ReferenceIdeal.Hand.refOut (F := Ideal) x ew W b src dst := by
  unfold Cert.KernelIdeal.Hand.kerOut Cert.ReferenceIdeal.Hand.refOut Cert.ReferenceIdeal.Hand.layer
  rw [layer0_eq, aggregate_eq,
    layerMid_eq _ _ (Cert.ReferenceIdeal.Hand.biasRows0 b) _ (biasRows0_at b), aggregate_eq,
    layerMid_eq _ _ (Cert.ReferenceIdeal.Hand.biasRows1 b) _ (biasRows1_at b), aggregate_eq,
    layerLast_eq _ _ (Cert.ReferenceIdeal.Hand.biasRows2 b) (biasRows2_at b)]
  rfl

end Cert.Gcn.Bridge

end
-- ==== Proof.RefRun.lean ====
/-
  The reference program as a straight line of operations, and its run.

  The program calls its ELU function three times, and that function calls two selection functions; a call means
  the callee's body on the caller's operands, so unfolding the three definitions at the call sites leaves one
  line of 146 array operations, each writing a buffer of its own.  The line is listed here in the two stretches
  the program text is cut into.  From any memory with zero counters every fair execution of it terminates, and
  every buffer then holds what folding the operations over the initial contents gives.
-/
import proofs.«104657_j9869834846327_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The first stretch: the degrees and normalised edge weights, layer 0 whole (its ELU's fifteen operations over
    the first call's buffers), and layer 1 up to the sign test of the source indices. -/
abbrev ops0 : List (HloOp τ sig (Elt F)) :=
  [ nullary main_cst (constant S_ .f32 0x00000000#32),
    unary main_cst main_v0 (broadcastInDim S100000 ![] bcast_S_S100000 : (⟨S_, .f32⟩ : BufTy).Contents (Elt F) → (⟨S100000, .f32⟩ : BufTy).Contents (Elt F)),
    unary main_arg4 main_v1 (broadcastInDim S1600000x1 ![0] bcast_S1600000_S1600000x1_0 : (⟨S1600000, .i32⟩ : BufTy).Contents (Elt F) → (⟨S1600000x1, .i32⟩ : BufTy).Contents (Elt F)),
    ternary main_v0 main_v1 main_arg1 main_v2 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_0 (constant S_ .f32 0x00000000#32),
    unary main_cst_0 main_v3 (broadcastInDim S100000 ![] bcast_S_S100000 : (⟨S_, .f32⟩ : BufTy).Contents (Elt F) → (⟨S100000, .f32⟩ : BufTy).Contents (Elt F)),
    unary main_arg5 main_v4 (broadcastInDim S1600000x1 ![0] bcast_S1600000_S1600000x1_0 : (⟨S1600000, .i32⟩ : BufTy).Contents (Elt F) → (⟨S1600000x1, .i32⟩ : BufTy).Contents (Elt F)),
    ternary main_v3 main_v4 main_arg1 main_v5 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_c (constantI S_ 32 0#32),
    unary main_c main_v6 (broadcastInDim S1600000 ![] bcast_S_S1600000 : (⟨S_, .i32⟩ : BufTy).Contents (Elt F) → (⟨S1600000, .i32⟩ : BufTy).Contents (Elt F)),
    binary main_arg4 main_v6 main_v7 (cmpi .slt : (⟨S1600000, .i32⟩ : BufTy).Contents (Elt F) → (⟨S1600000, .i32⟩ : BufTy).Contents (Elt F) → (⟨S1600000, .i1⟩ : BufTy).Contents (Elt F)),
    nullary main_c_1 (constantI S_ 32 100000#32),
    unary main_c_1 main_v8 (broadcastInDim S1600000 ![] bcast_S_S1600000 : (⟨S_, .i32⟩ : BufTy).Contents (Elt F) → (⟨S1600000, .i32⟩ : BufTy).Contents (Elt F)),
    binary main_arg4 main_v8 main_v9 (addi : (⟨S1600000, .i32⟩ : BufTy).Contents (Elt F) → (⟨S1600000, .i32⟩ : BufTy).Contents (Elt F) → (⟨S1600000, .i32⟩ : BufTy).Contents (Elt F)),
    ternary main_v7 main_v9 main_arg4 main_v10 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v10 main_v11 (broadcastInDim S1600000x1 ![0] bcast_S1600000_S1600000x1_0 : (⟨S1600000, .i32⟩ : BufTy).Contents (Elt F) → (⟨S1600000x1, .i32⟩ : BufTy).Contents (Elt F)),
    binary main_v2 main_v11 main_v12 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_2 (constantI S_ 32 0#32),
    unary main_c_2 main_v13 (broadcastInDim S1600000 ![] bcast_S_S1600000 : (⟨S_, .i32⟩ : BufTy).Contents (Elt F) → (⟨S1600000, .i32⟩ : BufTy).Contents (Elt F)),
    binary main_arg5 main_v13 main_v14 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v15 (broadcastInDim S1600000 ![] bcast_S_S1600000 : (⟨S_, .i32⟩ : BufTy).Contents (Elt F) → (⟨S1600000, .i32⟩ : BufTy).Contents (Elt F)),
    binary main_arg5 main_v15 main_v16 (addi : (⟨S1600000, .i32⟩ : BufTy).Contents (Elt F) → (⟨S1600000, .i32⟩ : BufTy).Contents (Elt F) → (⟨S1600000, .i32⟩ : BufTy).Contents (Elt F)),
    ternary main_v14 main_v16 main_arg5 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v17 main_v18 (broadcastInDim S1600000x1 ![0] bcast_S1600000_S1600000x1_0 : (⟨S1600000, .i32⟩ : BufTy).Contents (Elt F) → (⟨S1600000x1, .i32⟩ : BufTy).Contents (Elt F)),
    binary main_v5 main_v18 main_v19 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v12 main_v19 main_v20 (mulf : (⟨S1600000, .f32⟩ : BufTy).Contents (Elt F) → (⟨S1600000, .f32⟩ : BufTy).Contents (Elt F) → (⟨S1600000, .f32⟩ : BufTy).Contents (Elt F)),
    unary main_v20 main_v21 (Host.rsqrt : (⟨S1600000, .f32⟩ : BufTy).Contents (Elt F) → (⟨S1600000, .f32⟩ : BufTy).Contents (Elt F)),
    binary main_arg1 main_v21 main_v22 (mulf : (⟨S1600000, .f32⟩ : BufTy).Contents (Elt F) → (⟨S1600000, .f32⟩ : BufTy).Contents (Elt F) → (⟨S1600000, .f32⟩ : BufTy).Contents (Elt F)),
    unary main_arg2 main_v23 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v23 main_v24 rfl shapeCasts_S1x128x128_S128x128,
    binary main_arg0 main_v24 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_4 (constantI S_ 32 0#32),
    unary main_c_4 main_v26 (broadcastInDim S1600000 ![] bcast_S_S1600000 : (⟨S_, .i32⟩ : BufTy).Contents (Elt F) → (⟨S1600000, .i32⟩ : BufTy).Contents (Elt F)),
    binary main_arg4 main_v26 main_v27 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v28 (broadcastInDim S1600000 ![] bcast_S_S1600000 : (⟨S_, .i32⟩ : BufTy).Contents (Elt F) → (⟨S1600000, .i32⟩ : BufTy).Contents (Elt F)),
    binary main_arg4 main_v28 main_v29 (addi : (⟨S1600000, .i32⟩ : BufTy).Contents (Elt F) → (⟨S1600000, .i32⟩ : BufTy).Contents (Elt F) → (⟨S1600000, .i32⟩ : BufTy).Contents (Elt F)),
    ternary main_v27 main_v29 main_arg4 main_v30 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v30 main_v31 (broadcastInDim S1600000x1 ![0] bcast_S1600000_S1600000x1_0 : (⟨S1600000, .i32⟩ : BufTy).Contents (Elt F) → (⟨S1600000x1, .i32⟩ : BufTy).Contents (Elt F)),
    binary main_v25 main_v31 main_v32 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v22 main_v33 (broadcastInDim S1600000x1 ![0] bcast_S1600000_S1600000x1_0 : (⟨S1600000, .f32⟩ : BufTy).Contents (Elt F) → (⟨S1600000x1, .f32⟩ : BufTy).Contents (Elt F)),
    unary main_v33 main_v34 (broadcastInDim S1600000x128 ![0, 1] bcast_S1600000x1_S1600000x128_0_1 : (⟨S1600000x1, .f32⟩ : BufTy).Contents (Elt F) → (⟨S1600000x128, .f32⟩ : BufTy).Contents (Elt F)),
    binary main_v32 main_v34 main_v35 (mulf : (⟨S1600000x128, .f32⟩ : BufTy).Contents (Elt F) → (⟨S1600000x128, .f32⟩ : BufTy).Contents (Elt F) → (⟨S1600000x128, .f32⟩ : BufTy).Contents (Elt F)),
    nullary main_cst_6 (constant S_ .f32 0x00000000#32),
    unary main_cst_6 main_v36 (broadcastInDim S100000x128 ![] bcast_S_S100000x128 : (⟨S_, .f32⟩ : BufTy).Contents (Elt F) → (⟨S100000x128, .f32⟩ : BufTy).Contents (Elt F)),
    unary main_arg5 main_v37 (broadcastInDim S1600000x1 ![0] bcast_S1600000_S1600000x1_0 : (⟨S1600000, .i32⟩ : BufTy).Contents (Elt F) → (⟨S1600000x1, .i32⟩ : BufTy).Contents (Elt F)),
    ternary main_v36 main_v37 main_v35 main_v38 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg3 main_v39 ((extractStridedSlice S1x128 ![0, 0] · slices_S3x128_S1x128_0_0) : (⟨S3x128, .f32⟩ : BufTy).Contents (Elt F) → (⟨S1x128, .f32⟩ : BufTy).Contents (Elt F)),
    reshape main_v39 main_v40 rfl shapeCasts_S1x128_S128,
    unary main_v40 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v38 main_v42 main_v43 (addf : (⟨S100000x128, .f32⟩ : BufTy).Contents (Elt F) → (⟨S100000x128, .f32⟩ : BufTy).Contents (Elt F) → (⟨S100000x128, .f32⟩ : BufTy).Contents (Elt F)),
    TRef.nullary main_call0.cst (constant S_ .f32 0x00000000#32),
    TRef.unary main_call0.cst main_call0.v0 (broadcastInDim S100000x128 ![] bcast_S_S100000x128),
    TRef.binary (.of main_v43 : TRef sig ⟨S100000x128, .f32⟩) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v43 : TRef sig ⟨S100000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v43 : TRef sig ⟨S100000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v43 : TRef sig ⟨S100000x128, .f32⟩) main_call0.v7 main_call0.call1.v0 select,
    unary main_arg2 main_v45 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v45 main_v46 rfl shapeCasts_S1x128x128_S128x128,
    binary main_v44 main_v46 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_7 (constantI S_ 32 0#32),
    unary main_c_7 main_v48 (broadcastInDim S1600000 ![] bcast_S_S1600000 : (⟨S_, .i32⟩ : BufTy).Contents (Elt F) → (⟨S1600000, .i32⟩ : BufTy).Contents (Elt F)),
    binary main_arg4 main_v48 main_v49 (cmpi .slt : (⟨S1600000, .i32⟩ : BufTy).Contents (Elt F) → (⟨S1600000, .i32⟩ : BufTy).Contents (Elt F) → (⟨S1600000, .i1⟩ : BufTy).Contents (Elt F)) ]

/-- The second stretch: the rest of layer 1 (its ELU over the second call's buffers) and layer 2 (its ELU over
    the third call's). -/
abbrev ops1 : List (HloOp τ sig (Elt F)) :=
  [ nullary main_c_8 (constantI S_ 32 100000#32),
    unary main_c_8 main_v50 (broadcastInDim S1600000 ![] bcast_S_S1600000 : (⟨S_, .i32⟩ : BufTy).Contents (Elt F) → (⟨S1600000, .i32⟩ : BufTy).Contents (Elt F)),
    binary main_arg4 main_v50 main_v51 (addi : (⟨S1600000, .i32⟩ : BufTy).Contents (Elt F) → (⟨S1600000, .i32⟩ : BufTy).Contents (Elt F) → (⟨S1600000, .i32⟩ : BufTy).Contents (Elt F)),
    ternary main_v49 main_v51 main_arg4 main_v52 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v52 main_v53 (broadcastInDim S1600000x1 ![0] bcast_S1600000_S1600000x1_0 : (⟨S1600000, .i32⟩ : BufTy).Contents (Elt F) → (⟨S1600000x1, .i32⟩ : BufTy).Contents (Elt F)),
    binary main_v47 main_v53 main_v54 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v22 main_v55 (broadcastInDim S1600000x1 ![0] bcast_S1600000_S1600000x1_0 : (⟨S1600000, .f32⟩ : BufTy).Contents (Elt F) → (⟨S1600000x1, .f32⟩ : BufTy).Contents (Elt F)),
    unary main_v55 main_v56 (broadcastInDim S1600000x128 ![0, 1] bcast_S1600000x1_S1600000x128_0_1 : (⟨S1600000x1, .f32⟩ : BufTy).Contents (Elt F) → (⟨S1600000x128, .f32⟩ : BufTy).Contents (Elt F)),
    binary main_v54 main_v56 main_v57 (mulf : (⟨S1600000x128, .f32⟩ : BufTy).Contents (Elt F) → (⟨S1600000x128, .f32⟩ : BufTy).Contents (Elt F) → (⟨S1600000x128, .f32⟩ : BufTy).Contents (Elt F)),
    nullary main_cst_9 (constant S_ .f32 0x00000000#32),
    unary main_cst_9 main_v58 (broadcastInDim S100000x128 ![] bcast_S_S100000x128 : (⟨S_, .f32⟩ : BufTy).Contents (Elt F) → (⟨S100000x128, .f32⟩ : BufTy).Contents (Elt F)),
    unary main_arg5 main_v59 (broadcastInDim S1600000x1 ![0] bcast_S1600000_S1600000x1_0 : (⟨S1600000, .i32⟩ : BufTy).Contents (Elt F) → (⟨S1600000x1, .i32⟩ : BufTy).Contents (Elt F)),
    ternary main_v58 main_v59 main_v57 main_v60 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg3 main_v61 ((extractStridedSlice S1x128 ![1, 0] · slices_S3x128_S1x128_1_0) : (⟨S3x128, .f32⟩ : BufTy).Contents (Elt F) → (⟨S1x128, .f32⟩ : BufTy).Contents (Elt F)),
    reshape main_v61 main_v62 rfl shapeCasts_S1x128_S128,
    unary main_v62 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v60 main_v64 main_v65 (addf : (⟨S100000x128, .f32⟩ : BufTy).Contents (Elt F) → (⟨S100000x128, .f32⟩ : BufTy).Contents (Elt F) → (⟨S100000x128, .f32⟩ : BufTy).Contents (Elt F)),
    TRef.nullary main_call1.cst (constant S_ .f32 0x00000000#32),
    TRef.unary main_call1.cst main_call1.v0 (broadcastInDim S100000x128 ![] bcast_S_S100000x128),
    TRef.binary (.of main_v65 : TRef sig ⟨S100000x128, .f32⟩) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v65 : TRef sig ⟨S100000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v65 : TRef sig ⟨S100000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v65 : TRef sig ⟨S100000x128, .f32⟩) main_call1.v7 main_call1.call1.v0 select,
    unary main_arg2 main_v67 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v67 main_v68 rfl shapeCasts_S1x128x128_S128x128,
    binary main_v66 main_v68 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_10 (constantI S_ 32 0#32),
    unary main_c_10 main_v70 (broadcastInDim S1600000 ![] bcast_S_S1600000 : (⟨S_, .i32⟩ : BufTy).Contents (Elt F) → (⟨S1600000, .i32⟩ : BufTy).Contents (Elt F)),
    binary main_arg4 main_v70 main_v71 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v72 (broadcastInDim S1600000 ![] bcast_S_S1600000 : (⟨S_, .i32⟩ : BufTy).Contents (Elt F) → (⟨S1600000, .i32⟩ : BufTy).Contents (Elt F)),
    binary main_arg4 main_v72 main_v73 (addi : (⟨S1600000, .i32⟩ : BufTy).Contents (Elt F) → (⟨S1600000, .i32⟩ : BufTy).Contents (Elt F) → (⟨S1600000, .i32⟩ : BufTy).Contents (Elt F)),
    ternary main_v71 main_v73 main_arg4 main_v74 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v74 main_v75 (broadcastInDim S1600000x1 ![0] bcast_S1600000_S1600000x1_0 : (⟨S1600000, .i32⟩ : BufTy).Contents (Elt F) → (⟨S1600000x1, .i32⟩ : BufTy).Contents (Elt F)),
    binary main_v69 main_v75 main_v76 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v22 main_v77 (broadcastInDim S1600000x1 ![0] bcast_S1600000_S1600000x1_0 : (⟨S1600000, .f32⟩ : BufTy).Contents (Elt F) → (⟨S1600000x1, .f32⟩ : BufTy).Contents (Elt F)),
    unary main_v77 main_v78 (broadcastInDim S1600000x128 ![0, 1] bcast_S1600000x1_S1600000x128_0_1 : (⟨S1600000x1, .f32⟩ : BufTy).Contents (Elt F) → (⟨S1600000x128, .f32⟩ : BufTy).Contents (Elt F)),
    binary main_v76 main_v78 main_v79 (mulf : (⟨S1600000x128, .f32⟩ : BufTy).Contents (Elt F) → (⟨S1600000x128, .f32⟩ : BufTy).Contents (Elt F) → (⟨S1600000x128, .f32⟩ : BufTy).Contents (Elt F)),
    nullary main_cst_12 (constant S_ .f32 0x00000000#32),
    unary main_cst_12 main_v80 (broadcastInDim S100000x128 ![] bcast_S_S100000x128 : (⟨S_, .f32⟩ : BufTy).Contents (Elt F) → (⟨S100000x128, .f32⟩ : BufTy).Contents (Elt F)),
    unary main_arg5 main_v81 (broadcastInDim S1600000x1 ![0] bcast_S1600000_S1600000x1_0 : (⟨S1600000, .i32⟩ : BufTy).Contents (Elt F) → (⟨S1600000x1, .i32⟩ : BufTy).Contents (Elt F)),
    ternary main_v80 main_v81 main_v79 main_v82 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg3 main_v83 ((extractStridedSlice S1x128 ![2, 0] · slices_S3x128_S1x128_2_0) : (⟨S3x128, .f32⟩ : BufTy).Contents (Elt F) → (⟨S1x128, .f32⟩ : BufTy).Contents (Elt F)),
    reshape main_v83 main_v84 rfl shapeCasts_S1x128_S128,
    unary main_v84 main_v85 (broadcastInDim S1x128 ![1] bcast_S128_S1x128_1 : (⟨S128, .f32⟩ : BufTy).Contents (Elt F) → (⟨S1x128, .f32⟩ : BufTy).Contents (Elt F)),
    unary main_v85 main_v86 (broadcastInDim S100000x128 ![0, 1] bcast_S1x128_S100000x128_0_1 : (⟨S1x128, .f32⟩ : BufTy).Contents (Elt F) → (⟨S100000x128, .f32⟩ : BufTy).Contents (Elt F)),
    binary main_v82 main_v86 main_v87 (addf : (⟨S100000x128, .f32⟩ : BufTy).Contents (Elt F) → (⟨S100000x128, .f32⟩ : BufTy).Contents (Elt F) → (⟨S100000x128, .f32⟩ : BufTy).Contents (Elt F)),
    TRef.nullary main_call2.cst (constant S_ .f32 0x00000000#32),
    TRef.unary main_call2.cst main_call2.v0 (broadcastInDim S100000x128 ![] bcast_S_S100000x128),
    TRef.binary (.of main_v87 : TRef sig ⟨S100000x128, .f32⟩) main_call2.v0 main_call2.v1 (cmpf .ogt),
    TRef.nullary main_call2.cst_0 (constant S_ .f32 0x00000000#32),
    TRef.unary main_call2.cst_0 main_call2.v2 (broadcastInDim S100000x128 ![] bcast_S_S100000x128),
    TRef.binary (.of main_v87 : TRef sig ⟨S100000x128, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x128 ![] bcast_S_S100000x128),
    TRef.ternary main_call2.v3 main_call2.call0.v1 (.of main_v87 : TRef sig ⟨S100000x128, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S100000x128 ![] bcast_S_S100000x128),
    TRef.binary main_call2.v6 main_call2.v5 main_call2.v7 mulf,
    TRef.ternary main_call2.v1 (.of main_v87 : TRef sig ⟨S100000x128, .f32⟩) main_call2.v7 main_call2.call1.v0 select ]

/-- The whole line. -/
abbrev ops : List (HloOp τ sig (Elt F)) := ops0 ++ ops1

/-- The first stretch of the program text is the first list: the ELU function and its two selection functions unfolded at
    the call, sequencing reassociated. -/
theorem part0_eq (c : Dev nD) : main_part0 (F := F) c = seq ops0 := by
  simp only [main_part0, fn_elu.body, fn_where.body, fn_where_0.body, seq, bind_assoc, pure_bind]
  rfl

/-- The second stretch of the program text is the second list. -/
theorem part1_eq (c : Dev nD) : main_part1 (F := F) c = seq ops1 := by
  simp only [main_part1, fn_elu.body, fn_where.body, fn_where_0.body, seq, bind_assoc, pure_bind]

/-- The program is the line: one stretch after the other is their concatenation run as one. -/
theorem main_eq (c : Dev nD) : main (F := F) c = seq ops := by
  rw [seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., unary_bufs_sub .., unary_bufs_sub .., ternary_bufs_sub .., nullary_bufs_sub .., unary_bufs_sub ..,
    unary_bufs_sub .., ternary_bufs_sub .., nullary_bufs_sub .., unary_bufs_sub .., binary_bufs_sub .., nullary_bufs_sub ..,
    unary_bufs_sub .., binary_bufs_sub .., ternary_bufs_sub .., unary_bufs_sub .., binary_bufs_sub .., nullary_bufs_sub ..,
    unary_bufs_sub .., binary_bufs_sub .., nullary_bufs_sub .., unary_bufs_sub .., binary_bufs_sub .., ternary_bufs_sub ..,
    unary_bufs_sub .., binary_bufs_sub .., binary_bufs_sub .., unary_bufs_sub .., binary_bufs_sub .., unary_bufs_sub ..,
    reshape_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    unary_bufs_sub .., binary_bufs_sub .., nullary_bufs_sub .., unary_bufs_sub .., unary_bufs_sub .., ternary_bufs_sub ..,
    unary_bufs_sub .., reshape_bufs_sub .., unary_bufs_sub .., unary_bufs_sub .., binary_bufs_sub .., nullary_bufs_sub ..,
    unary_bufs_sub .., binary_bufs_sub .., nullary_bufs_sub .., unary_bufs_sub .., binary_bufs_sub .., nullary_bufs_sub ..,
    unary_bufs_sub .., unary_bufs_sub .., ternary_bufs_sub .., unary_bufs_sub .., nullary_bufs_sub .., unary_bufs_sub ..,
    binary_bufs_sub .., ternary_bufs_sub .., unary_bufs_sub .., reshape_bufs_sub .., binary_bufs_sub .., nullary_bufs_sub ..,
    unary_bufs_sub .., binary_bufs_sub ..⟩

theorem ops1_sub : (ops1 : List (HloOp τ sig (Elt F))).Forall fun op => op.bufs ⊆ tcRefs τ sig :=
  ⟨nullary_bufs_sub .., unary_bufs_sub .., binary_bufs_sub .., ternary_bufs_sub .., unary_bufs_sub .., binary_bufs_sub ..,
    unary_bufs_sub .., unary_bufs_sub .., binary_bufs_sub .., nullary_bufs_sub .., unary_bufs_sub .., unary_bufs_sub ..,
    ternary_bufs_sub .., unary_bufs_sub .., reshape_bufs_sub .., unary_bufs_sub .., unary_bufs_sub .., binary_bufs_sub ..,
    nullary_bufs_sub .., unary_bufs_sub .., binary_bufs_sub .., nullary_bufs_sub .., unary_bufs_sub .., binary_bufs_sub ..,
    nullary_bufs_sub .., unary_bufs_sub .., unary_bufs_sub .., ternary_bufs_sub .., unary_bufs_sub .., nullary_bufs_sub ..,
    unary_bufs_sub .., binary_bufs_sub .., ternary_bufs_sub .., unary_bufs_sub .., reshape_bufs_sub .., binary_bufs_sub ..,
    nullary_bufs_sub .., unary_bufs_sub .., binary_bufs_sub .., nullary_bufs_sub .., unary_bufs_sub .., binary_bufs_sub ..,
    ternary_bufs_sub .., unary_bufs_sub .., binary_bufs_sub .., unary_bufs_sub .., unary_bufs_sub .., binary_bufs_sub ..,
    nullary_bufs_sub .., unary_bufs_sub .., unary_bufs_sub .., ternary_bufs_sub .., unary_bufs_sub .., reshape_bufs_sub ..,
    unary_bufs_sub .., unary_bufs_sub .., binary_bufs_sub .., nullary_bufs_sub .., unary_bufs_sub .., binary_bufs_sub ..,
    nullary_bufs_sub .., unary_bufs_sub .., binary_bufs_sub .., nullary_bufs_sub .., unary_bufs_sub .., unary_bufs_sub ..,
    ternary_bufs_sub .., unary_bufs_sub .., nullary_bufs_sub .., unary_bufs_sub .., binary_bufs_sub .., ternary_bufs_sub ..⟩

/-- Every operation of the line touches TensorCore buffers only. -/
theorem ops_sub : (ops : List (HloOp τ sig (Elt F))).Forall fun op => op.bufs ⊆ tcRefs τ sig :=
  List.forall_iff_forall_mem.mpr fun op h => (List.mem_append.mp h).elim
    (List.forall_iff_forall_mem.mp ops0_sub op) (List.forall_iff_forall_mem.mp ops1_sub op)

theorem ops0_fresh : ∀ op ∈ (ops0 : List (HloOp τ sig (Elt F))), op.fresh = ∅ := by
  intro _ h; (repeat (cases h with | head => rfl | tail _ h => ?_)); exact nomatch h

theorem ops1_fresh : ∀ op ∈ (ops1 : List (HloOp τ sig (Elt F))), op.fresh = ∅ := by
  intro _ h; (repeat (cases h with | head => rfl | tail _ h => ?_)); exact nomatch h

/-- On every device, for any float values, from any memory with zero counters: every weakly fair execution of
    the program terminates, and every buffer ends at the fold of the line's operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ op h => (List.mem_append.mp h).elim (ops0_fresh op) (ops1_fresh op))

end Cert.ReferenceIdeal.Hand

end
-- ==== Proof.RefChunks.lean ====
/-
  The reference's line of operations in seven stretches, and what each leaves behind.

  The line is the degrees and normalised edge weights, then three layers, each a stretch up to its ELU and the
  ELU's own fifteen operations.  A stretch is read from ANY contents `W` of the buffers: its last buffer ends at
  one stage function of the few buffers the stretch reads, and every buffer it does not write ends as it began.
  A later stretch depends on an earlier one only through the buffer that one ends in.
-/
import proofs.«104657_j9869834846327_1_alg».proof.Proof.RefStages
import proofs.«104657_j9869834846327_1_alg».proof.Proof.RefRun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- One aggregation with the normalised edge weights given: the rows of `h` at the source nodes, row `e` scaled
    by `nw e`, summed into the destination nodes, from zero. -/
def aggN (h : FVec F S100000x128 .f32) (nw : FVec F S1600000 .f32) (src dst : IVec S1600000 32) :
    FVec F S100000x128 .f32 :=
  Host.scatterAdd scatter_S100000x128_S1600000x1_S1600000x128_1_0_0_1
    (broadcastInDim S100000x128 ![] bcast_S_S100000x128 (constant S_ .f32 0x00000000#32)) (idxCol dst)
    (mulf (Host.gather gather_S100000x128_S1600000x1_S1600000x128_1_0_n_n_0_1_1128 h (wrapIdx src))
      (broadcastInDim S1600000x128 ![0, 1] bcast_S1600000x1_S1600000x128_0_1
        (broadcastInDim S1600000x1 ![0] bcast_S1600000_S1600000x1_0 nw)))

/-- A layer up to its ELU, with the normalised edge weights given. -/
def preElu (h : FVec F S100000x128 .f32) (w : FVec F S128x128 .f32) (bias : FVec F S100000x128 .f32)
    (nw : FVec F S1600000 .f32) (src dst : IVec S1600000 32) : FVec F S100000x128 .f32 :=
  addf (aggN (dense h w) nw src dst) bias

/-- A layer is its stretch up to the ELU at the normalised weights of its edges, through ELU. -/
theorem layer_eq (h : FVec F S100000x128 .f32) (w : FVec F S128x128 .f32) (bias : FVec F S100000x128 .f32)
    (ew : FVec F S1600000 .f32) (src dst : IVec S1600000 32) :
    layer h w bias ew src dst = eluRef (preElu h w bias (normW ew src dst) src dst) := rfl

/-- Two lines folded one after the other are their concatenation folded as one. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The degrees over the source and the destination indices, and the normalised edge weights. -/
abbrev c1 : List (HloOp τ sig (Elt F)) :=
  [ nullary main_cst (constant S_ .f32 0x00000000#32),
    unary main_cst main_v0 (broadcastInDim S100000 ![] bcast_S_S100000 : (⟨S_, .f32⟩ : BufTy).Contents (Elt F) → (⟨S100000, .f32⟩ : BufTy).Contents (Elt F)),
    unary main_arg4 main_v1 (broadcastInDim S1600000x1 ![0] bcast_S1600000_S1600000x1_0 : (⟨S1600000, .i32⟩ : BufTy).Contents (Elt F) → (⟨S1600000x1, .i32⟩ : BufTy).Contents (Elt F)),
    ternary main_v0 main_v1 main_arg1 main_v2 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_cst_0 (constant S_ .f32 0x00000000#32),
    unary main_cst_0 main_v3 (broadcastInDim S100000 ![] bcast_S_S100000 : (⟨S_, .f32⟩ : BufTy).Contents (Elt F) → (⟨S100000, .f32⟩ : BufTy).Contents (Elt F)),
    unary main_arg5 main_v4 (broadcastInDim S1600000x1 ![0] bcast_S1600000_S1600000x1_0 : (⟨S1600000, .i32⟩ : BufTy).Contents (Elt F) → (⟨S1600000x1, .i32⟩ : BufTy).Contents (Elt F)),
    ternary main_v3 main_v4 main_arg1 main_v5 ((fun x i u => Host.scatterAdd scatter_S100000_S1600000x1_S1600000_n_0_0_1 x i u) : (⟨S100000, .f32⟩ : BufTy).Contents (Elt F) → (⟨S1600000x1, .i32⟩ : BufTy).Contents (Elt F) → (⟨S1600000, .f32⟩ : BufTy).Contents (Elt F) → (⟨S100000, .f32⟩ : BufTy).Contents (Elt F)),
    nullary main_c (constantI S_ 32 0#32),
    unary main_c main_v6 (broadcastInDim S1600000 ![] bcast_S_S1600000 : (⟨S_, .i32⟩ : BufTy).Contents (Elt F) → (⟨S1600000, .i32⟩ : BufTy).Contents (Elt F)),
    binary main_arg4 main_v6 main_v7 (cmpi .slt : (⟨S1600000, .i32⟩ : BufTy).Contents (Elt F) → (⟨S1600000, .i32⟩ : BufTy).Contents (Elt F) → (⟨S1600000, .i1⟩ : BufTy).Contents (Elt F)),
    nullary main_c_1 (constantI S_ 32 100000#32),
    unary main_c_1 main_v8 (broadcastInDim S1600000 ![] bcast_S_S1600000 : (⟨S_, .i32⟩ : BufTy).Contents (Elt F) → (⟨S1600000, .i32⟩ : BufTy).Contents (Elt F)),
    binary main_arg4 main_v8 main_v9 (addi : (⟨S1600000, .i32⟩ : BufTy).Contents (Elt F) → (⟨S1600000, .i32⟩ : BufTy).Contents (Elt F) → (⟨S1600000, .i32⟩ : BufTy).Contents (Elt F)),
    ternary main_v7 main_v9 main_arg4 main_v10 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v10 main_v11 (broadcastInDim S1600000x1 ![0] bcast_S1600000_S1600000x1_0 : (⟨S1600000, .i32⟩ : BufTy).Contents (Elt F) → (⟨S1600000x1, .i32⟩ : BufTy).Contents (Elt F)),
    binary main_v2 main_v11 main_v12 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    nullary main_c_2 (constantI S_ 32 0#32),
    unary main_c_2 main_v13 (broadcastInDim S1600000 ![] bcast_S_S1600000 : (⟨S_, .i32⟩ : BufTy).Contents (Elt F) → (⟨S1600000, .i32⟩ : BufTy).Contents (Elt F)),
    binary main_arg5 main_v13 main_v14 (cmpi .slt : (⟨S1600000, .i32⟩ : BufTy).Contents (Elt F) → (⟨S1600000, .i32⟩ : BufTy).Contents (Elt F) → (⟨S1600000, .i1⟩ : BufTy).Contents (Elt F)),
    nullary main_c_3 (constantI S_ 32 100000#32),
    unary main_c_3 main_v15 (broadcastInDim S1600000 ![] bcast_S_S1600000 : (⟨S_, .i32⟩ : BufTy).Contents (Elt F) → (⟨S1600000, .i32⟩ : BufTy).Contents (Elt F)),
    binary main_arg5 main_v15 main_v16 (addi : (⟨S1600000, .i32⟩ : BufTy).Contents (Elt F) → (⟨S1600000, .i32⟩ : BufTy).Contents (Elt F) → (⟨S1600000, .i32⟩ : BufTy).Contents (Elt F)),
    ternary main_v14 main_v16 main_arg5 main_v17 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v17 main_v18 (broadcastInDim S1600000x1 ![0] bcast_S1600000_S1600000x1_0 : (⟨S1600000, .i32⟩ : BufTy).Contents (Elt F) → (⟨S1600000x1, .i32⟩ : BufTy).Contents (Elt F)),
    binary main_v5 main_v18 main_v19 ((fun x i => Host.gather gather_S100000_S1600000x1_S1600000_n_0_n_n_0_1_1 x i) : (⟨S100000, .f32⟩ : BufTy).Contents (Elt F) → (⟨S1600000x1, .i32⟩ : BufTy).Contents (Elt F) → (⟨S1600000, .f32⟩ : BufTy).Contents (Elt F)),
    binary main_v12 main_v19 main_v20 (mulf : (⟨S1600000, .f32⟩ : BufTy).Contents (Elt F) → (⟨S1600000, .f32⟩ : BufTy).Contents (Elt F) → (⟨S1600000, .f32⟩ : BufTy).Contents (Elt F)),
    unary main_v20 main_v21 (Host.rsqrt : (⟨S1600000, .f32⟩ : BufTy).Contents (Elt F) → (⟨S1600000, .f32⟩ : BufTy).Contents (Elt F)),
    binary main_arg1 main_v21 main_v22 (mulf : (⟨S1600000, .f32⟩ : BufTy).Contents (Elt F) → (⟨S1600000, .f32⟩ : BufTy).Contents (Elt F) → (⟨S1600000, .f32⟩ : BufTy).Contents (Elt F)) ]

/-- Layer 0 up to its ELU: the features times weight matrix 0, aggregated over the edges, plus bias row 0. -/
abbrev a0 : List (HloOp τ sig (Elt F)) :=
  [ unary main_arg2 main_v23 ((extractStridedSlice S1x128x128 ![0, 0, 0] · slices_S3x128x128_S1x128x128_0_0_0) : (⟨S3x128x128, .f32⟩ : BufTy).Contents (Elt F) → (⟨S1x128x128, .f32⟩ : BufTy).Contents (Elt F)),
    reshape main_v23 main_v24 rfl shapeCasts_S1x128x128_S128x128,
    binary main_arg0 main_v24 main_v25 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_4 (constantI S_ 32 0#32),
    unary main_c_4 main_v26 (broadcastInDim S1600000 ![] bcast_S_S1600000 : (⟨S_, .i32⟩ : BufTy).Contents (Elt F) → (⟨S1600000, .i32⟩ : BufTy).Contents (Elt F)),
    binary main_arg4 main_v26 main_v27 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v28 (broadcastInDim S1600000 ![] bcast_S_S1600000 : (⟨S_, .i32⟩ : BufTy).Contents (Elt F) → (⟨S1600000, .i32⟩ : BufTy).Contents (Elt F)),
    binary main_arg4 main_v28 main_v29 (addi : (⟨S1600000, .i32⟩ : BufTy).Contents (Elt F) → (⟨S1600000, .i32⟩ : BufTy).Contents (Elt F) → (⟨S1600000, .i32⟩ : BufTy).Contents (Elt F)),
    ternary main_v27 main_v29 main_arg4 main_v30 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v30 main_v31 (broadcastInDim S1600000x1 ![0] bcast_S1600000_S1600000x1_0 : (⟨S1600000, .i32⟩ : BufTy).Contents (Elt F) → (⟨S1600000x1, .i32⟩ : BufTy).Contents (Elt F)),
    binary main_v25 main_v31 main_v32 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v22 main_v33 (broadcastInDim S1600000x1 ![0] bcast_S1600000_S1600000x1_0 : (⟨S1600000, .f32⟩ : BufTy).Contents (Elt F) → (⟨S1600000x1, .f32⟩ : BufTy).Contents (Elt F)),
    unary main_v33 main_v34 (broadcastInDim S1600000x128 ![0, 1] bcast_S1600000x1_S1600000x128_0_1 : (⟨S1600000x1, .f32⟩ : BufTy).Contents (Elt F) → (⟨S1600000x128, .f32⟩ : BufTy).Contents (Elt F)),
    binary main_v32 main_v34 main_v35 (mulf : (⟨S1600000x128, .f32⟩ : BufTy).Contents (Elt F) → (⟨S1600000x128, .f32⟩ : BufTy).Contents (Elt F) → (⟨S1600000x128, .f32⟩ : BufTy).Contents (Elt F)),
    nullary main_cst_6 (constant S_ .f32 0x00000000#32),
    unary main_cst_6 main_v36 (broadcastInDim S100000x128 ![] bcast_S_S100000x128 : (⟨S_, .f32⟩ : BufTy).Contents (Elt F) → (⟨S100000x128, .f32⟩ : BufTy).Contents (Elt F)),
    unary main_arg5 main_v37 (broadcastInDim S1600000x1 ![0] bcast_S1600000_S1600000x1_0 : (⟨S1600000, .i32⟩ : BufTy).Contents (Elt F) → (⟨S1600000x1, .i32⟩ : BufTy).Contents (Elt F)),
    ternary main_v36 main_v37 main_v35 main_v38 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg3 main_v39 ((extractStridedSlice S1x128 ![0, 0] · slices_S3x128_S1x128_0_0) : (⟨S3x128, .f32⟩ : BufTy).Contents (Elt F) → (⟨S1x128, .f32⟩ : BufTy).Contents (Elt F)),
    reshape main_v39 main_v40 rfl shapeCasts_S1x128_S128,
    unary main_v40 main_v41 (broadcastInDim S1x128 ![1] bcast_S128_S1x128_1 : (⟨S128, .f32⟩ : BufTy).Contents (Elt F) → (⟨S1x128, .f32⟩ : BufTy).Contents (Elt F)),
    unary main_v41 main_v42 (broadcastInDim S100000x128 ![0, 1] bcast_S1x128_S100000x128_0_1 : (⟨S1x128, .f32⟩ : BufTy).Contents (Elt F) → (⟨S100000x128, .f32⟩ : BufTy).Contents (Elt F)),
    binary main_v38 main_v42 main_v43 (addf : (⟨S100000x128, .f32⟩ : BufTy).Contents (Elt F) → (⟨S100000x128, .f32⟩ : BufTy).Contents (Elt F) → (⟨S100000x128, .f32⟩ : BufTy).Contents (Elt F)) ]

/-- Layer 0's ELU, over the first call's buffers. -/
abbrev e0 : List (HloOp τ sig (Elt F)) :=
  [ TRef.nullary main_call0.cst (constant S_ .f32 0x00000000#32),
    TRef.unary main_call0.cst main_call0.v0 (broadcastInDim S100000x128 ![] bcast_S_S100000x128),
    TRef.binary (.of main_v43 : TRef sig ⟨S100000x128, .f32⟩) main_call0.v0 main_call0.v1 (cmpf .ogt),
    TRef.nullary main_call0.cst_0 (constant S_ .f32 0x00000000#32),
    TRef.unary main_call0.cst_0 main_call0.v2 (broadcastInDim S100000x128 ![] bcast_S_S100000x128),
    TRef.binary (.of main_v43 : TRef sig ⟨S100000x128, .f32⟩) main_call0.v2 main_call0.v3 (cmpf .ogt),
    TRef.nullary main_call0.cst_1 (constant S_ .f32 0x00000000#32),
    TRef.unary main_call0.cst_1 main_call0.call0.v0 id,
    TRef.unary main_call0.call0.v0 main_call0.call0.v1 (broadcastInDim S100000x128 ![] bcast_S_S100000x128),
    TRef.ternary main_call0.v3 main_call0.call0.v1 (.of main_v43 : TRef sig ⟨S100000x128, .f32⟩) main_call0.call0.v2 select,
    TRef.unary main_call0.call0.v2 main_call0.v5 Host.expm1,
    TRef.nullary main_call0.cst_2 (constant S_ .f32 0x3F800000#32),
    TRef.unary main_call0.cst_2 main_call0.v6 (broadcastInDim S100000x128 ![] bcast_S_S100000x128),
    TRef.binary main_call0.v6 main_call0.v5 main_call0.v7 mulf,
    TRef.ternary main_call0.v1 (.of main_v43 : TRef sig ⟨S100000x128, .f32⟩) main_call0.v7 main_call0.call1.v0 select ]

/-- Layer 1 up to its ELU: layer 0's output times weight matrix 1, aggregated, plus bias row 1. -/
abbrev a1 : List (HloOp τ sig (Elt F)) :=
  [ unary main_arg2 main_v45 ((extractStridedSlice S1x128x128 ![1, 0, 0] · slices_S3x128x128_S1x128x128_1_0_0) : (⟨S3x128x128, .f32⟩ : BufTy).Contents (Elt F) → (⟨S1x128x128, .f32⟩ : BufTy).Contents (Elt F)),
    reshape main_v45 main_v46 rfl shapeCasts_S1x128x128_S128x128,
    binary main_v44 main_v46 main_v47 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_7 (constantI S_ 32 0#32),
    unary main_c_7 main_v48 (broadcastInDim S1600000 ![] bcast_S_S1600000 : (⟨S_, .i32⟩ : BufTy).Contents (Elt F) → (⟨S1600000, .i32⟩ : BufTy).Contents (Elt F)),
    binary main_arg4 main_v48 main_v49 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v50 (broadcastInDim S1600000 ![] bcast_S_S1600000 : (⟨S_, .i32⟩ : BufTy).Contents (Elt F) → (⟨S1600000, .i32⟩ : BufTy).Contents (Elt F)),
    binary main_arg4 main_v50 main_v51 (addi : (⟨S1600000, .i32⟩ : BufTy).Contents (Elt F) → (⟨S1600000, .i32⟩ : BufTy).Contents (Elt F) → (⟨S1600000, .i32⟩ : BufTy).Contents (Elt F)),
    ternary main_v49 main_v51 main_arg4 main_v52 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v52 main_v53 (broadcastInDim S1600000x1 ![0] bcast_S1600000_S1600000x1_0 : (⟨S1600000, .i32⟩ : BufTy).Contents (Elt F) → (⟨S1600000x1, .i32⟩ : BufTy).Contents (Elt F)),
    binary main_v47 main_v53 main_v54 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v22 main_v55 (broadcastInDim S1600000x1 ![0] bcast_S1600000_S1600000x1_0 : (⟨S1600000, .f32⟩ : BufTy).Contents (Elt F) → (⟨S1600000x1, .f32⟩ : BufTy).Contents (Elt F)),
    unary main_v55 main_v56 (broadcastInDim S1600000x128 ![0, 1] bcast_S1600000x1_S1600000x128_0_1 : (⟨S1600000x1, .f32⟩ : BufTy).Contents (Elt F) → (⟨S1600000x128, .f32⟩ : BufTy).Contents (Elt F)),
    binary main_v54 main_v56 main_v57 (mulf : (⟨S1600000x128, .f32⟩ : BufTy).Contents (Elt F) → (⟨S1600000x128, .f32⟩ : BufTy).Contents (Elt F) → (⟨S1600000x128, .f32⟩ : BufTy).Contents (Elt F)),
    nullary main_cst_9 (constant S_ .f32 0x00000000#32),
    unary main_cst_9 main_v58 (broadcastInDim S100000x128 ![] bcast_S_S100000x128 : (⟨S_, .f32⟩ : BufTy).Contents (Elt F) → (⟨S100000x128, .f32⟩ : BufTy).Contents (Elt F)),
    unary main_arg5 main_v59 (broadcastInDim S1600000x1 ![0] bcast_S1600000_S1600000x1_0 : (⟨S1600000, .i32⟩ : BufTy).Contents (Elt F) → (⟨S1600000x1, .i32⟩ : BufTy).Contents (Elt F)),
    ternary main_v58 main_v59 main_v57 main_v60 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg3 main_v61 ((extractStridedSlice S1x128 ![1, 0] · slices_S3x128_S1x128_1_0) : (⟨S3x128, .f32⟩ : BufTy).Contents (Elt F) → (⟨S1x128, .f32⟩ : BufTy).Contents (Elt F)),
    reshape main_v61 main_v62 rfl shapeCasts_S1x128_S128,
    unary main_v62 main_v63 (broadcastInDim S1x128 ![1] bcast_S128_S1x128_1 : (⟨S128, .f32⟩ : BufTy).Contents (Elt F) → (⟨S1x128, .f32⟩ : BufTy).Contents (Elt F)),
    unary main_v63 main_v64 (broadcastInDim S100000x128 ![0, 1] bcast_S1x128_S100000x128_0_1 : (⟨S1x128, .f32⟩ : BufTy).Contents (Elt F) → (⟨S100000x128, .f32⟩ : BufTy).Contents (Elt F)),
    binary main_v60 main_v64 main_v65 (addf : (⟨S100000x128, .f32⟩ : BufTy).Contents (Elt F) → (⟨S100000x128, .f32⟩ : BufTy).Contents (Elt F) → (⟨S100000x128, .f32⟩ : BufTy).Contents (Elt F)) ]

/-- Layer 1's ELU, over the second call's buffers. -/
abbrev e1 : List (HloOp τ sig (Elt F)) :=
  [ TRef.nullary main_call1.cst (constant S_ .f32 0x00000000#32),
    TRef.unary main_call1.cst main_call1.v0 (broadcastInDim S100000x128 ![] bcast_S_S100000x128),
    TRef.binary (.of main_v65 : TRef sig ⟨S100000x128, .f32⟩) main_call1.v0 main_call1.v1 (cmpf .ogt),
    TRef.nullary main_call1.cst_0 (constant S_ .f32 0x00000000#32),
    TRef.unary main_call1.cst_0 main_call1.v2 (broadcastInDim S100000x128 ![] bcast_S_S100000x128),
    TRef.binary (.of main_v65 : TRef sig ⟨S100000x128, .f32⟩) main_call1.v2 main_call1.v3 (cmpf .ogt),
    TRef.nullary main_call1.cst_1 (constant S_ .f32 0x00000000#32),
    TRef.unary main_call1.cst_1 main_call1.call0.v0 id,
    TRef.unary main_call1.call0.v0 main_call1.call0.v1 (broadcastInDim S100000x128 ![] bcast_S_S100000x128),
    TRef.ternary main_call1.v3 main_call1.call0.v1 (.of main_v65 : TRef sig ⟨S100000x128, .f32⟩) main_call1.call0.v2 select,
    TRef.unary main_call1.call0.v2 main_call1.v5 Host.expm1,
    TRef.nullary main_call1.cst_2 (constant S_ .f32 0x3F800000#32),
    TRef.unary main_call1.cst_2 main_call1.v6 (broadcastInDim S100000x128 ![] bcast_S_S100000x128),
    TRef.binary main_call1.v6 main_call1.v5 main_call1.v7 mulf,
    TRef.ternary main_call1.v1 (.of main_v65 : TRef sig ⟨S100000x128, .f32⟩) main_call1.v7 main_call1.call1.v0 select ]

/-- Layer 2 up to its ELU: layer 1's output times weight matrix 2, aggregated, plus bias row 2. -/
abbrev a2 : List (HloOp τ sig (Elt F)) :=
  [ unary main_arg2 main_v67 ((extractStridedSlice S1x128x128 ![2, 0, 0] · slices_S3x128x128_S1x128x128_2_0_0) : (⟨S3x128x128, .f32⟩ : BufTy).Contents (Elt F) → (⟨S1x128x128, .f32⟩ : BufTy).Contents (Elt F)),
    reshape main_v67 main_v68 rfl shapeCasts_S1x128x128_S128x128,
    binary main_v66 main_v68 main_v69 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    nullary main_c_10 (constantI S_ 32 0#32),
    unary main_c_10 main_v70 (broadcastInDim S1600000 ![] bcast_S_S1600000 : (⟨S_, .i32⟩ : BufTy).Contents (Elt F) → (⟨S1600000, .i32⟩ : BufTy).Contents (Elt F)),
    binary main_arg4 main_v70 main_v71 (cmpi .slt : (⟨S1600000, .i32⟩ : BufTy).Contents (Elt F) → (⟨S1600000, .i32⟩ : BufTy).Contents (Elt F) → (⟨S1600000, .i1⟩ : BufTy).Contents (Elt F)),
    nullary main_c_11 (constantI S_ 32 100000#32),
    unary main_c_11 main_v72 (broadcastInDim S1600000 ![] bcast_S_S1600000 : (⟨S_, .i32⟩ : BufTy).Contents (Elt F) → (⟨S1600000, .i32⟩ : BufTy).Contents (Elt F)),
    binary main_arg4 main_v72 main_v73 (addi : (⟨S1600000, .i32⟩ : BufTy).Contents (Elt F) → (⟨S1600000, .i32⟩ : BufTy).Contents (Elt F) → (⟨S1600000, .i32⟩ : BufTy).Contents (Elt F)),
    ternary main_v71 main_v73 main_arg4 main_v74 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v74 main_v75 (broadcastInDim S1600000x1 ![0] bcast_S1600000_S1600000x1_0 : (⟨S1600000, .i32⟩ : BufTy).Contents (Elt F) → (⟨S1600000x1, .i32⟩ : BufTy).Contents (Elt F)),
    binary main_v69 main_v75 main_v76 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v22 main_v77 (broadcastInDim S1600000x1 ![0] bcast_S1600000_S1600000x1_0 : (⟨S1600000, .f32⟩ : BufTy).Contents (Elt F) → (⟨S1600000x1, .f32⟩ : BufTy).Contents (Elt F)),
    unary main_v77 main_v78 (broadcastInDim S1600000x128 ![0, 1] bcast_S1600000x1_S1600000x128_0_1 : (⟨S1600000x1, .f32⟩ : BufTy).Contents (Elt F) → (⟨S1600000x128, .f32⟩ : BufTy).Contents (Elt F)),
    binary main_v76 main_v78 main_v79 (mulf : (⟨S1600000x128, .f32⟩ : BufTy).Contents (Elt F) → (⟨S1600000x128, .f32⟩ : BufTy).Contents (Elt F) → (⟨S1600000x128, .f32⟩ : BufTy).Contents (Elt F)),
    nullary main_cst_12 (constant S_ .f32 0x00000000#32),
    unary main_cst_12 main_v80 (broadcastInDim S100000x128 ![] bcast_S_S100000x128 : (⟨S_, .f32⟩ : BufTy).Contents (Elt F) → (⟨S100000x128, .f32⟩ : BufTy).Contents (Elt F)),
    unary main_arg5 main_v81 (broadcastInDim S1600000x1 ![0] bcast_S1600000_S1600000x1_0 : (⟨S1600000, .i32⟩ : BufTy).Contents (Elt F) → (⟨S1600000x1, .i32⟩ : BufTy).Contents (Elt F)),
    ternary main_v80 main_v81 main_v79 main_v82 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg3 main_v83 ((extractStridedSlice S1x128 ![2, 0] · slices_S3x128_S1x128_2_0) : (⟨S3x128, .f32⟩ : BufTy).Contents (Elt F) → (⟨S1x128, .f32⟩ : BufTy).Contents (Elt F)),
    reshape main_v83 main_v84 rfl shapeCasts_S1x128_S128,
    unary main_v84 main_v85 (broadcastInDim S1x128 ![1] bcast_S128_S1x128_1 : (⟨S128, .f32⟩ : BufTy).Contents (Elt F) → (⟨S1x128, .f32⟩ : BufTy).Contents (Elt F)),
    unary main_v85 main_v86 (broadcastInDim S100000x128 ![0, 1] bcast_S1x128_S100000x128_0_1 : (⟨S1x128, .f32⟩ : BufTy).Contents (Elt F) → (⟨S100000x128, .f32⟩ : BufTy).Contents (Elt F)),
    binary main_v82 main_v86 main_v87 (addf : (⟨S100000x128, .f32⟩ : BufTy).Contents (Elt F) → (⟨S100000x128, .f32⟩ : BufTy).Contents (Elt F) → (⟨S100000x128, .f32⟩ : BufTy).Contents (Elt F)) ]

/-- Layer 2's ELU, over the third call's buffers. -/
abbrev e2 : List (HloOp τ sig (Elt F)) :=
  [ TRef.nullary main_call2.cst (constant S_ .f32 0x00000000#32),
    TRef.unary main_call2.cst main_call2.v0 (broadcastInDim S100000x128 ![] bcast_S_S100000x128),
    TRef.binary (.of main_v87 : TRef sig ⟨S100000x128, .f32⟩) main_call2.v0 main_call2.v1 (cmpf .ogt),
    TRef.nullary main_call2.cst_0 (constant S_ .f32 0x00000000#32),
    TRef.unary main_call2.cst_0 main_call2.v2 (broadcastInDim S100000x128 ![] bcast_S_S100000x128),
    TRef.binary (.of main_v87 : TRef sig ⟨S100000x128, .f32⟩) main_call2.v2 main_call2.v3 (cmpf .ogt),
    TRef.nullary main_call2.cst_1 (constant S_ .f32 0x00000000#32),
    TRef.unary main_call2.cst_1 main_call2.call0.v0 id,
    TRef.unary main_call2.call0.v0 main_call2.call0.v1 (broadcastInDim S100000x128 ![] bcast_S_S100000x128),
    TRef.ternary main_call2.v3 main_call2.call0.v1 (.of main_v87 : TRef sig ⟨S100000x128, .f32⟩) main_call2.call0.v2 select,
    TRef.unary main_call2.call0.v2 main_call2.v5 Host.expm1,
    TRef.nullary main_call2.cst_2 (constant S_ .f32 0x3F800000#32),
    TRef.unary main_call2.cst_2 main_call2.v6 (broadcastInDim S100000x128 ![] bcast_S_S100000x128),
    TRef.binary main_call2.v6 main_call2.v5 main_call2.v7 mulf,
    TRef.ternary main_call2.v1 (.of main_v87 : TRef sig ⟨S100000x128, .f32⟩) main_call2.v7 main_call2.call1.v0 select ]

/-- The line is its seven stretches in order. -/
theorem ops_split : (ops : List (HloOp τ sig (Elt F))) = c1 ++ (a0 ++ (e0 ++ (a1 ++ (e1 ++ (a2 ++ e2))))) := rfl

/-! ## What each stretch computes -/

attribute [local irreducible] Host.scatterAdd Host.gather in
set_option maxRecDepth 16384 in
set_option maxHeartbeats 1000000 in
theorem c1_out (W : Valuation τ sig (Elt F)) :
    after c1 W (main_v22 : DevRef τ sig) = normW (W (main_arg1 : DevRef τ sig)) (W (main_arg4 : DevRef τ sig)) (W (main_arg5 : DevRef τ sig)) := by
  simp only [after_cons, after_nil]
  rfl

attribute [local irreducible] Host.scatterAdd Host.gather in
set_option maxRecDepth 16384 in
set_option maxHeartbeats 1000000 in
theorem a0_out (W : Valuation τ sig (Elt F)) :
    after a0 W (main_v43 : DevRef τ sig) = preElu (W (main_arg0 : DevRef τ sig)) (weight0 (W (main_arg2 : DevRef τ sig))) (biasRows0 (W (main_arg3 : DevRef τ sig))) (W (main_v22 : DevRef τ sig)) (W (main_arg4 : DevRef τ sig)) (W (main_arg5 : DevRef τ sig)) := by
  simp only [after_cons, after_nil]
  rfl

attribute [local irreducible] Host.scatterAdd Host.gather in
set_option maxRecDepth 16384 in
set_option maxHeartbeats 1000000 in
theorem e0_out (W : Valuation τ sig (Elt F)) :
    after e0 W (main_v44 : DevRef τ sig) = eluRef (W (main_v43 : DevRef τ sig)) := by
  simp only [after_cons, after_nil]
  rfl

attribute [local irreducible] Host.scatterAdd Host.gather in
set_option maxRecDepth 16384 in
set_option maxHeartbeats 1000000 in
theorem a1_out (W : Valuation τ sig (Elt F)) :
    after a1 W (main_v65 : DevRef τ sig) = preElu (W (main_v44 : DevRef τ sig)) (weight1 (W (main_arg2 : DevRef τ sig))) (biasRows1 (W (main_arg3 : DevRef τ sig))) (W (main_v22 : DevRef τ sig)) (W (main_arg4 : DevRef τ sig)) (W (main_arg5 : DevRef τ sig)) := by
  simp only [after_cons, after_nil]
  rfl

attribute [local irreducible] Host.scatterAdd Host.gather in
set_option maxRecDepth 16384 in
set_option maxHeartbeats 1000000 in
theorem e1_out (W : Valuation τ sig (Elt F)) :
    after e1 W (main_v66 : DevRef τ sig) = eluRef (W (main_v65 : DevRef τ sig)) := by
  simp only [after_cons, after_nil]
  rfl

attribute [local irreducible] Host.scatterAdd Host.gather in
set_option maxRecDepth 16384 in
set_option maxHeartbeats 1000000 in
theorem a2_out (W : Valuation τ sig (Elt F)) :
    after a2 W (main_v87 : DevRef τ sig) = preElu (W (main_v66 : DevRef τ sig)) (weight2 (W (main_arg2 : DevRef τ sig))) (biasRows2 (W (main_arg3 : DevRef τ sig))) (W (main_v22 : DevRef τ sig)) (W (main_arg4 : DevRef τ sig)) (W (main_arg5 : DevRef τ sig)) := by
  simp only [after_cons, after_nil]
  rfl

attribute [local irreducible] Host.scatterAdd Host.gather in
set_option maxRecDepth 16384 in
set_option maxHeartbeats 1000000 in
theorem e2_out (W : Valuation τ sig (Elt F)) :
    after e2 W (main_v88 : DevRef τ sig) = eluRef (W (main_v87 : DevRef τ sig)) := by
  simp only [after_cons, after_nil]
  rfl

/-! ## What each stretch leaves alone -/

theorem c1_arg0 (W : Valuation τ sig (Elt F)) : after c1 W (main_arg0 : DevRef τ sig) = W (main_arg0 : DevRef τ sig) := by
  simp only [after_cons, after_nil]
  rfl
theorem c1_arg1 (W : Valuation τ sig (Elt F)) : after c1 W (main_arg1 : DevRef τ sig) = W (main_arg1 : DevRef τ sig) := by
  simp only [after_cons, after_nil]
  rfl
theorem c1_arg2 (W : Valuation τ sig (Elt F)) : after c1 W (main_arg2 : DevRef τ sig) = W (main_arg2 : DevRef τ sig) := by
  simp only [after_cons, after_nil]
  rfl
theorem c1_arg3 (W : Valuation τ sig (Elt F)) : after c1 W (main_arg3 : DevRef τ sig) = W (main_arg3 : DevRef τ sig) := by
  simp only [after_cons, after_nil]
  rfl
theorem c1_arg4 (W : Valuation τ sig (Elt F)) : after c1 W (main_arg4 : DevRef τ sig) = W (main_arg4 : DevRef τ sig) := by
  simp only [after_cons, after_nil]
  rfl
theorem c1_arg5 (W : Valuation τ sig (Elt F)) : after c1 W (main_arg5 : DevRef τ sig) = W (main_arg5 : DevRef τ sig) := by
  simp only [after_cons, after_nil]
  rfl
theorem a0_arg0 (W : Valuation τ sig (Elt F)) : after a0 W (main_arg0 : DevRef τ sig) = W (main_arg0 : DevRef τ sig) := by
  simp only [after_cons, after_nil]
  rfl
theorem a0_arg1 (W : Valuation τ sig (Elt F)) : after a0 W (main_arg1 : DevRef τ sig) = W (main_arg1 : DevRef τ sig) := by
  simp only [after_cons, after_nil]
  rfl
theorem a0_arg2 (W : Valuation τ sig (Elt F)) : after a0 W (main_arg2 : DevRef τ sig) = W (main_arg2 : DevRef τ sig) := by
  simp only [after_cons, after_nil]
  rfl
theorem a0_arg3 (W : Valuation τ sig (Elt F)) : after a0 W (main_arg3 : DevRef τ sig) = W (main_arg3 : DevRef τ sig) := by
  simp only [after_cons, after_nil]
  rfl
theorem a0_arg4 (W : Valuation τ sig (Elt F)) : after a0 W (main_arg4 : DevRef τ sig) = W (main_arg4 : DevRef τ sig) := by
  simp only [after_cons, after_nil]
  rfl
theorem a0_arg5 (W : Valuation τ sig (Elt F)) : after a0 W (main_arg5 : DevRef τ sig) = W (main_arg5 : DevRef τ sig) := by
  simp only [after_cons, after_nil]
  rfl
theorem a0_v22 (W : Valuation τ sig (Elt F)) : after a0 W (main_v22 : DevRef τ sig) = W (main_v22 : DevRef τ sig) := by
  simp only [after_cons, after_nil]
  rfl
theorem e0_arg0 (W : Valuation τ sig (Elt F)) : after e0 W (main_arg0 : DevRef τ sig) = W (main_arg0 : DevRef τ sig) := by
  simp only [after_cons, after_nil]
  rfl
theorem e0_arg1 (W : Valuation τ sig (Elt F)) : after e0 W (main_arg1 : DevRef τ sig) = W (main_arg1 : DevRef τ sig) := by
  simp only [after_cons, after_nil]
  rfl
theorem e0_arg2 (W : Valuation τ sig (Elt F)) : after e0 W (main_arg2 : DevRef τ sig) = W (main_arg2 : DevRef τ sig) := by
  simp only [after_cons, after_nil]
  rfl
theorem e0_arg3 (W : Valuation τ sig (Elt F)) : after e0 W (main_arg3 : DevRef τ sig) = W (main_arg3 : DevRef τ sig) := by
  simp only [after_cons, after_nil]
  rfl
theorem e0_arg4 (W : Valuation τ sig (Elt F)) : after e0 W (main_arg4 : DevRef τ sig) = W (main_arg4 : DevRef τ sig) := by
  simp only [after_cons, after_nil]
  rfl
theorem e0_arg5 (W : Valuation τ sig (Elt F)) : after e0 W (main_arg5 : DevRef τ sig) = W (main_arg5 : DevRef τ sig) := by
  simp only [after_cons, after_nil]
  rfl
theorem e0_v22 (W : Valuation τ sig (Elt F)) : after e0 W (main_v22 : DevRef τ sig) = W (main_v22 : DevRef τ sig) := by
  simp only [after_cons, after_nil]
  rfl
theorem a1_arg0 (W : Valuation τ sig (Elt F)) : after a1 W (main_arg0 : DevRef τ sig) = W (main_arg0 : DevRef τ sig) := by
  simp only [after_cons, after_nil]
  rfl
theorem a1_arg1 (W : Valuation τ sig (Elt F)) : after a1 W (main_arg1 : DevRef τ sig) = W (main_arg1 : DevRef τ sig) := by
  simp only [after_cons, after_nil]
  rfl
theorem a1_arg2 (W : Valuation τ sig (Elt F)) : after a1 W (main_arg2 : DevRef τ sig) = W (main_arg2 : DevRef τ sig) := by
  simp only [after_cons, after_nil]
  rfl
theorem a1_arg3 (W : Valuation τ sig (Elt F)) : after a1 W (main_arg3 : DevRef τ sig) = W (main_arg3 : DevRef τ sig) := by
  simp only [after_cons, after_nil]
  rfl
theorem a1_arg4 (W : Valuation τ sig (Elt F)) : after a1 W (main_arg4 : DevRef τ sig) = W (main_arg4 : DevRef τ sig) := by
  simp only [after_cons, after_nil]
  rfl
theorem a1_arg5 (W : Valuation τ sig (Elt F)) : after a1 W (main_arg5 : DevRef τ sig) = W (main_arg5 : DevRef τ sig) := by
  simp only [after_cons, after_nil]
  rfl
theorem a1_v22 (W : Valuation τ sig (Elt F)) : after a1 W (main_v22 : DevRef τ sig) = W (main_v22 : DevRef τ sig) := by
  simp only [after_cons, after_nil]
  rfl
theorem e1_arg0 (W : Valuation τ sig (Elt F)) : after e1 W (main_arg0 : DevRef τ sig) = W (main_arg0 : DevRef τ sig) := by
  simp only [after_cons, after_nil]
  rfl
theorem e1_arg1 (W : Valuation τ sig (Elt F)) : after e1 W (main_arg1 : DevRef τ sig) = W (main_arg1 : DevRef τ sig) := by
  simp only [after_cons, after_nil]
  rfl
theorem e1_arg2 (W : Valuation τ sig (Elt F)) : after e1 W (main_arg2 : DevRef τ sig) = W (main_arg2 : DevRef τ sig) := by
  simp only [after_cons, after_nil]
  rfl
theorem e1_arg3 (W : Valuation τ sig (Elt F)) : after e1 W (main_arg3 : DevRef τ sig) = W (main_arg3 : DevRef τ sig) := by
  simp only [after_cons, after_nil]
  rfl
theorem e1_arg4 (W : Valuation τ sig (Elt F)) : after e1 W (main_arg4 : DevRef τ sig) = W (main_arg4 : DevRef τ sig) := by
  simp only [after_cons, after_nil]
  rfl
theorem e1_arg5 (W : Valuation τ sig (Elt F)) : after e1 W (main_arg5 : DevRef τ sig) = W (main_arg5 : DevRef τ sig) := by
  simp only [after_cons, after_nil]
  rfl
theorem e1_v22 (W : Valuation τ sig (Elt F)) : after e1 W (main_v22 : DevRef τ sig) = W (main_v22 : DevRef τ sig) := by
  simp only [after_cons, after_nil]
  rfl
theorem a2_arg0 (W : Valuation τ sig (Elt F)) : after a2 W (main_arg0 : DevRef τ sig) = W (main_arg0 : DevRef τ sig) := by
  simp only [after_cons, after_nil]
  rfl
theorem a2_arg1 (W : Valuation τ sig (Elt F)) : after a2 W (main_arg1 : DevRef τ sig) = W (main_arg1 : DevRef τ sig) := by
  simp only [after_cons, after_nil]
  rfl
theorem a2_arg2 (W : Valuation τ sig (Elt F)) : after a2 W (main_arg2 : DevRef τ sig) = W (main_arg2 : DevRef τ sig) := by
  simp only [after_cons, after_nil]
  rfl
theorem a2_arg3 (W : Valuation τ sig (Elt F)) : after a2 W (main_arg3 : DevRef τ sig) = W (main_arg3 : DevRef τ sig) := by
  simp only [after_cons, after_nil]
  rfl
theorem a2_arg4 (W : Valuation τ sig (Elt F)) : after a2 W (main_arg4 : DevRef τ sig) = W (main_arg4 : DevRef τ sig) := by
  simp only [after_cons, after_nil]
  rfl
theorem a2_arg5 (W : Valuation τ sig (Elt F)) : after a2 W (main_arg5 : DevRef τ sig) = W (main_arg5 : DevRef τ sig) := by
  simp only [after_cons, after_nil]
  rfl
theorem e2_arg0 (W : Valuation τ sig (Elt F)) : after e2 W (main_arg0 : DevRef τ sig) = W (main_arg0 : DevRef τ sig) := by
  simp only [after_cons, after_nil]
  rfl
theorem e2_arg1 (W : Valuation τ sig (Elt F)) : after e2 W (main_arg1 : DevRef τ sig) = W (main_arg1 : DevRef τ sig) := by
  simp only [after_cons, after_nil]
  rfl
theorem e2_arg2 (W : Valuation τ sig (Elt F)) : after e2 W (main_arg2 : DevRef τ sig) = W (main_arg2 : DevRef τ sig) := by
  simp only [after_cons, after_nil]
  rfl
theorem e2_arg3 (W : Valuation τ sig (Elt F)) : after e2 W (main_arg3 : DevRef τ sig) = W (main_arg3 : DevRef τ sig) := by
  simp only [after_cons, after_nil]
  rfl
theorem e2_arg4 (W : Valuation τ sig (Elt F)) : after e2 W (main_arg4 : DevRef τ sig) = W (main_arg4 : DevRef τ sig) := by
  simp only [after_cons, after_nil]
  rfl
theorem e2_arg5 (W : Valuation τ sig (Elt F)) : after e2 W (main_arg5 : DevRef τ sig) = W (main_arg5 : DevRef τ sig) := by
  simp only [after_cons, after_nil]
  rfl

end Cert.ReferenceIdeal.Hand

end
-- ==== Proof.RefValue.lean ====
/-
  What the reference program's run leaves in its result buffer: the three-layer composition of the stages.

  The line of operations is read stretch by stretch.  The last stretch's result is ELU of layer 2's sum, which
  reads layer 1's output, the normalised edge weights and the arguments as the stretches before left them;
  each of those is in turn one stage function of what came before, or untouched.  Substituting from the last
  stretch back to the first leaves the stage functions composed over the six argument arrays.  No operation
  writes an argument buffer, so the arguments end as they began.
-/
import proofs.«104657_j9869834846327_1_alg».proof.Proof.RefChunks

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

attribute [local irreducible] Host.scatterAdd Host.gather in
set_option maxRecDepth 16384 in
/-- The fold of the whole line at the result buffer is the three-layer composition of the arguments. -/
theorem out_eq (V : Valuation τ sig (Elt F)) :
    after ops V (main_v88 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  rw [ops_split]
  simp only [after_app]
  rw [e2_out, a2_out]
  rw [e1_out, e1_arg2, e1_arg3, e1_v22, e1_arg4, e1_arg5]
  rw [a1_out, a1_arg2, a1_arg3, a1_v22, a1_arg4, a1_arg5]
  rw [e0_out, e0_arg2, e0_arg3, e0_v22, e0_arg4, e0_arg5]
  rw [a0_out, a0_arg2, a0_arg3, a0_v22, a0_arg4, a0_arg5]
  rw [c1_out, c1_arg0, c1_arg2, c1_arg3, c1_arg4, c1_arg5]
  rfl

set_option maxRecDepth 16384 in
/-- No operation of the line writes argument 0. -/
theorem arg0_eq (V : Valuation τ sig (Elt F)) :
    after ops V (main_arg0 : DevRef τ sig) = V (main_arg0 : DevRef τ sig) := by
  simp only [List.cons_append, List.nil_append, after_cons, after_nil]
  rfl

set_option maxRecDepth 16384 in
/-- No operation of the line writes argument 1. -/
theorem arg1_eq (V : Valuation τ sig (Elt F)) :
    after ops V (main_arg1 : DevRef τ sig) = V (main_arg1 : DevRef τ sig) := by
  simp only [List.cons_append, List.nil_append, after_cons, after_nil]
  rfl

set_option maxRecDepth 16384 in
/-- No operation of the line writes argument 2. -/
theorem arg2_eq (V : Valuation τ sig (Elt F)) :
    after ops V (main_arg2 : DevRef τ sig) = V (main_arg2 : DevRef τ sig) := by
  simp only [List.cons_append, List.nil_append, after_cons, after_nil]
  rfl

set_option maxRecDepth 16384 in
/-- No operation of the line writes argument 3. -/
theorem arg3_eq (V : Valuation τ sig (Elt F)) :
    after ops V (main_arg3 : DevRef τ sig) = V (main_arg3 : DevRef τ sig) := by
  simp only [List.cons_append, List.nil_append, after_cons, after_nil]
  rfl

set_option maxRecDepth 16384 in
/-- No operation of the line writes argument 4. -/
theorem arg4_eq (V : Valuation τ sig (Elt F)) :
    after ops V (main_arg4 : DevRef τ sig) = V (main_arg4 : DevRef τ sig) := by
  simp only [List.cons_append, List.nil_append, after_cons, after_nil]
  rfl

set_option maxRecDepth 16384 in
/-- No operation of the line writes argument 5. -/
theorem arg5_eq (V : Valuation τ sig (Elt F)) :
    after ops V (main_arg5 : DevRef τ sig) = V (main_arg5 : DevRef τ sig) := by
  simp only [List.cons_append, List.nil_append, after_cons, after_nil]
  rfl

/-- On every device, for any float values, from any memory with zero counters: every weakly fair execution of
    the reference terminates with the result buffer at the three-layer composition of the arguments' launch
    contents, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v88) = refOut (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v88).trans (out_eq (launchContents m c)),
      (h c main_arg0).trans (arg0_eq (launchContents m c)),
      (h c main_arg1).trans (arg1_eq (launchContents m c)),
      (h c main_arg2).trans (arg2_eq (launchContents m c)),
      (h c main_arg3).trans (arg3_eq (launchContents m c)),
      (h c main_arg4).trans (arg4_eq (launchContents m c)),
      (h c main_arg5).trans (arg5_eq (launchContents m c))⟩)
    (run_all m ρ)

end Cert.ReferenceIdeal.Hand

end
-- ==== Proof.lean ====
/-
  The certificate of a three-layer graph convolution: a kernel program that runs the dense part of every layer
  (the product with the layer's weight matrix; the previous layer's bias and ELU) on row blocks of 8192 padded
  rows in four regions, with the aggregation over the edges on the host between them, against a reference that
  does everything on the host.

  The three frames: the two kernel programs' are the generated frame certificates; the reference has no region,
  and its frame is its run with the result dropped.  No operation of the kernel was rewritten for the ideal
  reading, so nothing is owed for it.  The value claim: the idealized kernel's run ends with its result at one
  function of the six arguments (each region's output array is a whole-array function of the arrays it reads;
  the host stretches are the named stages), the reference's run ends at the reference's composed stages, and the
  two are one function on the extended reals — a cut row of a zero-padded array is the row itself, a row block's
  product is the host's contraction, the two spellings of ELU agree everywhere (also at the infinities), and the
  aggregation is the same chain of host operations on both sides.  No step of the comparison moves a factor
  across a sum or cancels, so the finiteness of the inputs is never used.
-/
import proofs.«104657_j9869834846327_1_alg».proof.Defs
import proofs.«104657_j9869834846327_1_alg».proof.Proof.Gen.Kernel
import proofs.«104657_j9869834846327_1_alg».proof.Proof.Gen.Kernel.Frame
import proofs.«104657_j9869834846327_1_alg».proof.Proof.Gen.KernelIdeal
import proofs.«104657_j9869834846327_1_alg».proof.Proof.Gen.KernelIdeal.Frame
import proofs.«104657_j9869834846327_1_alg».proof.Proof.Gen.ReferenceIdeal
import proofs.«104657_j9869834846327_1_alg».proof.Proof.Gen.Pre_finite_inputs
import proofs.«104657_j9869834846327_1_alg».proof.Proof.KerRun
import proofs.«104657_j9869834846327_1_alg».proof.Proof.KerChain
import proofs.«104657_j9869834846327_1_alg».proof.Proof.Layer0
import proofs.«104657_j9869834846327_1_alg».proof.Proof.Layer1
import proofs.«104657_j9869834846327_1_alg».proof.Proof.Layer2
import proofs.«104657_j9869834846327_1_alg».proof.Proof.Layer3
import proofs.«104657_j9869834846327_1_alg».proof.Proof.Bridge
import proofs.«104657_j9869834846327_1_alg».proof.Proof.RefValue

noncomputable section

namespace Cert.Proof

open Idealize.ShloMosaic Idealize.SL.Sem

/-- Each region's output array as a whole-array function of the arrays the region reads. -/
theorem regionValues : Cert.KernelIdeal.Hand.RegionValues :=
  ⟨fun V c => Cert.KernelIdeal.Hand.final0 V c, fun V c => Cert.KernelIdeal.Hand.final1 V c,
    fun V c => Cert.KernelIdeal.Hand.final2 V c, fun V c => Cert.KernelIdeal.Hand.final3 V c⟩

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Hand.run (F := Ideal) m ρ)

theorem preserves : Cert.preserves_Kernel_KernelIdeal := trivial

/-- Both idealized programs, from memories agreeing on the arguments, end with the same result array. -/
theorem algebraic : Cert.algebraic_KernelIdeal_ReferenceIdeal := by
  intro m ρ m' ρ' _ hagree
  refine ⟨fun c => Cert.KernelIdeal.Hand.kerOut (Cert.KernelIdeal.Hand.xA m c) (Cert.KernelIdeal.Hand.ewA m c)
    (Cert.KernelIdeal.Hand.wA m c) (Cert.KernelIdeal.Hand.bA m c) (Cert.KernelIdeal.Hand.srcA m c)
    (Cert.KernelIdeal.Hand.dstA m c), ?_, ?_⟩
  · exact (θ_run (Cert.KernelIdeal.defs (F := Ideal)) _ _).mono
      (fun r h c => ⟨(h c).1.trans (Cert.KernelIdeal.Hand.result_eq m ρ regionValues c), (h c).2⟩)
      (Cert.KernelIdeal.Hand.run_result m ρ)
  · refine (θ_run (Cert.ReferenceIdeal.defs (F := Ideal)) _ _).mono (fun r h c => ⟨(h c).1.trans ?_, (h c).2⟩)
      (Cert.ReferenceIdeal.Hand.run (F := Ideal) m' ρ')
    obtain ⟨h0, h1, h2, h3, h4, h5⟩ := hagree c
    rw [h0, h1, h2, h3, h4, h5]
    exact (Cert.Gcn.Bridge.kerOut_eq_refOut _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
